-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel

variable [Facts]

def fn {F : FTy → Type} [FloatOps F] (main_arg0 : FVec F S8x256x128x128 .f32) (main_arg1 : FVec F S8x256x128x128 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S8x256x128x128 .f32 := Host.absf main_arg1
  let main_cst_0 : FVec F S_ .f32 := constant S_ .f32 0x7F800000#32
  let main_v5 : FVec F S8x256x128x128 .f32 := broadcastInDim S8x256x128x128 ![] bcast_S_S8x256x128x128 main_cst_0
  let main_v6 : IVec S8x256x128x128 1 := cmpf .olt main_v4 main_v5
  let main_c_1 : IVec S_ 1 := constantI S_ 1 1#1
  let main_v7 : IVec S_ 1 := (fun x v => Host.reduce IntOp.andi x v reducesTo_S8x256x128x128_S_d0_1_2_3 h_S_) main_v6 main_c_1
  let main_v8 : IVec S_ 1 := andi main_v3 main_v7
  main_v8
-- ==== Kernel.lean ====
abbrev S8x256x128x128 : Shape := ⟨4, ![8, 256, 128, 128]⟩
abbrev S10x256 : Shape := ⟨2, ![10, 256]⟩
abbrev S1x256 : Shape := ⟨2, ![1, 256]⟩
abbrev S256 : Shape := ⟨1, ![256]⟩
abbrev S_ : Shape := ⟨0, ![]⟩
abbrev S1x128x64x128 : Shape := ⟨4, ![1, 128, 64, 128]⟩
abbrev S10x128 : Shape := ⟨2, ![10, 128]⟩
abbrev S128x128 : Shape := ⟨2, ![128, 128]⟩
abbrev S128x64x128 : Shape := ⟨3, ![128, 64, 128]⟩
abbrev S128 : Shape := ⟨1, ![128]⟩
abbrev S1x128 : Shape := ⟨2, ![1, 128]⟩

abbrev nBuf : Space → Nat
  | .hbm => 390
  | .vmem => 16
  | .smem => 0
  | _ => 0

abbrev hbmTy0_0 (i : Nat) : BufTy := match i % 128 with
  | 0 => ⟨S8x256x128x128, .f32⟩
  | 1 => ⟨S8x256x128x128, .f32⟩
  | 2 => ⟨S10x256, .f32⟩
  | 3 => ⟨S1x256, .f32⟩
  | 4 => ⟨S256, .f32⟩
  | 5 => ⟨S1x256, .f32⟩
  | 6 => ⟨S256, .f32⟩
  | 7 => ⟨S1x256, .f32⟩
  | 8 => ⟨S256, .f32⟩
  | 9 => ⟨S1x256, .f32⟩
  | 10 => ⟨S256, .f32⟩
  | 11 => ⟨S1x256, .f32⟩
  | 12 => ⟨S256, .f32⟩
  | 13 => ⟨S1x256, .f32⟩
  | 14 => ⟨S256, .f32⟩
  | 15 => ⟨S1x256, .f32⟩
  | 16 => ⟨S256, .f32⟩
  | 17 => ⟨S1x256, .f32⟩
  | 18 => ⟨S256, .f32⟩
  | 19 => ⟨S1x256, .f32⟩
  | 20 => ⟨S256, .f32⟩
  | 21 => ⟨S1x256, .f32⟩
  | 22 => ⟨S256, .f32⟩
  | 23 => ⟨S_, .f32⟩
  | 24 => ⟨S256, .f32⟩
  | 25 => ⟨S256, .f32⟩
  | 26 => ⟨S_, .f32⟩
  | 27 => ⟨S256, .f32⟩
  | 28 => ⟨S256, .f32⟩
  | 29 => ⟨S256, .f32⟩
  | 30 => ⟨S256, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S256, .f32⟩
  | 38 => ⟨S256, .f32⟩
  | 39 => ⟨S256, .f32⟩
  | 40 => ⟨S_, .f32⟩
  | 41 => ⟨S256, .f32⟩
  | 42 => ⟨S256, .f32⟩
  | 43 => ⟨S_, .f32⟩
  | 44 => ⟨S256, .f32⟩
  | 45 => ⟨S256, .f32⟩
  | 46 => ⟨S256, .f32⟩
  | 47 => ⟨S256, .f32⟩
  | 48 => ⟨S_, .f32⟩
  | 49 => ⟨S256, .f32⟩
  | 50 => ⟨S256, .f32⟩
  | 51 => ⟨S256, .f32⟩
  | 52 => ⟨S256, .f32⟩
  | 53 => ⟨S256, .f32⟩
  | 54 => ⟨S_, .f32⟩
  | 55 => ⟨S256, .f32⟩
  | 56 => ⟨S_, .f32⟩
  | 57 => ⟨S256, .f32⟩
  | 58 => ⟨S256, .f32⟩
  | 59 => ⟨S256, .f32⟩
  | 60 => ⟨S256, .f32⟩
  | 61 => ⟨S_, .f32⟩
  | 62 => ⟨S256, .f32⟩
  | 63 => ⟨S256, .f32⟩
  | 64 => ⟨S_, .f32⟩
  | 65 => ⟨S256, .f32⟩
  | 66 => ⟨S256, .f32⟩
  | 67 => ⟨S256, .f32⟩
  | 68 => ⟨S_, .f32⟩
  | 69 => ⟨S256, .f32⟩
  | 70 => ⟨S256, .f32⟩
  | 71 => ⟨S_, .f32⟩
  | 72 => ⟨S256, .f32⟩
  | 73 => ⟨S256, .f32⟩
  | 74 => ⟨S256, .f32⟩
  | 75 => ⟨S256, .f32⟩
  | 76 => ⟨S_, .f32⟩
  | 77 => ⟨S256, .f32⟩
  | 78 => ⟨S256, .f32⟩
  | 79 => ⟨S256, .f32⟩
  | 80 => ⟨S256, .f32⟩
  | 81 => ⟨S256, .f32⟩
  | 82 => ⟨S_, .f32⟩
  | 83 => ⟨S256, .f32⟩
  | 84 => ⟨S_, .f32⟩
  | 85 => ⟨S256, .f32⟩
  | 86 => ⟨S256, .f32⟩
  | 87 => ⟨S256, .f32⟩
  | 88 => ⟨S256, .f32⟩
  | 89 => ⟨S_, .f32⟩
  | 90 => ⟨S256, .f32⟩
  | 91 => ⟨S256, .f32⟩
  | 92 => ⟨S256, .f32⟩
  | 93 => ⟨S256, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S256, .f32⟩
  | 102 => ⟨S256, .f32⟩
  | 103 => ⟨S256, .f32⟩
  | 104 => ⟨S256, .f32⟩
  | 105 => ⟨S_, .f32⟩
  | 106 => ⟨S256, .f32⟩
  | 107 => ⟨S256, .f32⟩
  | 108 => ⟨S_, .f32⟩
  | 109 => ⟨S256, .f32⟩
  | 110 => ⟨S256, .f32⟩
  | 111 => ⟨S256, .f32⟩
  | 112 => ⟨S256, .f32⟩
  | 113 => ⟨S256, .f32⟩
  | 114 => ⟨S_, .f32⟩
  | 115 => ⟨S256, .f32⟩
  | 116 => ⟨S256, .f32⟩
  | 117 => ⟨S256, .f32⟩
  | 118 => ⟨S256, .f32⟩
  | 119 => ⟨S256, .f32⟩
  | 120 => ⟨S_, .f32⟩
  | 121 => ⟨S256, .f32⟩
  | 122 => ⟨S256, .f32⟩
  | 123 => ⟨S256, .f32⟩
  | 124 => ⟨S256, .f32⟩
  | 125 => ⟨S256, .f32⟩
  | 126 => ⟨S_, .f32⟩
  | 127 => ⟨S256, .f32⟩
  | _ => ⟨S8x256x128x128, .f32⟩

abbrev hbmTy0_1 (i : Nat) : BufTy := match i % 128 with
  | 0 => ⟨S_, .f32⟩
  | 1 => ⟨S256, .f32⟩
  | 2 => ⟨S256, .f32⟩
  | 3 => ⟨S256, .f32⟩
  | 4 => ⟨S256, .f32⟩
  | 5 => ⟨S_, .f32⟩
  | 6 => ⟨S256, .f32⟩
  | 7 => ⟨S256, .f32⟩
  | 8 => ⟨S_, .f32⟩
  | 9 => ⟨S256, .f32⟩
  | 10 => ⟨S256, .f32⟩
  | 11 => ⟨S256, .f32⟩
  | 12 => ⟨S256, .f32⟩
  | 13 => ⟨S_, .f32⟩
  | 14 => ⟨S256, .f32⟩
  | 15 => ⟨S256, .f32⟩
  | 16 => ⟨S_, .f32⟩
  | 17 => ⟨S256, .f32⟩
  | 18 => ⟨S256, .f32⟩
  | 19 => ⟨S256, .f32⟩
  | 20 => ⟨S256, .f32⟩
  | 21 => ⟨S256, .f32⟩
  | 22 => ⟨S_, .f32⟩
  | 23 => ⟨S256, .f32⟩
  | 24 => ⟨S256, .f32⟩
  | 25 => ⟨S256, .f32⟩
  | 26 => ⟨S256, .f32⟩
  | 27 => ⟨S256, .f32⟩
  | 28 => ⟨S_, .f32⟩
  | 29 => ⟨S256, .f32⟩
  | 30 => ⟨S256, .f32⟩
  | 31 => ⟨S256, .f32⟩
  | 32 => ⟨S256, .f32⟩
  | 33 => ⟨S256, .f32⟩
  | 34 => ⟨S_, .f32⟩
  | 35 => ⟨S256, .f32⟩
  | 36 => ⟨S_, .f32⟩
  | 37 => ⟨S256, .f32⟩
  | 38 => ⟨S256, .f32⟩
  | 39 => ⟨S256, .f32⟩
  | 40 => ⟨S256, .f32⟩
  | 41 => ⟨S_, .f32⟩
  | 42 => ⟨S256, .f32⟩
  | 43 => ⟨S256, .f32⟩
  | 44 => ⟨S256, .f32⟩
  | 45 => ⟨S256, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S256, .f32⟩
  | 54 => ⟨S256, .f32⟩
  | 55 => ⟨S256, .f32⟩
  | 56 => ⟨S256, .f32⟩
  | 57 => ⟨S_, .f32⟩
  | 58 => ⟨S256, .f32⟩
  | 59 => ⟨S256, .f32⟩
  | 60 => ⟨S_, .f32⟩
  | 61 => ⟨S256, .f32⟩
  | 62 => ⟨S256, .f32⟩
  | 63 => ⟨S256, .f32⟩
  | 64 => ⟨S256, .f32⟩
  | 65 => ⟨S256, .f32⟩
  | 66 => ⟨S256, .f32⟩
  | 67 => ⟨S_, .f32⟩
  | 68 => ⟨S256, .f32⟩
  | 69 => ⟨S256, .f32⟩
  | 70 => ⟨S256, .f32⟩
  | 71 => ⟨S256, .f32⟩
  | 72 => ⟨S256, .f32⟩
  | 73 => ⟨S256, .f32⟩
  | 74 => ⟨S_, .f32⟩
  | 75 => ⟨S256, .f32⟩
  | 76 => ⟨S256, .f32⟩
  | 77 => ⟨S256, .f32⟩
  | 78 => ⟨S256, .f32⟩
  | 79 => ⟨S256, .f32⟩
  | 80 => ⟨S_, .f32⟩
  | 81 => ⟨S256, .f32⟩
  | 82 => ⟨S256, .f32⟩
  | 83 => ⟨S256, .f32⟩
  | 84 => ⟨S256, .f32⟩
  | 85 => ⟨S256, .f32⟩
  | 86 => ⟨S_, .f32⟩
  | 87 => ⟨S256, .f32⟩
  | 88 => ⟨S_, .f32⟩
  | 89 => ⟨S256, .f32⟩
  | 90 => ⟨S256, .f32⟩
  | 91 => ⟨S256, .f32⟩
  | 92 => ⟨S256, .f32⟩
  | 93 => ⟨S_, .f32⟩
  | 94 => ⟨S256, .f32⟩
  | 95 => ⟨S256, .f32⟩
  | 96 => ⟨S_, .f32⟩
  | 97 => ⟨S256, .f32⟩
  | 98 => ⟨S256, .f32⟩
  | 99 => ⟨S256, .f32⟩
  | 100 => ⟨S256, .f32⟩
  | 101 => ⟨S_, .f32⟩
  | 102 => ⟨S256, .f32⟩
  | 103 => ⟨S256, .f32⟩
  | 104 => ⟨S_, .f32⟩
  | 105 => ⟨S256, .f32⟩
  | 106 => ⟨S256, .f32⟩
  | 107 => ⟨S256, .f32⟩
  | 108 => ⟨S256, .f32⟩
  | 109 => ⟨S256, .f32⟩
  | 110 => ⟨S256, .f32⟩
  | 111 => ⟨S_, .f32⟩
  | 112 => ⟨S256, .f32⟩
  | 113 => ⟨S256, .f32⟩
  | 114 => ⟨S256, .f32⟩
  | 115 => ⟨S256, .f32⟩
  | 116 => ⟨S256, .f32⟩
  | 117 => ⟨S256, .f32⟩
  | 118 => ⟨S_, .f32⟩
  | 119 => ⟨S256, .f32⟩
  | 120 => ⟨S256, .f32⟩
  | 121 => ⟨S256, .f32⟩
  | 122 => ⟨S256, .f32⟩
  | 123 => ⟨S256, .f32⟩
  | 124 => ⟨S_, .f32⟩
  | 125 => ⟨S256, .f32⟩
  | 126 => ⟨S256, .f32⟩
  | 127 => ⟨S256, .f32⟩
  | _ => ⟨S8x256x128x128, .f32⟩

abbrev hbmTy0_2 (i : Nat) : BufTy := match i % 128 with
  | 0 => ⟨S256, .f32⟩
  | 1 => ⟨S256, .f32⟩
  | 2 => ⟨S_, .f32⟩
  | 3 => ⟨S256, .f32⟩
  | 4 => ⟨S_, .f32⟩
  | 5 => ⟨S256, .f32⟩
  | 6 => ⟨S256, .f32⟩
  | 7 => ⟨S256, .f32⟩
  | 8 => ⟨S256, .f32⟩
  | 9 => ⟨S_, .f32⟩
  | 10 => ⟨S256, .f32⟩
  | 11 => ⟨S256, .f32⟩
  | 12 => ⟨S256, .f32⟩
  | 13 => ⟨S256, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S256, .f32⟩
  | 22 => ⟨S256, .f32⟩
  | 23 => ⟨S256, .f32⟩
  | 24 => ⟨S256, .f32⟩
  | 25 => ⟨S256, .f32⟩
  | 26 => ⟨S_, .f32⟩
  | 27 => ⟨S256, .f32⟩
  | 28 => ⟨S256, .f32⟩
  | 29 => ⟨S_, .f32⟩
  | 30 => ⟨S256, .f32⟩
  | 31 => ⟨S256, .f32⟩
  | 32 => ⟨S256, .f32⟩
  | 33 => ⟨S256, .f32⟩
  | 34 => ⟨S256, .f32⟩
  | 35 => ⟨S256, .f32⟩
  | 36 => ⟨S_, .f32⟩
  | 37 => ⟨S256, .f32⟩
  | 38 => ⟨S256, .f32⟩
  | 39 => ⟨S256, .f32⟩
  | 40 => ⟨S256, .f32⟩
  | 41 => ⟨S256, .f32⟩
  | 42 => ⟨S256, .f32⟩
  | 43 => ⟨S256, .f32⟩
  | 44 => ⟨S_, .f32⟩
  | 45 => ⟨S256, .f32⟩
  | 46 => ⟨S256, .f32⟩
  | 47 => ⟨S256, .f32⟩
  | 48 => ⟨S256, .f32⟩
  | 49 => ⟨S256, .f32⟩
  | 50 => ⟨S256, .f32⟩
  | 51 => ⟨S_, .f32⟩
  | 52 => ⟨S256, .f32⟩
  | 53 => ⟨S256, .f32⟩
  | 54 => ⟨S256, .f32⟩
  | 55 => ⟨S256, .f32⟩
  | 56 => ⟨S256, .f32⟩
  | 57 => ⟨S_, .f32⟩
  | 58 => ⟨S256, .f32⟩
  | 59 => ⟨S256, .f32⟩
  | 60 => ⟨S256, .f32⟩
  | 61 => ⟨S256, .f32⟩
  | 62 => ⟨S256, .f32⟩
  | 63 => ⟨S_, .f32⟩
  | 64 => ⟨S256, .f32⟩
  | 65 => ⟨S_, .f32⟩
  | 66 => ⟨S256, .f32⟩
  | 67 => ⟨S256, .f32⟩
  | 68 => ⟨S256, .f32⟩
  | 69 => ⟨S256, .f32⟩
  | 70 => ⟨S_, .f32⟩
  | 71 => ⟨S256, .f32⟩
  | 72 => ⟨S256, .f32⟩
  | 73 => ⟨S_, .f32⟩
  | 74 => ⟨S256, .f32⟩
  | 75 => ⟨S256, .f32⟩
  | 76 => ⟨S256, .f32⟩
  | 77 => ⟨S256, .f32⟩
  | 78 => ⟨S256, .f32⟩
  | 79 => ⟨S_, .f32⟩
  | 80 => ⟨S256, .f32⟩
  | 81 => ⟨S256, .f32⟩
  | 82 => ⟨S_, .f32⟩
  | 83 => ⟨S256, .f32⟩
  | 84 => ⟨S256, .f32⟩
  | 85 => ⟨S256, .f32⟩
  | 86 => ⟨S256, .f32⟩
  | 87 => ⟨S256, .f32⟩
  | 88 => ⟨S256, .f32⟩
  | 89 => ⟨S_, .f32⟩
  | 90 => ⟨S256, .f32⟩
  | 91 => ⟨S256, .f32⟩
  | 92 => ⟨S256, .f32⟩
  | 93 => ⟨S256, .f32⟩
  | 94 => ⟨S256, .f32⟩
  | 95 => ⟨S256, .f32⟩
  | 96 => ⟨S256, .f32⟩
  | 97 => ⟨S_, .f32⟩
  | 98 => ⟨S256, .f32⟩
  | 99 => ⟨S256, .f32⟩
  | 100 => ⟨S256, .f32⟩
  | 101 => ⟨S256, .f32⟩
  | 102 => ⟨S256, .f32⟩
  | 103 => ⟨S256, .f32⟩
  | 104 => ⟨S_, .f32⟩
  | 105 => ⟨S256, .f32⟩
  | 106 => ⟨S256, .f32⟩
  | 107 => ⟨S256, .f32⟩
  | 108 => ⟨S256, .f32⟩
  | 109 => ⟨S256, .f32⟩
  | 110 => ⟨S_, .f32⟩
  | 111 => ⟨S256, .f32⟩
  | 112 => ⟨S256, .f32⟩
  | 113 => ⟨S256, .f32⟩
  | 114 => ⟨S256, .f32⟩
  | 115 => ⟨S256, .f32⟩
  | 116 => ⟨S_, .f32⟩
  | 117 => ⟨S256, .f32⟩
  | 118 => ⟨S_, .f32⟩
  | 119 => ⟨S256, .f32⟩
  | 120 => ⟨S256, .f32⟩
  | 121 => ⟨S256, .f32⟩
  | 122 => ⟨S256, .f32⟩
  | 123 => ⟨S_, .f32⟩
  | 124 => ⟨S256, .f32⟩
  | 125 => ⟨S256, .f32⟩
  | 126 => ⟨S256, .f32⟩
  | 127 => ⟨S256, .f32⟩
  | _ => ⟨S8x256x128x128, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | _ => ⟨S8x256x128x128, .f32⟩

abbrev hbmTy (i : Nat) : BufTy := match i / 128 with
  | 0 => hbmTy0_0 i
  | 1 => hbmTy0_1 i
  | 2 => hbmTy0_2 i
  | 3 => hbmTy0_3 i
  | _ => ⟨S8x256x128x128, .f32⟩

abbrev bufTy : (tb : Table) → Fin (tcTables nBuf tb) → BufTy
  | .hbm, ⟨i, _⟩ => hbmTy i
  | .local _ .vmem, ⟨0, _⟩ => ⟨S1x128x64x128, .f32⟩
  | .local _ .vmem, ⟨1, _⟩ => ⟨S1x128x64x128, .f32⟩
  | .local _ .vmem, ⟨2, _⟩ => ⟨S1x128x64x128, .f32⟩
  | .local _ .vmem, ⟨3, _⟩ => ⟨S1x128x64x128, .f32⟩
  | .local _ .vmem, ⟨4, _⟩ => ⟨S10x128, .f32⟩
  | .local _ .vmem, ⟨5, _⟩ => ⟨S10x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_call0_v15 : Ref sig .tc := ⟨.hbm, 17, rfl⟩
abbrev main_call0_v16 : Ref sig .tc := ⟨.hbm, 18, rfl⟩
abbrev main_call0_v17 : Ref sig .tc := ⟨.hbm, 19, rfl⟩
abbrev main_call0_v18 : Ref sig .tc := ⟨.hbm, 20, rfl⟩
abbrev main_call0_v19 : Ref sig .tc := ⟨.hbm, 21, rfl⟩
abbrev main_call0_v20 : Ref sig .tc := ⟨.hbm, 22, rfl⟩
abbrev main_call0_cst : Ref sig .tc := ⟨.hbm, 23, rfl⟩
abbrev main_call0_v21 : Ref sig .tc := ⟨.hbm, 24, rfl⟩
abbrev main_call0_v22 : Ref sig .tc := ⟨.hbm, 25, rfl⟩
abbrev main_call0_cst_0 : Ref sig .tc := ⟨.hbm, 26, rfl⟩
abbrev main_call0_v23 : Ref sig .tc := ⟨.hbm, 27, rfl⟩
abbrev main_call0_v24 : Ref sig .tc := ⟨.hbm, 28, rfl⟩
abbrev main_call0_v25 : Ref sig .tc := ⟨.hbm, 29, rfl⟩
abbrev main_call0_v26 : Ref sig .tc := ⟨.hbm, 30, rfl⟩
abbrev main_call0_cst_1 : Ref sig .tc := ⟨.hbm, 31, rfl⟩
abbrev main_call0_v27 : Ref sig .tc := ⟨.hbm, 32, rfl⟩
abbrev main_call0_v28 : Ref sig .tc := ⟨.hbm, 33, rfl⟩
abbrev main_call0_cst_2 : Ref sig .tc := ⟨.hbm, 34, rfl⟩
abbrev main_call0_v29 : Ref sig .tc := ⟨.hbm, 35, rfl⟩
abbrev main_call0_cst_3 : Ref sig .tc := ⟨.hbm, 36, rfl⟩
abbrev main_call0_v30 : Ref sig .tc := ⟨.hbm, 37, rfl⟩
abbrev main_call0_v31 : Ref sig .tc := ⟨.hbm, 38, rfl⟩
abbrev main_call0_v32 : Ref sig .tc := ⟨.hbm, 39, rfl⟩
abbrev main_call0_cst_4 : Ref sig .tc := ⟨.hbm, 40, rfl⟩
abbrev main_call0_v33 : Ref sig .tc := ⟨.hbm, 41, rfl⟩
abbrev main_call0_v34 : Ref sig .tc := ⟨.hbm, 42, rfl⟩
abbrev main_call0_cst_5 : Ref sig .tc := ⟨.hbm, 43, rfl⟩
abbrev main_call0_v35 : Ref sig .tc := ⟨.hbm, 44, rfl⟩
abbrev main_call0_v36 : Ref sig .tc := ⟨.hbm, 45, rfl⟩
abbrev main_call0_v37 : Ref sig .tc := ⟨.hbm, 46, rfl⟩
abbrev main_call0_v38 : Ref sig .tc := ⟨.hbm, 47, rfl⟩
abbrev main_call0_cst_6 : Ref sig .tc := ⟨.hbm, 48, rfl⟩
abbrev main_call0_v39 : Ref sig .tc := ⟨.hbm, 49, rfl⟩
abbrev main_call0_v40 : Ref sig .tc := ⟨.hbm, 50, rfl⟩
abbrev main_call0_v41 : Ref sig .tc := ⟨.hbm, 51, rfl⟩
abbrev main_call0_v42 : Ref sig .tc := ⟨.hbm, 52, rfl⟩
abbrev main_call0_v43 : Ref sig .tc := ⟨.hbm, 53, rfl⟩
abbrev main_call0_cst_7 : Ref sig .tc := ⟨.hbm, 54, rfl⟩
abbrev main_call0_v44 : Ref sig .tc := ⟨.hbm, 55, rfl⟩
abbrev main_call0_cst_8 : Ref sig .tc := ⟨.hbm, 56, rfl⟩
abbrev main_call0_v45 : Ref sig .tc := ⟨.hbm, 57, rfl⟩
abbrev main_call0_v46 : Ref sig .tc := ⟨.hbm, 58, rfl⟩
abbrev main_call0_v47 : Ref sig .tc := ⟨.hbm, 59, rfl⟩
abbrev main_call0_v48 : Ref sig .tc := ⟨.hbm, 60, rfl⟩
abbrev main_call0_cst_9 : Ref sig .tc := ⟨.hbm, 61, rfl⟩
abbrev main_call0_v49 : Ref sig .tc := ⟨.hbm, 62, rfl⟩
abbrev main_call0_v50 : Ref sig .tc := ⟨.hbm, 63, rfl⟩
abbrev main_call0_cst_10 : Ref sig .tc := ⟨.hbm, 64, rfl⟩
abbrev main_call0_v51 : Ref sig .tc := ⟨.hbm, 65, rfl⟩
abbrev main_call0_v52 : Ref sig .tc := ⟨.hbm, 66, rfl⟩
abbrev main_call0_v53 : Ref sig .tc := ⟨.hbm, 67, rfl⟩
abbrev main_call0_cst_11 : Ref sig .tc := ⟨.hbm, 68, rfl⟩
abbrev main_call0_v54 : Ref sig .tc := ⟨.hbm, 69, rfl⟩
abbrev main_call0_v55 : Ref sig .tc := ⟨.hbm, 70, rfl⟩
abbrev main_call0_cst_12 : Ref sig .tc := ⟨.hbm, 71, rfl⟩
abbrev main_call0_v56 : Ref sig .tc := ⟨.hbm, 72, rfl⟩
abbrev main_call0_v57 : Ref sig .tc := ⟨.hbm, 73, rfl⟩
abbrev main_call0_v58 : Ref sig .tc := ⟨.hbm, 74, rfl⟩
abbrev main_call0_v59 : Ref sig .tc := ⟨.hbm, 75, rfl⟩
abbrev main_call0_cst_13 : Ref sig .tc := ⟨.hbm, 76, rfl⟩
abbrev main_call0_v60 : Ref sig .tc := ⟨.hbm, 77, rfl⟩
abbrev main_call0_v61 : Ref sig .tc := ⟨.hbm, 78, rfl⟩
abbrev main_call0_v62 : Ref sig .tc := ⟨.hbm, 79, rfl⟩
abbrev main_call0_v63 : Ref sig .tc := ⟨.hbm, 80, rfl⟩
abbrev main_call0_v64 : Ref sig .tc := ⟨.hbm, 81, rfl⟩
abbrev main_call0_cst_14 : Ref sig .tc := ⟨.hbm, 82, rfl⟩
abbrev main_call0_v65 : Ref sig .tc := ⟨.hbm, 83, rfl⟩
abbrev main_call0_cst_15 : Ref sig .tc := ⟨.hbm, 84, rfl⟩
abbrev main_call0_v66 : Ref sig .tc := ⟨.hbm, 85, rfl⟩
abbrev main_call0_v67 : Ref sig .tc := ⟨.hbm, 86, rfl⟩
abbrev main_call0_v68 : Ref sig .tc := ⟨.hbm, 87, rfl⟩
abbrev main_call0_v69 : Ref sig .tc := ⟨.hbm, 88, rfl⟩
abbrev main_call0_cst_16 : Ref sig .tc := ⟨.hbm, 89, rfl⟩
abbrev main_call0_v70 : Ref sig .tc := ⟨.hbm, 90, rfl⟩
abbrev main_call0_v71 : Ref sig .tc := ⟨.hbm, 91, rfl⟩
abbrev main_call0_v72 : Ref sig .tc := ⟨.hbm, 92, rfl⟩
abbrev main_call0_v73 : Ref sig .tc := ⟨.hbm, 93, rfl⟩
abbrev main_call0_cst_17 : Ref sig .tc := ⟨.hbm, 94, rfl⟩
abbrev main_call0_v74 : Ref sig .tc := ⟨.hbm, 95, rfl⟩
abbrev main_call0_v75 : Ref sig .tc := ⟨.hbm, 96, rfl⟩
abbrev main_call0_cst_18 : Ref sig .tc := ⟨.hbm, 97, rfl⟩
abbrev main_call0_v76 : Ref sig .tc := ⟨.hbm, 98, rfl⟩
abbrev main_call0_v77 : Ref sig .tc := ⟨.hbm, 99, rfl⟩
abbrev main_call0_cst_19 : Ref sig .tc := ⟨.hbm, 100, rfl⟩
abbrev main_call0_v78 : Ref sig .tc := ⟨.hbm, 101, rfl⟩
abbrev main_call0_v79 : Ref sig .tc := ⟨.hbm, 102, rfl⟩
abbrev main_call0_v80 : Ref sig .tc := ⟨.hbm, 103, rfl⟩
abbrev main_call0_v81 : Ref sig .tc := ⟨.hbm, 104, rfl⟩
abbrev main_call0_cst_20 : Ref sig .tc := ⟨.hbm, 105, rfl⟩
abbrev main_call0_v82 : Ref sig .tc := ⟨.hbm, 106, rfl⟩
abbrev main_call0_v83 : Ref sig .tc := ⟨.hbm, 107, rfl⟩
abbrev main_call0_cst_21 : Ref sig .tc := ⟨.hbm, 108, rfl⟩
abbrev main_call0_v84 : Ref sig .tc := ⟨.hbm, 109, rfl⟩
abbrev main_call0_v85 : Ref sig .tc := ⟨.hbm, 110, rfl⟩
abbrev main_call0_v86 : Ref sig .tc := ⟨.hbm, 111, rfl⟩
abbrev main_call0_v87 : Ref sig .tc := ⟨.hbm, 112, rfl⟩
abbrev main_call0_v88 : Ref sig .tc := ⟨.hbm, 113, rfl⟩
abbrev main_call0_cst_22 : Ref sig .tc := ⟨.hbm, 114, rfl⟩
abbrev main_call0_v89 : Ref sig .tc := ⟨.hbm, 115, rfl⟩
abbrev main_call0_v90 : Ref sig .tc := ⟨.hbm, 116, rfl⟩
abbrev main_call0_v91 : Ref sig .tc := ⟨.hbm, 117, rfl⟩
abbrev main_call0_v92 : Ref sig .tc := ⟨.hbm, 118, rfl⟩
abbrev main_call0_v93 : Ref sig .tc := ⟨.hbm, 119, rfl⟩
abbrev main_call0_cst_23 : Ref sig .tc := ⟨.hbm, 120, rfl⟩
abbrev main_call0_v94 : Ref sig .tc := ⟨.hbm, 121, rfl⟩
abbrev main_call0_v95 : Ref sig .tc := ⟨.hbm, 122, rfl⟩
abbrev main_call0_v96 : Ref sig .tc := ⟨.hbm, 123, rfl⟩
abbrev main_call0_v97 : Ref sig .tc := ⟨.hbm, 124, rfl⟩
abbrev main_call0_v98 : Ref sig .tc := ⟨.hbm, 125, rfl⟩
abbrev main_call0_cst_24 : Ref sig .tc := ⟨.hbm, 126, rfl⟩
abbrev main_call0_v99 : Ref sig .tc := ⟨.hbm, 127, rfl⟩
abbrev main_call0_cst_25 : Ref sig .tc := ⟨.hbm, 128, rfl⟩
abbrev main_call0_v100 : Ref sig .tc := ⟨.hbm, 129, rfl⟩
abbrev main_call0_v101 : Ref sig .tc := ⟨.hbm, 130, rfl⟩
abbrev main_call0_v102 : Ref sig .tc := ⟨.hbm, 131, rfl⟩
abbrev main_call0_v103 : Ref sig .tc := ⟨.hbm, 132, rfl⟩
abbrev main_call0_cst_26 : Ref sig .tc := ⟨.hbm, 133, rfl⟩
abbrev main_call0_v104 : Ref sig .tc := ⟨.hbm, 134, rfl⟩
abbrev main_call0_v105 : Ref sig .tc := ⟨.hbm, 135, rfl⟩
abbrev main_call0_cst_27 : Ref sig .tc := ⟨.hbm, 136, rfl⟩
abbrev main_call0_v106 : Ref sig .tc := ⟨.hbm, 137, rfl⟩
abbrev main_call0_v107 : Ref sig .tc := ⟨.hbm, 138, rfl⟩
abbrev main_call0_v108 : Ref sig .tc := ⟨.hbm, 139, rfl⟩
abbrev main_call0_v109 : Ref sig .tc := ⟨.hbm, 140, rfl⟩
abbrev main_call0_cst_28 : Ref sig .tc := ⟨.hbm, 141, rfl⟩
abbrev main_call0_v110 : Ref sig .tc := ⟨.hbm, 142, rfl⟩
abbrev main_call0_v111 : Ref sig .tc := ⟨.hbm, 143, rfl⟩
abbrev main_call0_cst_29 : Ref sig .tc := ⟨.hbm, 144, rfl⟩
abbrev main_call0_v112 : Ref sig .tc := ⟨.hbm, 145, rfl⟩
abbrev main_call0_v113 : Ref sig .tc := ⟨.hbm, 146, rfl⟩
abbrev main_call0_v114 : Ref sig .tc := ⟨.hbm, 147, rfl⟩
abbrev main_call0_v115 : Ref sig .tc := ⟨.hbm, 148, rfl⟩
abbrev main_call0_v116 : Ref sig .tc := ⟨.hbm, 149, rfl⟩
abbrev main_call0_cst_30 : Ref sig .tc := ⟨.hbm, 150, rfl⟩
abbrev main_call0_v117 : Ref sig .tc := ⟨.hbm, 151, rfl⟩
abbrev main_call0_v118 : Ref sig .tc := ⟨.hbm, 152, rfl⟩
abbrev main_call0_v119 : Ref sig .tc := ⟨.hbm, 153, rfl⟩
abbrev main_call0_v120 : Ref sig .tc := ⟨.hbm, 154, rfl⟩
abbrev main_call0_v121 : Ref sig .tc := ⟨.hbm, 155, rfl⟩
abbrev main_call0_cst_31 : Ref sig .tc := ⟨.hbm, 156, rfl⟩
abbrev main_call0_v122 : Ref sig .tc := ⟨.hbm, 157, rfl⟩
abbrev main_call0_v123 : Ref sig .tc := ⟨.hbm, 158, rfl⟩
abbrev main_call0_v124 : Ref sig .tc := ⟨.hbm, 159, rfl⟩
abbrev main_call0_v125 : Ref sig .tc := ⟨.hbm, 160, rfl⟩
abbrev main_call0_v126 : Ref sig .tc := ⟨.hbm, 161, rfl⟩
abbrev main_call0_cst_32 : Ref sig .tc := ⟨.hbm, 162, rfl⟩
abbrev main_call0_v127 : Ref sig .tc := ⟨.hbm, 163, rfl⟩
abbrev main_call0_cst_33 : Ref sig .tc := ⟨.hbm, 164, rfl⟩
abbrev main_call0_v128 : Ref sig .tc := ⟨.hbm, 165, rfl⟩
abbrev main_call0_v129 : Ref sig .tc := ⟨.hbm, 166, rfl⟩
abbrev main_call0_v130 : Ref sig .tc := ⟨.hbm, 167, rfl⟩
abbrev main_call0_v131 : Ref sig .tc := ⟨.hbm, 168, rfl⟩
abbrev main_call0_cst_34 : Ref sig .tc := ⟨.hbm, 169, rfl⟩
abbrev main_call0_v132 : Ref sig .tc := ⟨.hbm, 170, rfl⟩
abbrev main_call0_v133 : Ref sig .tc := ⟨.hbm, 171, rfl⟩
abbrev main_call0_v134 : Ref sig .tc := ⟨.hbm, 172, rfl⟩
abbrev main_call0_v135 : Ref sig .tc := ⟨.hbm, 173, rfl⟩
abbrev main_call0_cst_35 : Ref sig .tc := ⟨.hbm, 174, rfl⟩
abbrev main_call0_v136 : Ref sig .tc := ⟨.hbm, 175, rfl⟩
abbrev main_call0_v137 : Ref sig .tc := ⟨.hbm, 176, rfl⟩
abbrev main_call0_cst_36 : Ref sig .tc := ⟨.hbm, 177, rfl⟩
abbrev main_call0_v138 : Ref sig .tc := ⟨.hbm, 178, rfl⟩
abbrev main_call0_v139 : Ref sig .tc := ⟨.hbm, 179, rfl⟩
abbrev main_call0_cst_37 : Ref sig .tc := ⟨.hbm, 180, rfl⟩
abbrev main_call0_v140 : Ref sig .tc := ⟨.hbm, 181, rfl⟩
abbrev main_call0_v141 : Ref sig .tc := ⟨.hbm, 182, rfl⟩
abbrev main_call0_v142 : Ref sig .tc := ⟨.hbm, 183, rfl⟩
abbrev main_call0_v143 : Ref sig .tc := ⟨.hbm, 184, rfl⟩
abbrev main_call0_cst_38 : Ref sig .tc := ⟨.hbm, 185, rfl⟩
abbrev main_call0_v144 : Ref sig .tc := ⟨.hbm, 186, rfl⟩
abbrev main_call0_v145 : Ref sig .tc := ⟨.hbm, 187, rfl⟩
abbrev main_call0_cst_39 : Ref sig .tc := ⟨.hbm, 188, rfl⟩
abbrev main_call0_v146 : Ref sig .tc := ⟨.hbm, 189, rfl⟩
abbrev main_call0_v147 : Ref sig .tc := ⟨.hbm, 190, rfl⟩
abbrev main_call0_v148 : Ref sig .tc := ⟨.hbm, 191, rfl⟩
abbrev main_call0_v149 : Ref sig .tc := ⟨.hbm, 192, rfl⟩
abbrev main_call0_v150 : Ref sig .tc := ⟨.hbm, 193, rfl⟩
abbrev main_call0_v151 : Ref sig .tc := ⟨.hbm, 194, rfl⟩
abbrev main_call0_cst_40 : Ref sig .tc := ⟨.hbm, 195, rfl⟩
abbrev main_call0_v152 : Ref sig .tc := ⟨.hbm, 196, rfl⟩
abbrev main_call0_v153 : Ref sig .tc := ⟨.hbm, 197, rfl⟩
abbrev main_call0_v154 : Ref sig .tc := ⟨.hbm, 198, rfl⟩
abbrev main_call0_v155 : Ref sig .tc := ⟨.hbm, 199, rfl⟩
abbrev main_call0_v156 : Ref sig .tc := ⟨.hbm, 200, rfl⟩
abbrev main_call0_v157 : Ref sig .tc := ⟨.hbm, 201, rfl⟩
abbrev main_call0_cst_41 : Ref sig .tc := ⟨.hbm, 202, rfl⟩
abbrev main_call0_v158 : Ref sig .tc := ⟨.hbm, 203, rfl⟩
abbrev main_call0_v159 : Ref sig .tc := ⟨.hbm, 204, rfl⟩
abbrev main_call0_v160 : Ref sig .tc := ⟨.hbm, 205, rfl⟩
abbrev main_call0_v161 : Ref sig .tc := ⟨.hbm, 206, rfl⟩
abbrev main_call0_v162 : Ref sig .tc := ⟨.hbm, 207, rfl⟩
abbrev main_call0_cst_42 : Ref sig .tc := ⟨.hbm, 208, rfl⟩
abbrev main_call0_v163 : Ref sig .tc := ⟨.hbm, 209, rfl⟩
abbrev main_call0_v164 : Ref sig .tc := ⟨.hbm, 210, rfl⟩
abbrev main_call0_v165 : Ref sig .tc := ⟨.hbm, 211, rfl⟩
abbrev main_call0_v166 : Ref sig .tc := ⟨.hbm, 212, rfl⟩
abbrev main_call0_v167 : Ref sig .tc := ⟨.hbm, 213, rfl⟩
abbrev main_call0_cst_43 : Ref sig .tc := ⟨.hbm, 214, rfl⟩
abbrev main_call0_v168 : Ref sig .tc := ⟨.hbm, 215, rfl⟩
abbrev main_call0_cst_44 : Ref sig .tc := ⟨.hbm, 216, rfl⟩
abbrev main_call0_v169 : Ref sig .tc := ⟨.hbm, 217, rfl⟩
abbrev main_call0_v170 : Ref sig .tc := ⟨.hbm, 218, rfl⟩
abbrev main_call0_v171 : Ref sig .tc := ⟨.hbm, 219, rfl⟩
abbrev main_call0_v172 : Ref sig .tc := ⟨.hbm, 220, rfl⟩
abbrev main_call0_cst_45 : Ref sig .tc := ⟨.hbm, 221, rfl⟩
abbrev main_call0_v173 : Ref sig .tc := ⟨.hbm, 222, rfl⟩
abbrev main_call0_v174 : Ref sig .tc := ⟨.hbm, 223, rfl⟩
abbrev main_call0_cst_46 : Ref sig .tc := ⟨.hbm, 224, rfl⟩
abbrev main_call0_v175 : Ref sig .tc := ⟨.hbm, 225, rfl⟩
abbrev main_call0_v176 : Ref sig .tc := ⟨.hbm, 226, rfl⟩
abbrev main_call0_v177 : Ref sig .tc := ⟨.hbm, 227, rfl⟩
abbrev main_call0_v178 : Ref sig .tc := ⟨.hbm, 228, rfl⟩
abbrev main_call0_cst_47 : Ref sig .tc := ⟨.hbm, 229, rfl⟩
abbrev main_call0_v179 : Ref sig .tc := ⟨.hbm, 230, rfl⟩
abbrev main_call0_v180 : Ref sig .tc := ⟨.hbm, 231, rfl⟩
abbrev main_call0_cst_48 : Ref sig .tc := ⟨.hbm, 232, rfl⟩
abbrev main_call0_v181 : Ref sig .tc := ⟨.hbm, 233, rfl⟩
abbrev main_call0_v182 : Ref sig .tc := ⟨.hbm, 234, rfl⟩
abbrev main_call0_v183 : Ref sig .tc := ⟨.hbm, 235, rfl⟩
abbrev main_call0_v184 : Ref sig .tc := ⟨.hbm, 236, rfl⟩
abbrev main_call0_v185 : Ref sig .tc := ⟨.hbm, 237, rfl⟩
abbrev main_call0_v186 : Ref sig .tc := ⟨.hbm, 238, rfl⟩
abbrev main_call0_cst_49 : Ref sig .tc := ⟨.hbm, 239, rfl⟩
abbrev main_call0_v187 : Ref sig .tc := ⟨.hbm, 240, rfl⟩
abbrev main_call0_v188 : Ref sig .tc := ⟨.hbm, 241, rfl⟩
abbrev main_call0_v189 : Ref sig .tc := ⟨.hbm, 242, rfl⟩
abbrev main_call0_v190 : Ref sig .tc := ⟨.hbm, 243, rfl⟩
abbrev main_call0_v191 : Ref sig .tc := ⟨.hbm, 244, rfl⟩
abbrev main_call0_v192 : Ref sig .tc := ⟨.hbm, 245, rfl⟩
abbrev main_call0_cst_50 : Ref sig .tc := ⟨.hbm, 246, rfl⟩
abbrev main_call0_v193 : Ref sig .tc := ⟨.hbm, 247, rfl⟩
abbrev main_call0_v194 : Ref sig .tc := ⟨.hbm, 248, rfl⟩
abbrev main_call0_v195 : Ref sig .tc := ⟨.hbm, 249, rfl⟩
abbrev main_call0_v196 : Ref sig .tc := ⟨.hbm, 250, rfl⟩
abbrev main_call0_v197 : Ref sig .tc := ⟨.hbm, 251, rfl⟩
abbrev main_call0_cst_51 : Ref sig .tc := ⟨.hbm, 252, rfl⟩
abbrev main_call0_v198 : Ref sig .tc := ⟨.hbm, 253, rfl⟩
abbrev main_call0_v199 : Ref sig .tc := ⟨.hbm, 254, rfl⟩
abbrev main_call0_v200 : Ref sig .tc := ⟨.hbm, 255, rfl⟩
abbrev main_call0_v201 : Ref sig .tc := ⟨.hbm, 256, rfl⟩
abbrev main_call0_v202 : Ref sig .tc := ⟨.hbm, 257, rfl⟩
abbrev main_call0_cst_52 : Ref sig .tc := ⟨.hbm, 258, rfl⟩
abbrev main_call0_v203 : Ref sig .tc := ⟨.hbm, 259, rfl⟩
abbrev main_call0_cst_53 : Ref sig .tc := ⟨.hbm, 260, rfl⟩
abbrev main_call0_v204 : Ref sig .tc := ⟨.hbm, 261, rfl⟩
abbrev main_call0_v205 : Ref sig .tc := ⟨.hbm, 262, rfl⟩
abbrev main_call0_v206 : Ref sig .tc := ⟨.hbm, 263, rfl⟩
abbrev main_call0_v207 : Ref sig .tc := ⟨.hbm, 264, rfl⟩
abbrev main_call0_cst_54 : Ref sig .tc := ⟨.hbm, 265, rfl⟩
abbrev main_call0_v208 : Ref sig .tc := ⟨.hbm, 266, rfl⟩
abbrev main_call0_v209 : Ref sig .tc := ⟨.hbm, 267, rfl⟩
abbrev main_call0_v210 : Ref sig .tc := ⟨.hbm, 268, rfl⟩
abbrev main_call0_v211 : Ref sig .tc := ⟨.hbm, 269, rfl⟩
abbrev main_call0_cst_55 : Ref sig .tc := ⟨.hbm, 270, rfl⟩
abbrev main_call0_v212 : Ref sig .tc := ⟨.hbm, 271, rfl⟩
abbrev main_call0_v213 : Ref sig .tc := ⟨.hbm, 272, rfl⟩
abbrev main_call0_cst_56 : Ref sig .tc := ⟨.hbm, 273, rfl⟩
abbrev main_call0_v214 : Ref sig .tc := ⟨.hbm, 274, rfl⟩
abbrev main_call0_v215 : Ref sig .tc := ⟨.hbm, 275, rfl⟩
abbrev main_call0_cst_57 : Ref sig .tc := ⟨.hbm, 276, rfl⟩
abbrev main_call0_v216 : Ref sig .tc := ⟨.hbm, 277, rfl⟩
abbrev main_call0_v217 : Ref sig .tc := ⟨.hbm, 278, rfl⟩
abbrev main_call0_v218 : Ref sig .tc := ⟨.hbm, 279, rfl⟩
abbrev main_call0_v219 : Ref sig .tc := ⟨.hbm, 280, rfl⟩
abbrev main_call0_v220 : Ref sig .tc := ⟨.hbm, 281, rfl⟩
abbrev main_call0_cst_58 : Ref sig .tc := ⟨.hbm, 282, rfl⟩
abbrev main_call0_v221 : Ref sig .tc := ⟨.hbm, 283, rfl⟩
abbrev main_call0_v222 : Ref sig .tc := ⟨.hbm, 284, rfl⟩
abbrev main_call0_cst_59 : Ref sig .tc := ⟨.hbm, 285, rfl⟩
abbrev main_call0_v223 : Ref sig .tc := ⟨.hbm, 286, rfl⟩
abbrev main_call0_v224 : Ref sig .tc := ⟨.hbm, 287, rfl⟩
abbrev main_call0_v225 : Ref sig .tc := ⟨.hbm, 288, rfl⟩
abbrev main_call0_v226 : Ref sig .tc := ⟨.hbm, 289, rfl⟩
abbrev main_call0_v227 : Ref sig .tc := ⟨.hbm, 290, rfl⟩
abbrev main_call0_v228 : Ref sig .tc := ⟨.hbm, 291, rfl⟩
abbrev main_call0_cst_60 : Ref sig .tc := ⟨.hbm, 292, rfl⟩
abbrev main_call0_v229 : Ref sig .tc := ⟨.hbm, 293, rfl⟩
abbrev main_call0_v230 : Ref sig .tc := ⟨.hbm, 294, rfl⟩
abbrev main_call0_v231 : Ref sig .tc := ⟨.hbm, 295, rfl⟩
abbrev main_call0_v232 : Ref sig .tc := ⟨.hbm, 296, rfl⟩
abbrev main_call0_v233 : Ref sig .tc := ⟨.hbm, 297, rfl⟩
abbrev main_call0_v234 : Ref sig .tc := ⟨.hbm, 298, rfl⟩
abbrev main_call0_v235 : Ref sig .tc := ⟨.hbm, 299, rfl⟩
abbrev main_call0_cst_61 : Ref sig .tc := ⟨.hbm, 300, rfl⟩
abbrev main_call0_v236 : Ref sig .tc := ⟨.hbm, 301, rfl⟩
abbrev main_call0_v237 : Ref sig .tc := ⟨.hbm, 302, rfl⟩
abbrev main_call0_v238 : Ref sig .tc := ⟨.hbm, 303, rfl⟩
abbrev main_call0_v239 : Ref sig .tc := ⟨.hbm, 304, rfl⟩
abbrev main_call0_v240 : Ref sig .tc := ⟨.hbm, 305, rfl⟩
abbrev main_call0_v241 : Ref sig .tc := ⟨.hbm, 306, rfl⟩
abbrev main_call0_cst_62 : Ref sig .tc := ⟨.hbm, 307, rfl⟩
abbrev main_call0_v242 : Ref sig .tc := ⟨.hbm, 308, rfl⟩
abbrev main_call0_v243 : Ref sig .tc := ⟨.hbm, 309, rfl⟩
abbrev main_call0_v244 : Ref sig .tc := ⟨.hbm, 310, rfl⟩
abbrev main_call0_v245 : Ref sig .tc := ⟨.hbm, 311, rfl⟩
abbrev main_call0_v246 : Ref sig .tc := ⟨.hbm, 312, rfl⟩
abbrev main_call0_cst_63 : Ref sig .tc := ⟨.hbm, 313, rfl⟩
abbrev main_call0_v247 : Ref sig .tc := ⟨.hbm, 314, rfl⟩
abbrev main_call0_v248 : Ref sig .tc := ⟨.hbm, 315, rfl⟩
abbrev main_call0_v249 : Ref sig .tc := ⟨.hbm, 316, rfl⟩
abbrev main_call0_v250 : Ref sig .tc := ⟨.hbm, 317, rfl⟩
abbrev main_call0_v251 : Ref sig .tc := ⟨.hbm, 318, rfl⟩
abbrev main_call0_cst_64 : Ref sig .tc := ⟨.hbm, 319, rfl⟩
abbrev main_call0_v252 : Ref sig .tc := ⟨.hbm, 320, rfl⟩
abbrev main_call0_cst_65 : Ref sig .tc := ⟨.hbm, 321, rfl⟩
abbrev main_call0_v253 : Ref sig .tc := ⟨.hbm, 322, rfl⟩
abbrev main_call0_v254 : Ref sig .tc := ⟨.hbm, 323, rfl⟩
abbrev main_call0_v255 : Ref sig .tc := ⟨.hbm, 324, rfl⟩
abbrev main_call0_v256 : Ref sig .tc := ⟨.hbm, 325, rfl⟩
abbrev main_call0_cst_66 : Ref sig .tc := ⟨.hbm, 326, rfl⟩
abbrev main_call0_v257 : Ref sig .tc := ⟨.hbm, 327, rfl⟩
abbrev main_call0_v258 : Ref sig .tc := ⟨.hbm, 328, rfl⟩
abbrev main_call0_cst_67 : Ref sig .tc := ⟨.hbm, 329, rfl⟩
abbrev main_call0_v259 : Ref sig .tc := ⟨.hbm, 330, rfl⟩
abbrev main_call0_v260 : Ref sig .tc := ⟨.hbm, 331, rfl⟩
abbrev main_call0_v261 : Ref sig .tc := ⟨.hbm, 332, rfl⟩
abbrev main_call0_v262 : Ref sig .tc := ⟨.hbm, 333, rfl⟩
abbrev main_call0_v263 : Ref sig .tc := ⟨.hbm, 334, rfl⟩
abbrev main_call0_cst_68 : Ref sig .tc := ⟨.hbm, 335, rfl⟩
abbrev main_call0_v264 : Ref sig .tc := ⟨.hbm, 336, rfl⟩
abbrev main_call0_v265 : Ref sig .tc := ⟨.hbm, 337, rfl⟩
abbrev main_call0_cst_69 : Ref sig .tc := ⟨.hbm, 338, rfl⟩
abbrev main_call0_v266 : Ref sig .tc := ⟨.hbm, 339, rfl⟩
abbrev main_call0_v267 : Ref sig .tc := ⟨.hbm, 340, rfl⟩
abbrev main_call0_v268 : Ref sig .tc := ⟨.hbm, 341, rfl⟩
abbrev main_call0_v269 : Ref sig .tc := ⟨.hbm, 342, rfl⟩
abbrev main_call0_v270 : Ref sig .tc := ⟨.hbm, 343, rfl⟩
abbrev main_call0_v271 : Ref sig .tc := ⟨.hbm, 344, rfl⟩
abbrev main_call0_cst_70 : Ref sig .tc := ⟨.hbm, 345, rfl⟩
abbrev main_call0_v272 : Ref sig .tc := ⟨.hbm, 346, rfl⟩
abbrev main_call0_v273 : Ref sig .tc := ⟨.hbm, 347, rfl⟩
abbrev main_call0_v274 : Ref sig .tc := ⟨.hbm, 348, rfl⟩
abbrev main_call0_v275 : Ref sig .tc := ⟨.hbm, 349, rfl⟩
abbrev main_call0_v276 : Ref sig .tc := ⟨.hbm, 350, rfl⟩
abbrev main_call0_v277 : Ref sig .tc := ⟨.hbm, 351, rfl⟩
abbrev main_call0_v278 : Ref sig .tc := ⟨.hbm, 352, rfl⟩
abbrev main_call0_cst_71 : Ref sig .tc := ⟨.hbm, 353, rfl⟩
abbrev main_call0_v279 : Ref sig .tc := ⟨.hbm, 354, rfl⟩
abbrev main_call0_v280 : Ref sig .tc := ⟨.hbm, 355, rfl⟩
abbrev main_call0_v281 : Ref sig .tc := ⟨.hbm, 356, rfl⟩
abbrev main_call0_v282 : Ref sig .tc := ⟨.hbm, 357, rfl⟩
abbrev main_call0_v283 : Ref sig .tc := ⟨.hbm, 358, rfl⟩
abbrev main_call0_v284 : Ref sig .tc := ⟨.hbm, 359, rfl⟩
abbrev main_call0_cst_72 : Ref sig .tc := ⟨.hbm, 360, rfl⟩
abbrev main_call0_v285 : Ref sig .tc := ⟨.hbm, 361, rfl⟩
abbrev main_call0_v286 : Ref sig .tc := ⟨.hbm, 362, rfl⟩
abbrev main_call0_v287 : Ref sig .tc := ⟨.hbm, 363, rfl⟩
abbrev main_call0_v288 : Ref sig .tc := ⟨.hbm, 364, rfl⟩
abbrev main_call0_v289 : Ref sig .tc := ⟨.hbm, 365, rfl⟩
abbrev main_call0_cst_73 : Ref sig .tc := ⟨.hbm, 366, rfl⟩
abbrev main_call0_v290 : Ref sig .tc := ⟨.hbm, 367, rfl⟩
abbrev main_call0_v291 : Ref sig .tc := ⟨.hbm, 368, rfl⟩
abbrev main_call0_v292 : Ref sig .tc := ⟨.hbm, 369, rfl⟩
abbrev main_call0_v293 : Ref sig .tc := ⟨.hbm, 370, rfl⟩
abbrev main_call0_v294 : Ref sig .tc := ⟨.hbm, 371, rfl⟩
abbrev main_call0_cst_74 : Ref sig .tc := ⟨.hbm, 372, rfl⟩
abbrev main_call0_v295 : Ref sig .tc := ⟨.hbm, 373, rfl⟩
abbrev main_call0_cst_75 : Ref sig .tc := ⟨.hbm, 374, rfl⟩
abbrev main_call0_v296 : Ref sig .tc := ⟨.hbm, 375, rfl⟩
abbrev main_call0_v297 : Ref sig .tc := ⟨.hbm, 376, rfl⟩
abbrev main_call0_v298 : Ref sig .tc := ⟨.hbm, 377, rfl⟩
abbrev main_call0_v299 : Ref sig .tc := ⟨.hbm, 378, rfl⟩
abbrev main_call0_cst_76 : Ref sig .tc := ⟨.hbm, 379, rfl⟩
abbrev main_call0_v300 : Ref sig .tc := ⟨.hbm, 380, rfl⟩
abbrev main_call0_v301 : Ref sig .tc := ⟨.hbm, 381, rfl⟩
abbrev main_call0_v302 : Ref sig .tc := ⟨.hbm, 382, rfl⟩
abbrev main_call0_v303 : Ref sig .tc := ⟨.hbm, 383, rfl⟩
abbrev main_call0_cst_77 : Ref sig .tc := ⟨.hbm, 384, rfl⟩
abbrev main_call0_v304 : Ref sig .tc := ⟨.hbm, 385, rfl⟩
abbrev main_call0_v305 : Ref sig .tc := ⟨.hbm, 386, rfl⟩
abbrev main_call0_cst_78 : Ref sig .tc := ⟨.hbm, 387, rfl⟩
abbrev main_call0_v306 : Ref sig .tc := ⟨.hbm, 388, rfl⟩
abbrev main_v0 : Ref sig .tc := ⟨.hbm, 389, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg1 : BitVec 32 := BitVec.ofNat 32 (i 1).val
  let c7_i32 : BitVec 32 := 7#32
  let v3 : BitVec 1 := Scalar.cmpi .eq arg1 c7_i32
  let arg2 : BitVec 32 := BitVec.ofNat 32 (i 2).val
  let c1_i32 : BitVec 32 := 1#32
  let v4 : BitVec 1 := Scalar.cmpi .eq arg2 c1_i32
  let v5 : BitVec 1 := Scalar.andi v3 v4
  let v80 : BitVec 32 := Scalar.extui v5
  let c0_i32_58 : BitVec 32 := 0#32
  let v81 : BitVec 1 := Scalar.cmpi .ne v80 c0_i32_58
  v81

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1x128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S10x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  slices_S10x256_S1x256_0_0 : S10x256.Slices ![0, 0] S1x256
  shapeCasts_S1x256_S256 : S1x256.ShapeCasts S256
  slices_S10x256_S1x256_1_0 : S10x256.Slices ![1, 0] S1x256
  slices_S10x256_S1x256_2_0 : S10x256.Slices ![2, 0] S1x256
  slices_S10x256_S1x256_3_0 : S10x256.Slices ![3, 0] S1x256
  slices_S10x256_S1x256_4_0 : S10x256.Slices ![4, 0] S1x256
  slices_S10x256_S1x256_5_0 : S10x256.Slices ![5, 0] S1x256
  slices_S10x256_S1x256_6_0 : S10x256.Slices ![6, 0] S1x256
  slices_S10x256_S1x256_7_0 : S10x256.Slices ![7, 0] S1x256
  slices_S10x256_S1x256_8_0 : S10x256.Slices ![8, 0] S1x256
  slices_S10x256_S1x256_9_0 : S10x256.Slices ![9, 0] S1x256
  bcast_S_S256 : S_.BroadcastsInDim S256 (![] : Fin 0 → Fin S256.rank)
  reducesTo_S256_S_d0 : S256.ReducesTo [0] S_
  h_S_ : 0 < S_.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128x64x128_S1x128x64x128_0_0_0_0 : ∀ a, (![0, 0, 0, 0] : Fin 4 → Nat) a + S1x128x64x128.size a ≤ S1x128x64x128.size a
  h_S1x128x64x128 : 0 < S1x128x64x128.numel
  shapeCasts_S1x128x64x128_S128x64x128 : S1x128x64x128.ShapeCasts S128x64x128
  reduces_S128x64x128_S128x128 : S128x64x128.Reduces [1] S128x128
  reduces_S128x128_S128 : S128x128.Reduces [1] S128
  inb_S10x128_S1x128_0_0 : ∀ a, (![0, 0] : Fin 2 → Nat) a + S1x128.size a ≤ S10x128.size a
  h_S1x128 : 0 < S1x128.numel
  shapeCasts_S1x128_S128 : S1x128.ShapeCasts S128
  shapeCasts_S128_S1x128 : S128.ShapeCasts S1x128
  inb_S10x128_S1x128_1_0 : ∀ a, (![1, 0] : Fin 2 → Nat) a + S1x128.size a ≤ S10x128.size a
  inb_S10x128_S1x128_2_0 : ∀ a, (![2, 0] : Fin 2 → Nat) a + S1x128.size a ≤ S10x128.size a
  inb_S10x128_S1x128_3_0 : ∀ a, (![3, 0] : Fin 2 → Nat) a + S1x128.size a ≤ S10x128.size a
  inb_S10x128_S1x128_4_0 : ∀ a, (![4, 0] : Fin 2 → Nat) a + S1x128.size a ≤ S10x128.size a
  inb_S10x128_S1x128_5_0 : ∀ a, (![5, 0] : Fin 2 → Nat) a + S1x128.size a ≤ S10x128.size a
  inb_S10x128_S1x128_6_0 : ∀ a, (![6, 0] : Fin 2 → Nat) a + S1x128.size a ≤ S10x128.size a
  inb_S10x128_S1x128_7_0 : ∀ a, (![7, 0] : Fin 2 → Nat) a + S1x128.size a ≤ S10x128.size a
  inb_S10x128_S1x128_8_0 : ∀ a, (![8, 0] : Fin 2 → Nat) a + S1x128.size a ≤ S10x128.size a
  inb_S10x128_S1x128_9_0 : ∀ a, (![9, 0] : Fin 2 → Nat) a + S1x128.size a ≤ S10x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x128.size a ≤ S8x256x128x128.size a
  hwx0_0 : ∀ i : grid0.Coords, EltTy.bits .f32 = 32 ∨ (Rect.block (s := S8x256x128x128) S1x128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x64x128.size a ≤ S8x256x128x128.size a
  hwx0_1 : ∀ i : grid0.Coords, EltTy.bits .f32 = 32 ∨ (Rect.block (s := S8x256x128x128) S1x128x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10x128.size a ≤ S10x256.size a
  hwx0_2 : ∀ i : grid0.Coords, EltTy.bits .f32 = 32 ∨ (Rect.block (s := S10x256) S10x128.size (cc0_transform_2 i) (hinb0_2 i)).WholeWords (EltTy.packing .f32)

variable [Facts₀]

abbrev win0_0 : Pipeline.Window sig grid0 :=
  Pipeline.Window.ofSpec (Memref.whole main_arg0) S1x128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S10x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x256x128x128 : Shape := ⟨4, ![8, 256, 128, 128]⟩
abbrev S_ : Shape := ⟨0, ![]⟩
abbrev S256 : Shape := ⟨1, ![256]⟩
abbrev S1x256x1x1 : Shape := ⟨4, ![1, 256, 1, 1]⟩

abbrev nBuf : Space → Nat
  | .hbm => 105
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S8x256x128x128, .f32⟩
  | .hbm, ⟨2, _⟩ => ⟨S_, .f32⟩
  | .hbm, ⟨3, _⟩ => ⟨S256, .f32⟩
  | .hbm, ⟨4, _⟩ => ⟨S_, .f32⟩
  | .hbm, ⟨5, _⟩ => ⟨S256, .f32⟩
  | .hbm, ⟨6, _⟩ => ⟨S256, .f32⟩
  | .hbm, ⟨7, _⟩ => ⟨S1x256x1x1, .f32⟩
  | .hbm, ⟨8, _⟩ => ⟨S_, .f32⟩
  | .hbm, ⟨9, _⟩ => ⟨S256, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S1x256x1x1, .f32⟩
  | .hbm, ⟨14, _⟩ => ⟨S1x256x1x1, .f32⟩
  | .hbm, ⟨15, _⟩ => ⟨S1x256x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x256x128x128, .f32⟩
  | .hbm, ⟨22, _⟩ => ⟨S8x256x128x128, .f32⟩
  | .hbm, ⟨23, _⟩ => ⟨S8x256x128x128, .f32⟩
  | .hbm, ⟨24, _⟩ => ⟨S8x256x128x128, .f32⟩
  | .hbm, ⟨25, _⟩ => ⟨S8x256x128x128, .f32⟩
  | .hbm, ⟨26, _⟩ => ⟨S8x256x128x128, .f32⟩
  | .hbm, ⟨27, _⟩ => ⟨S_, .f32⟩
  | .hbm, ⟨28, _⟩ => ⟨S256, .f32⟩
  | .hbm, ⟨29, _⟩ => ⟨S_, .f32⟩
  | .hbm, ⟨30, _⟩ => ⟨S256, .f32⟩
  | .hbm, ⟨31, _⟩ => ⟨S256, .f32⟩
  | .hbm, ⟨32, _⟩ => ⟨S_, .f32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8x256x128x128, .f32⟩
  | .hbm, ⟨46, _⟩ => ⟨S8x256x128x128, .f32⟩
  | .hbm, ⟨47, _⟩ => ⟨S_, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S_, .f32⟩
  | .hbm, ⟨53, _⟩ => ⟨S256, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S256, .f32⟩
  | .hbm, ⟨58, _⟩ => ⟨S256, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x256x128x128, .f32⟩
  | .hbm, ⟨66, _⟩ => ⟨S8x256x128x128, .f32⟩
  | .hbm, ⟨67, _⟩ => ⟨S_, .f32⟩
  | .hbm, ⟨68, _⟩ => ⟨S256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S_, .f32⟩
  | .hbm, ⟨73, _⟩ => ⟨S256, .f32⟩
  | .hbm, ⟨74, _⟩ => ⟨S_, .f32⟩
  | .hbm, ⟨75, _⟩ => ⟨S256, .f32⟩
  | .hbm, ⟨76, _⟩ => ⟨S256, .f32⟩
  | .hbm, ⟨77, _⟩ => ⟨S256, .f32⟩
  | .hbm, ⟨78, _⟩ => ⟨S256, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S8x256x128x128, .f32⟩
  | .hbm, ⟨86, _⟩ => ⟨S8x256x128x128, .f32⟩
  | .hbm, ⟨87, _⟩ => ⟨S_, .f32⟩
  | .hbm, ⟨88, _⟩ => ⟨S256, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S_, .f32⟩
  | .hbm, ⟨93, _⟩ => ⟨S256, .f32⟩
  | .hbm, ⟨94, _⟩ => ⟨S_, .f32⟩
  | .hbm, ⟨95, _⟩ => ⟨S256, .f32⟩
  | .hbm, ⟨96, _⟩ => ⟨S256, .f32⟩
  | .hbm, ⟨97, _⟩ => ⟨S256, .f32⟩
  | .hbm, ⟨98, _⟩ => ⟨S256, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_11 : Ref sig .tc := ⟨.hbm, 47, rfl⟩
abbrev main_v33 : Ref sig .tc := ⟨.hbm, 48, rfl⟩
abbrev main_cst_12 : Ref sig .tc := ⟨.hbm, 49, rfl⟩
abbrev main_v34 : Ref sig .tc := ⟨.hbm, 50, rfl⟩
abbrev main_v35 : Ref sig .tc := ⟨.hbm, 51, rfl⟩
abbrev main_cst_13 : Ref sig .tc := ⟨.hbm, 52, rfl⟩
abbrev main_v36 : Ref sig .tc := ⟨.hbm, 53, rfl⟩
abbrev main_cst_14 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_15 : Ref sig .tc := ⟨.hbm, 59, rfl⟩
abbrev main_v41 : Ref sig .tc := ⟨.hbm, 60, rfl⟩
abbrev main_v42 : Ref sig .tc := ⟨.hbm, 61, rfl⟩
abbrev main_cst_16 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_17 : Ref sig .tc := ⟨.hbm, 67, rfl⟩
abbrev main_v47 : Ref sig .tc := ⟨.hbm, 68, rfl⟩
abbrev main_cst_18 : Ref sig .tc := ⟨.hbm, 69, rfl⟩
abbrev main_v48 : Ref sig .tc := ⟨.hbm, 70, rfl⟩
abbrev main_v49 : Ref sig .tc := ⟨.hbm, 71, rfl⟩
abbrev main_cst_19 : Ref sig .tc := ⟨.hbm, 72, rfl⟩
abbrev main_v50 : Ref sig .tc := ⟨.hbm, 73, rfl⟩
abbrev main_cst_20 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_21 : Ref sig .tc := ⟨.hbm, 79, rfl⟩
abbrev main_v55 : Ref sig .tc := ⟨.hbm, 80, rfl⟩
abbrev main_v56 : Ref sig .tc := ⟨.hbm, 81, rfl⟩
abbrev main_cst_22 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_23 : Ref sig .tc := ⟨.hbm, 87, rfl⟩
abbrev main_v61 : Ref sig .tc := ⟨.hbm, 88, rfl⟩
abbrev main_cst_24 : Ref sig .tc := ⟨.hbm, 89, rfl⟩
abbrev main_v62 : Ref sig .tc := ⟨.hbm, 90, rfl⟩
abbrev main_v63 : Ref sig .tc := ⟨.hbm, 91, rfl⟩
abbrev main_cst_25 : Ref sig .tc := ⟨.hbm, 92, rfl⟩
abbrev main_v64 : Ref sig .tc := ⟨.hbm, 93, rfl⟩
abbrev main_cst_26 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_27 : Ref sig .tc := ⟨.hbm, 99, rfl⟩
abbrev main_v69 : Ref sig .tc := ⟨.hbm, 100, rfl⟩
abbrev main_v70 : Ref sig .tc := ⟨.hbm, 101, rfl⟩
abbrev main_cst_28 : Ref sig .tc := ⟨.hbm, 102, rfl⟩
abbrev main_v71 : Ref sig .tc := ⟨.hbm, 103, rfl⟩
abbrev main_v72 : Ref sig .tc := ⟨.hbm, 104, rfl⟩

abbrev nD : Nat := 1
abbrev τ : Topo := Topo.v7x

variable {F : FTy → Type} [FloatOps F]

class Facts₀ : Prop where
  reducesTo_S8x256x128x128_S256_d0_2_3 : S8x256x128x128.ReducesTo [0, 2, 3] S256
  h_S_ : 0 < S_.numel
  bcast_S_S256 : S_.BroadcastsInDim S256 (![] : Fin 0 → Fin S256.rank)
  shapeCasts_S256_S1x256x1x1 : S256.ShapeCasts S1x256x1x1
  reducesTo_S1x256x1x1_S_d0_1_2_3 : S1x256x1x1.ReducesTo [0, 1, 2, 3] S_
  bcast_S1x256x1x1_S8x256x128x128_0_1_2_3 : S1x256x1x1.BroadcastsInDim S8x256x128x128 (![0, 1, 2, 3] : Fin 4 → Fin S8x256x128x128.rank)
  reducesTo_S256_S_d0 : S256.ReducesTo [0] S_

variable [Facts₀]

class Facts : Prop extends Facts₀ where

variable [Facts]
-- ==== Proof.KbBase.lean ====
/-
  The region of the moments kernel and the host lines after it, as the launch theorem wants them.

  @main is one region (a grid of 2 x 8 x 2 = 32 points, the channel tile outermost) followed by 387 host
  operations. Every later operation writes a buffer of its own, never one of the three arrays the region's
  windows stage (the two arguments and the 10 x 256 table of raw power sums), touches unscoped buffers only and
  allocates nothing: the three side conditions of the launch theorem, each proved for the whole list at once.

  Window 0 stages x, window 1 stages the target, each as a 1 x 128 x 64 x 128 block at (b, channel tile, row
  tile, 0); window 2 stages the 10 x 128 block of sums of the channel tile. A point's position among the 16
  points of its channel tile decides what the body does: at position 0 it first clears its ten 128 x 128
  accumulators, at position 15 it also reduces them along the lanes into the ten rows of the output block,
  which the pipeline writes back there and nowhere else; in between the output's buffer is left alone.
-/
import proofs.«148899_j15599321219646_2_alg».proof.Proof.Gen.Kernel.Launch
import proofs.«148899_j15599321219646_2_alg».proof.Proof.Gen.Kernel.Skeleton
import proofs.«148899_j15599321219646_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host lines -/

/-- Core `c`'s buffers when the region is entered: no host line comes before it, so the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

set_option maxHeartbeats 4000000 in
/-- None of the later lines allocates. -/
theorem tail_fresh : (hostOps1 : List (HloOp τ sig (Elt F))).Forall fun op => op.fresh = ∅ := by
  simp only [List.Forall]; repeat' constructor

/-- An operation whose one written buffer is none of the three staged arrays writes no staged array. -/
theorem keeps_of {op : HloOp τ sig (Elt F)} {y : Ref sig .tc} (hw : op.writes = {Proc.devRef .tc y})
    (h0 : main_arg0 ≠ y) (h1 : main_arg1 ≠ y) (h2 : main_call0_v0 ≠ y) :
    ∀ w, Proc.devRef .tc (Pipeline.arrRef spec0 w) ∉ op.writes := by
  intro w
  rw [hw, Finset.mem_singleton]
  fin_cases w
  · exact StableHlo.devRef_ne_of_ne h0
  · exact StableHlo.devRef_ne_of_ne h1
  · exact StableHlo.devRef_ne_of_ne h2

set_option maxHeartbeats 40000000 in
/-- Each later line writes its own result buffer, which is none of the staged arrays. -/
theorem tail_keeps : (hostOps1 : List (HloOp τ sig (Elt F))).Forall fun op =>
    ∀ w, Proc.devRef .tc (Pipeline.arrRef spec0 w) ∉ op.writes := by
  simp only [List.Forall]
  repeat' constructor
  all_goals exact keeps_of rfl (by decide) (by decide) (by decide)

set_option maxRecDepth 200000 in
set_option maxHeartbeats 40000000 in
/-- @main reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point, for any proof data over these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- "First point of the channel tile": b = 0 and row tile 0. -/
abbrev isFirst (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
theorem isFirst_iff : ∀ t : Fin cfg0.N, isFirst (grid0.coords t) ↔ t.val % 16 = 0 :=
  (by decide +kernel : ∀ t : Fin grid0.N, isFirst (grid0.coords t) ↔ t.val % 16 = 0)

/-- "Last point of the channel tile": b = 7 and row tile 1. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from a tile's last point the output's buffer is idle and not written back. -/
theorem idle2 : ∀ t : Fin cfg0.N, ¬isLast (grid0.coords t) → cfg0.idle 2 (grid0.coords t) = true := by decide +kernel
theorem noFlush2 : ∀ t : Fin cfg0.N, ¬isLast (grid0.coords t) → (cfg0.win 2).flush t = false := by decide +kernel
/-- At a tile's last point the body stores into it. -/
theorem live2 : ∀ t : Fin cfg0.N, isLast (grid0.coords t) → cfg0.idle 2 (grid0.coords t) = false := by decide +kernel

/-! ## The memrefs the body is called with -/

/-- One staging buffer of the output window, through which its contents are stated. -/
abbrev VO : View sig .tc .vmem S10x128 .f32 := (Memref.whole cc0_stg2_0 : Memref sig .tc .vmem S10x128 .f32).view
abbrev ms0 (t : Fin cfg0.N) : Memref sig .tc .vmem S1x128x64x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x64x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10x128 .f32 := win0_2.stage (cfg0.slots t 2)
abbrev hs2 (t : Fin cfg0.N) : (ms2 t).IsWhole := hstage0_2 ((cfg0.slots t 2).cast nbuf0_2)
/-- The ten accumulators: five for the powers of x, five for the powers of the target. -/
abbrev sc0 : Memref sig .tc .vmem S128x128 .f32 := Memref.whole cc0_scratch0
abbrev sc1 : Memref sig .tc .vmem S128x128 .f32 := Memref.whole cc0_scratch1
abbrev sc2 : Memref sig .tc .vmem S128x128 .f32 := Memref.whole cc0_scratch2
abbrev sc3 : Memref sig .tc .vmem S128x128 .f32 := Memref.whole cc0_scratch3
abbrev sc4 : Memref sig .tc .vmem S128x128 .f32 := Memref.whole cc0_scratch4
abbrev sc5 : Memref sig .tc .vmem S128x128 .f32 := Memref.whole cc0_scratch5
abbrev sc6 : Memref sig .tc .vmem S128x128 .f32 := Memref.whole cc0_scratch6
abbrev sc7 : Memref sig .tc .vmem S128x128 .f32 := Memref.whole cc0_scratch7
abbrev sc8 : Memref sig .tc .vmem S128x128 .f32 := Memref.whole cc0_scratch8
abbrev sc9 : Memref sig .tc .vmem S128x128 .f32 := Memref.whole cc0_scratch9
/-- An accumulator as a view. -/
abbrev VS : View sig .tc .vmem S128x128 .f32 := (sc0).view

/-- The launch's invariant with the ten accumulators as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := by
  unfold Pipeline.ΦA; rw [scopedRest0_eq]; simp only [sc0, sc1, sc2, sc3, sc4, sc5, sc6, sc7, sc8, sc9, owns_whole]; try rfl

end Cert.Kernel.Fr

end
-- ==== Proof.KbRunA.lean ====
/-
  The kernel body run at the first point of a channel tile: the ten accumulators are cleared before they are added
  to, so what they held does not matter (they are taken at anything); nothing is stored into the output block,
  which is handed back untouched, as are the two input blocks x0, x1. Each accumulator comes back with this
  point's stores listed over it; the lists are found by the run itself.
-/
import proofs.«148899_j15599321219646_2_alg».proof.Proof.KbBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runA (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i)
    (x0 x1 : Vec F S1x128x64x128 .f32) :
    Σ' (LS0 : List (View.Piece (Elt F) S128x128 .f32)), Σ' (LS1 : List (View.Piece (Elt F) S128x128 .f32)), Σ' (LS2 : List (View.Piece (Elt F) S128x128 .f32)), Σ' (LS3 : List (View.Piece (Elt F) S128x128 .f32)), Σ' (LS4 : List (View.Piece (Elt F) S128x128 .f32)), Σ' (LS5 : List (View.Piece (Elt F) S128x128 .f32)), Σ' (LS6 : List (View.Piece (Elt F) S128x128 .f32)), Σ' (LS7 : List (View.Piece (Elt F) S128x128 .f32)), Σ' (LS8 : List (View.Piece (Elt F) S128x128 .f32)), { LS9 : List (View.Piece (Elt F) S128x128 .f32) //
      ∀ (xi : Vec F S10x128 .f32) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4) ∗ (∃ f, arg11.view.loc (c : Thread nD τ) ↦[arg11.view.set]{fullShare} arg11.view.writes (Elt F) f LS5) ∗ (∃ f, arg12.view.loc (c : Thread nD τ) ↦[arg12.view.set]{fullShare} arg12.view.writes (Elt F) f LS6) ∗ (∃ f, arg13.view.loc (c : Thread nD τ) ↦[arg13.view.set]{fullShare} arg13.view.writes (Elt F) f LS7) ∗ (∃ f, arg14.view.loc (c : Thread nD τ) ↦[arg14.view.set]{fullShare} arg14.view.writes (Elt F) f LS8) ∗ (∃ f, arg15.view.loc (c : Thread nD τ) ↦[arg15.view.set]{fullShare} arg15.view.writes (Elt F) f LS9)) -∗ K ⟨⟩))
          ⊢ wp frame (wpE (defs₀ (F := F)) Variants.none c none) E (cc0__moments_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, ?_, fun xi E K => ?run⟩
  case run =>
    simp only [cc0__moments_kernel_eq_skeleton]; unfold cc0__moments_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg3.eq_unread hf0
    obtain rfl := harg4.eq_unread hf1
    obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.Kernel.Fr

end
-- ==== Proof.KbRunB.lean ====
/-
  The kernel body run at a middle point of a channel tile (the accumulators are added to; nothing is stored into the output block).
  The two input blocks are held at their contents x0, x1 and handed back as they were; each accumulator is held at
  what the point before left (xs0 … xs9) and handed back with this point's stores listed over it; the output block is handed back untouched.
  The lists of stores are found by the run itself.
-/
import proofs.«148899_j15599321219646_2_alg».proof.Proof.KbRunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runB (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i)
    (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    Σ' (LS0 : List (View.Piece (Elt F) S128x128 .f32)), Σ' (LS1 : List (View.Piece (Elt F) S128x128 .f32)), Σ' (LS2 : List (View.Piece (Elt F) S128x128 .f32)), Σ' (LS3 : List (View.Piece (Elt F) S128x128 .f32)), Σ' (LS4 : List (View.Piece (Elt F) S128x128 .f32)), Σ' (LS5 : List (View.Piece (Elt F) S128x128 .f32)), Σ' (LS6 : List (View.Piece (Elt F) S128x128 .f32)), Σ' (LS7 : List (View.Piece (Elt F) S128x128 .f32)), Σ' (LS8 : List (View.Piece (Elt F) S128x128 .f32)), { LS9 : List (View.Piece (Elt F) S128x128 .f32) //
      ∀ (xi : Vec F S10x128 .f32) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs0 ∗ owns (c : Thread nD τ) arg7 fullShare xs1 ∗ owns (c : Thread nD τ) arg8 fullShare xs2 ∗ owns (c : Thread nD τ) arg9 fullShare xs3 ∗ owns (c : Thread nD τ) arg10 fullShare xs4 ∗ owns (c : Thread nD τ) arg11 fullShare xs5 ∗ owns (c : Thread nD τ) arg12 fullShare xs6 ∗ owns (c : Thread nD τ) arg13 fullShare xs7 ∗ owns (c : Thread nD τ) arg14 fullShare xs8 ∗ owns (c : Thread nD τ) arg15 fullShare xs9
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4) ∗ (∃ f, arg11.view.loc (c : Thread nD τ) ↦[arg11.view.set]{fullShare} arg11.view.writes (Elt F) f LS5) ∗ (∃ f, arg12.view.loc (c : Thread nD τ) ↦[arg12.view.set]{fullShare} arg12.view.writes (Elt F) f LS6) ∗ (∃ f, arg13.view.loc (c : Thread nD τ) ↦[arg13.view.set]{fullShare} arg13.view.writes (Elt F) f LS7) ∗ (∃ f, arg14.view.loc (c : Thread nD τ) ↦[arg14.view.set]{fullShare} arg14.view.writes (Elt F) f LS8) ∗ (∃ f, arg15.view.loc (c : Thread nD τ) ↦[arg15.view.set]{fullShare} arg15.view.writes (Elt F) f LS9)) -∗ K ⟨⟩))
          ⊢ wp frame (wpE (defs₀ (F := F)) Variants.none c none) E (cc0__moments_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, ?_, fun xi E K => ?run⟩
  case run =>
    simp only [cc0__moments_kernel_eq_skeleton]; unfold cc0__moments_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg3.eq_unread hf0
    obtain rfl := harg4.eq_unread hf1
    obtain rfl := harg5.eq_unread hf2
    obtain rfl := harg6.eq_unread hfs0
    obtain rfl := harg7.eq_unread hfs1
    obtain rfl := harg8.eq_unread hfs2
    obtain rfl := harg9.eq_unread hfs3
    obtain rfl := harg10.eq_unread hfs4
    obtain rfl := harg11.eq_unread hfs5
    obtain rfl := harg12.eq_unread hfs6
    obtain rfl := harg13.eq_unread hfs7
    obtain rfl := harg14.eq_unread hfs8
    obtain rfl := harg15.eq_unread hfs9
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.Kernel.Fr

end
-- ==== Proof.KbRunC.lean ====
/-
  The kernel body run at the last point of a channel tile (the accumulators are added to and then reduced along the lanes into the ten rows of the output block).
  The two input blocks are held at their contents x0, x1 and handed back as they were; each accumulator is held at
  what the point before left (xs0 … xs9) and handed back with this point's stores listed over it; the output block is held at anything and handed back with its ten row stores listed.
  The lists of stores are found by the run itself.
-/
import proofs.«148899_j15599321219646_2_alg».proof.Proof.KbRunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runC (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i)
    (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    Σ' (L : List (View.Piece (Elt F) S10x128 .f32)), Σ' (LS0 : List (View.Piece (Elt F) S128x128 .f32)), Σ' (LS1 : List (View.Piece (Elt F) S128x128 .f32)), Σ' (LS2 : List (View.Piece (Elt F) S128x128 .f32)), Σ' (LS3 : List (View.Piece (Elt F) S128x128 .f32)), Σ' (LS4 : List (View.Piece (Elt F) S128x128 .f32)), Σ' (LS5 : List (View.Piece (Elt F) S128x128 .f32)), Σ' (LS6 : List (View.Piece (Elt F) S128x128 .f32)), Σ' (LS7 : List (View.Piece (Elt F) S128x128 .f32)), Σ' (LS8 : List (View.Piece (Elt F) S128x128 .f32)), { LS9 : List (View.Piece (Elt F) S128x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3 ∗ owns (c : Thread nD τ) arg10 fullShare xs4 ∗ owns (c : Thread nD τ) arg11 fullShare xs5 ∗ owns (c : Thread nD τ) arg12 fullShare xs6 ∗ owns (c : Thread nD τ) arg13 fullShare xs7 ∗ owns (c : Thread nD τ) arg14 fullShare xs8 ∗ owns (c : Thread nD τ) arg15 fullShare xs9
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4) ∗ (∃ f, arg11.view.loc (c : Thread nD τ) ↦[arg11.view.set]{fullShare} arg11.view.writes (Elt F) f LS5) ∗ (∃ f, arg12.view.loc (c : Thread nD τ) ↦[arg12.view.set]{fullShare} arg12.view.writes (Elt F) f LS6) ∗ (∃ f, arg13.view.loc (c : Thread nD τ) ↦[arg13.view.set]{fullShare} arg13.view.writes (Elt F) f LS7) ∗ (∃ f, arg14.view.loc (c : Thread nD τ) ↦[arg14.view.set]{fullShare} arg14.view.writes (Elt F) f LS8) ∗ (∃ f, arg15.view.loc (c : Thread nD τ) ↦[arg15.view.set]{fullShare} arg15.view.writes (Elt F) f LS9)) -∗ K ⟨⟩))
          ⊢ wp frame (wpE (defs₀ (F := F)) Variants.none c none) E (cc0__moments_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, ?_, ?_, fun E K => ?run⟩
  case run =>
    simp only [cc0__moments_kernel_eq_skeleton]; unfold cc0__moments_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg3.eq_unread hf0
    obtain rfl := harg4.eq_unread hf1
    obtain rfl := harg6.eq_unread hfs0
    obtain rfl := harg7.eq_unread hfs1
    obtain rfl := harg8.eq_unread hfs2
    obtain rfl := harg9.eq_unread hfs3
    obtain rfl := harg10.eq_unread hfs4
    obtain rfl := harg11.eq_unread hfs5
    obtain rfl := harg12.eq_unread hfs6
    obtain rfl := harg13.eq_unread hfs7
    obtain rfl := harg14.eq_unread hfs8
    obtain rfl := harg15.eq_unread hfs9
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.Kernel.Fr

end
-- ==== Proof.KbSt.lean ====
/-
  What each grid point leaves, and the region's invariant.

  After the body at a point the ten accumulators hold: at a channel tile's first point, this point's sums over a
  cleared accumulator; at every later point of the tile, this point's sums added to what the point before left.
  The output block holds the accumulators' lane sums after a tile's last point, and is not looked at before.
  The invariant carries the ten accumulators at those contents from one point to the next.
-/
import proofs.«148899_j15599321219646_2_alg».proof.Proof.KbRunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores of each case cover their buffers -/

theorem coverA_0 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).1, y ∈ pc.1.set :=
  View.cover_of_tiledL _ S128x128.size (by sl_kernel_rfl) y
theorem coverA_1 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.1, y ∈ pc.1.set :=
  View.cover_of_tiledL _ S128x128.size (by sl_kernel_rfl) y
theorem coverA_2 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.1, y ∈ pc.1.set :=
  View.cover_of_tiledL _ S128x128.size (by sl_kernel_rfl) y
theorem coverA_3 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.1, y ∈ pc.1.set :=
  View.cover_of_tiledL _ S128x128.size (by sl_kernel_rfl) y
theorem coverA_4 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.1, y ∈ pc.1.set :=
  View.cover_of_tiledL _ S128x128.size (by sl_kernel_rfl) y
theorem coverA_5 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.1, y ∈ pc.1.set :=
  View.cover_of_tiledL _ S128x128.size (by sl_kernel_rfl) y
theorem coverA_6 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.2.1, y ∈ pc.1.set :=
  View.cover_of_tiledL _ S128x128.size (by sl_kernel_rfl) y
theorem coverA_7 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.2.2.1, y ∈ pc.1.set :=
  View.cover_of_tiledL _ S128x128.size (by sl_kernel_rfl) y
theorem coverA_8 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.2.2.2.1, y ∈ pc.1.set :=
  View.cover_of_tiledL _ S128x128.size (by sl_kernel_rfl) y
theorem coverA_9 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.2.2.2.2.1, y ∈ pc.1.set :=
  View.cover_of_tiledL _ S128x128.size (by sl_kernel_rfl) y
theorem coverB_0 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).1, y ∈ pc.1.set :=
  View.cover_of_tiledL _ S128x128.size (by sl_kernel_rfl) y
theorem coverB_1 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.1, y ∈ pc.1.set :=
  View.cover_of_tiledL _ S128x128.size (by sl_kernel_rfl) y
theorem coverB_2 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.1, y ∈ pc.1.set :=
  View.cover_of_tiledL _ S128x128.size (by sl_kernel_rfl) y
theorem coverB_3 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.1, y ∈ pc.1.set :=
  View.cover_of_tiledL _ S128x128.size (by sl_kernel_rfl) y
theorem coverB_4 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.1, y ∈ pc.1.set :=
  View.cover_of_tiledL _ S128x128.size (by sl_kernel_rfl) y
theorem coverB_5 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.1, y ∈ pc.1.set :=
  View.cover_of_tiledL _ S128x128.size (by sl_kernel_rfl) y
theorem coverB_6 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.1, y ∈ pc.1.set :=
  View.cover_of_tiledL _ S128x128.size (by sl_kernel_rfl) y
theorem coverB_7 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.1, y ∈ pc.1.set :=
  View.cover_of_tiledL _ S128x128.size (by sl_kernel_rfl) y
theorem coverB_8 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.1, y ∈ pc.1.set :=
  View.cover_of_tiledL _ S128x128.size (by sl_kernel_rfl) y
theorem coverB_9 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.2.1, y ∈ pc.1.set :=
  View.cover_of_tiledL _ S128x128.size (by sl_kernel_rfl) y
theorem coverC_0 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.1, y ∈ pc.1.set :=
  View.cover_of_tiledL _ S128x128.size (by sl_kernel_rfl) y
theorem coverC_1 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.1, y ∈ pc.1.set :=
  View.cover_of_tiledL _ S128x128.size (by sl_kernel_rfl) y
theorem coverC_2 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.1, y ∈ pc.1.set :=
  View.cover_of_tiledL _ S128x128.size (by sl_kernel_rfl) y
theorem coverC_3 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.1, y ∈ pc.1.set :=
  View.cover_of_tiledL _ S128x128.size (by sl_kernel_rfl) y
theorem coverC_4 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.1, y ∈ pc.1.set :=
  View.cover_of_tiledL _ S128x128.size (by sl_kernel_rfl) y
theorem coverC_5 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.1, y ∈ pc.1.set :=
  View.cover_of_tiledL _ S128x128.size (by sl_kernel_rfl) y
theorem coverC_6 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.1, y ∈ pc.1.set :=
  View.cover_of_tiledL _ S128x128.size (by sl_kernel_rfl) y
theorem coverC_7 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.1, y ∈ pc.1.set :=
  View.cover_of_tiledL _ S128x128.size (by sl_kernel_rfl) y
theorem coverC_8 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.2.1, y ∈ pc.1.set :=
  View.cover_of_tiledL _ S128x128.size (by sl_kernel_rfl) y
theorem coverC_9 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.2.2.1, y ∈ pc.1.set :=
  View.cover_of_tiledL _ S128x128.size (by sl_kernel_rfl) y
/-- The ten row stores of a tile's last point tile the 10 x 128 output block. -/
theorem coverC_o (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S10x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).1, y ∈ pc.1.set :=
  View.cover_of_tiledL (s := S10x128) _ ![1, 128] (by sl_kernel_rfl) y

/-! ## What a point leaves -/

/-- The output block and the ten accumulators after a point. -/
structure St (F : FTy → Type) where
  o : Vec F S10x128 .f32
  s0 : Vec F S128x128 .f32
  s1 : Vec F S128x128 .f32
  s2 : Vec F S128x128 .f32
  s3 : Vec F S128x128 .f32
  s4 : Vec F S128x128 .f32
  s5 : Vec F S128x128 .f32
  s6 : Vec F S128x128 .f32
  s7 : Vec F S128x128 .f32
  s8 : Vec F S128x128 .f32
  s9 : Vec F S128x128 .f32

/-- A tile's first point: the case's stores read back; the output block is a placeholder nothing consults. -/
def stA (c : Dev nD) (t : Fin cfg0.N) (h0 : t.val % 16 = 0) (h1 : ¬t.val % 16 = 15)  : St F :=
  { o := VO.read (Elt F) (VO.writes (Elt F) VO.junk [])
    s0 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).1)
    s1 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.1)
    s2 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.1)
    s3 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.1)
    s4 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.2.1)
    s5 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.2.2.1)
    s6 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.2.2.2.1)
    s7 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.2.2.2.2.1)
    s8 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.2.2.2.2.2.1)
    s9 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.2.2.2.2.2.2.1) }
/-- A middle point, over what the point before left (`p`). -/
def stB (c : Dev nD) (t : Fin cfg0.N) (h0 : ¬t.val % 16 = 0) (h1 : ¬t.val % 16 = 15) (p : St F) : St F :=
  { o := VO.read (Elt F) (VO.writes (Elt F) VO.junk [])
    s0 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).1)
    s1 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.1)
    s2 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.1)
    s3 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.1)
    s4 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.2.1)
    s5 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.2.2.1)
    s6 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.2.2.2.1)
    s7 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.2.2.2.2.1)
    s8 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.2.2.2.2.2.1)
    s9 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.2.2.2.2.2.2.1) }
/-- A tile's last point, over what the point before left. -/
def stC (c : Dev nD) (t : Fin cfg0.N) (h0 : ¬t.val % 16 = 0) (h1 : t.val % 16 = 15) (p : St F) : St F :=
  { o := VO.read (Elt F) (VO.writes (Elt F) VO.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).1)
    s0 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.1)
    s1 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.1)
    s2 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.1)
    s3 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.1)
    s4 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.2.1)
    s5 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.2.2.1)
    s6 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.2.2.2.1)
    s7 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.2.2.2.2.1)
    s8 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.2.2.2.2.2.1)
    s9 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.2.2.2.2.2.2.1) }

/-- Point by point: the case the position within the tile selects. -/
def outsAt (c : Dev nD) : (n : ℕ) → n < cfg0.N → St F
  | 0, hn => stA m c ⟨0, hn⟩ (Nat.zero_mod _) (fun h => absurd (show (0 : ℕ) % 16 = 15 from h) (by decide : ¬(0 : ℕ) % 16 = 15))
  | n + 1, hn =>
    if h0 : (n + 1) % 16 = 0 then
      if h1 : (n + 1) % 16 = 15 then
        False.elim (by omega)
      else stA m c ⟨n + 1, hn⟩ h0 h1
    else
      if h1 : (n + 1) % 16 = 15 then stC m c ⟨n + 1, hn⟩ h0 h1 (outsAt c n (Nat.lt_of_succ_lt hn))
      else stB m c ⟨n + 1, hn⟩ h0 h1 (outsAt c n (Nat.lt_of_succ_lt hn))

theorem outsAt_A (c : Dev nD) (t : Fin cfg0.N) (h0 : t.val % 16 = 0) (h1 : ¬t.val % 16 = 15) :
    outsAt m c t.val t.isLt = stA m c t h0 h1 := by
  obtain ⟨n, hn⟩ := t
  cases n with
  | zero => exact rfl
  | succ n => exact (dif_pos h0).trans ((dif_neg h1).trans rfl)

theorem outsAt_B (c : Dev nD) (t : Fin cfg0.N) (h0 : ¬t.val % 16 = 0) (h1 : ¬t.val % 16 = 15) :
    outsAt m c t.val t.isLt = stB m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 16 = 0) (h1 : t.val % 16 = 15) :
    outsAt m c t.val t.isLt = stC m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators carried from point to point -/

/-- The ten accumulators owned at the contents `p`, and the generator register at some state. -/
def accAt (c : Dev nD) (p : St F) : sProp 𝕄 :=
  iprop(iprop(owns (c : Thread nD τ) sc0 fullShare (p).s0 ∗ owns (c : Thread nD τ) sc1 fullShare (p).s1 ∗ owns (c : Thread nD τ) sc2 fullShare (p).s2 ∗ owns (c : Thread nD τ) sc3 fullShare (p).s3 ∗ owns (c : Thread nD τ) sc4 fullShare (p).s4 ∗ owns (c : Thread nD τ) sc5 fullShare (p).s5 ∗ owns (c : Thread nD τ) sc6 fullShare (p).s6 ∗ owns (c : Thread nD τ) sc7 fullShare (p).s7 ∗ owns (c : Thread nD τ) sc8 fullShare (p).s8 ∗ owns (c : Thread nD τ) sc9 fullShare (p).s9) ∗ (∃ r, prngReg c r))

def PhiS (c : Dev nD) : (n : ℕ) → n ≤ cfg0.N → sProp 𝕄
  | 0, _ => Pipeline.ΦA spec0 c
  | n + 1, hn => accAt c (outsAt m c n hn)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = accAt c (outsAt m c n hn) := rfl

theorem PhiS_pos (c : Dev nD) (n : ℕ) (h : n ≤ cfg0.N) (hz : n ≠ 0) :
    PhiS m c n h = accAt c (outsAt m c (n - 1) (by omega)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).o
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).o := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

end Cert.Kernel.Fr

end
-- ==== Proof.KbBodyA.lean ====
/-
  The body obligation at a channel tile's first point (the accumulators taken at anything): from the accumulators, the two
  input blocks and the output's buffer, the body runs and hands back the accumulators at this point's contents,
  the input blocks as they were, and the output's buffer untouched.
-/
import proofs.«148899_j15599321219646_2_alg».proof.Proof.KbSt

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem bodyA (c : Dev nD) (t : Fin cfg0.N) (h0 : t.val % 16 = 0) (h1 : ¬t.val % 16 = 15)  (O : sProp 𝕄)
    {D0 D1 D2 : Type} (B : D2 → Vec F S10x128 .f32) :
    iprop(iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) ∗ O
        ∗ (∃ _d : D0, owns (c : Thread nD τ) (ms0 t) fullShare (iblk m c 0 t))
        ∗ (∃ _d : D1, owns (c : Thread nD τ) (ms1 t) fullShare (iblk m c 1 t))
        ∗ (∃ d : D2, owns (c : Thread nD τ) (ms2 t) fullShare (B d)))
      ⊢ wp frame (wpE (defs₀ (F := F)) Variants.none c none) Set.univ (bodyAt0 t) (fun _ =>
          iprop(accAt c (stA m c t h0 h1) ∗ O
            ∗ owns (c : Thread nD τ) (ms0 t) fullShare (iblk m c 0 t)
            ∗ owns (c : Thread nD τ) (ms1 t) fullShare (iblk m c 1 t)
            ∗ (∃ d : D2, owns (c : Thread nD τ) (ms2 t) fullShare (B d)))) := by
  unfold bodyAt0 accAt
  iintro ⟨⟨⟨HS0, HS1, HS2, HS3, HS4, HS5, HS6, HS7, HS8, HS9⟩, Hg⟩, Ho, ⟨%d0, H0⟩, ⟨%d1, H1⟩, ⟨%d2, H2⟩⟩
  iapply ((runA (F := F) c (grid0.coords t) _ _ _ _ _ _ _ _ _ _ _ _ _ _ _ _ _ _ _ _ _ _ _ _ _ _ ((isFirst_iff t).mpr h0) (fun h => h1 ((isLast_iff t).mp h)) (iblk m c 0 t) (iblk m c 1 t)).2.2.2.2.2.2.2.2.2.2 _ Set.univ _)
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
  isplitl [HS0 HS1 HS2 HS3 HS4 HS5 HS6 HS7 HS8 HS9 Hg]
  · isplitl [HS0 HS1 HS2 HS3 HS4 HS5 HS6 HS7 HS8 HS9]
    ·
      isplitl [HS0]
      · unfold owns; iexists _; isplitr
        swap; · iexact HS0
        ipureintro; show _ = VS.read (Elt F) (VS.writes (Elt F) VS.junk _); exact View.read_writes_of_cover _ _ _ _ _ (coverA_0 (F := F) c _ _ _ _ _ _ _ _ _ _ _ _ _ _ _ _ _ _ _ _ _ _ _ _ _ _ _ _ _ _ _)
      isplitl [HS1]
      · unfold owns; iexists _; isplitr
        swap; · iexact HS1
        ipureintro; show _ = VS.read (Elt F) (VS.writes (Elt F) VS.junk _); exact View.read_writes_of_cover _ _ _ _ _ (coverA_1 (F := F) c _ _ _ _ _ _ _ _ _ _ _ _ _ _ _ _ _ _ _ _ _ _ _ _ _ _ _ _ _ _ _)
      isplitl [HS2]
      · unfold owns; iexists _; isplitr
        swap; · iexact HS2
        ipureintro; show _ = VS.read (Elt F) (VS.writes (Elt F) VS.junk _); exact View.read_writes_of_cover _ _ _ _ _ (coverA_2 (F := F) c _ _ _ _ _ _ _ _ _ _ _ _ _ _ _ _ _ _ _ _ _ _ _ _ _ _ _ _ _ _ _)
      isplitl [HS3]
      · unfold owns; iexists _; isplitr
        swap; · iexact HS3
        ipureintro; show _ = VS.read (Elt F) (VS.writes (Elt F) VS.junk _); exact View.read_writes_of_cover _ _ _ _ _ (coverA_3 (F := F) c _ _ _ _ _ _ _ _ _ _ _ _ _ _ _ _ _ _ _ _ _ _ _ _ _ _ _ _ _ _ _)
      isplitl [HS4]
      · unfold owns; iexists _; isplitr
        swap; · iexact HS4
        ipureintro; show _ = VS.read (Elt F) (VS.writes (Elt F) VS.junk _); exact View.read_writes_of_cover _ _ _ _ _ (coverA_4 (F := F) c _ _ _ _ _ _ _ _ _ _ _ _ _ _ _ _ _ _ _ _ _ _ _ _ _ _ _ _ _ _ _)
      isplitl [HS5]
      · unfold owns; iexists _; isplitr
        swap; · iexact HS5
        ipureintro; show _ = VS.read (Elt F) (VS.writes (Elt F) VS.junk _); exact View.read_writes_of_cover _ _ _ _ _ (coverA_5 (F := F) c _ _ _ _ _ _ _ _ _ _ _ _ _ _ _ _ _ _ _ _ _ _ _ _ _ _ _ _ _ _ _)
      isplitl [HS6]
      · unfold owns; iexists _; isplitr
        swap; · iexact HS6
        ipureintro; show _ = VS.read (Elt F) (VS.writes (Elt F) VS.junk _); exact View.read_writes_of_cover _ _ _ _ _ (coverA_6 (F := F) c _ _ _ _ _ _ _ _ _ _ _ _ _ _ _ _ _ _ _ _ _ _ _ _ _ _ _ _ _ _ _)
      isplitl [HS7]
      · unfold owns; iexists _; isplitr
        swap; · iexact HS7
        ipureintro; show _ = VS.read (Elt F) (VS.writes (Elt F) VS.junk _); exact View.read_writes_of_cover _ _ _ _ _ (coverA_7 (F := F) c _ _ _ _ _ _ _ _ _ _ _ _ _ _ _ _ _ _ _ _ _ _ _ _ _ _ _ _ _ _ _)
      isplitl [HS8]
      · unfold owns; iexists _; isplitr
        swap; · iexact HS8
        ipureintro; show _ = VS.read (Elt F) (VS.writes (Elt F) VS.junk _); exact View.read_writes_of_cover _ _ _ _ _ (coverA_8 (F := F) c _ _ _ _ _ _ _ _ _ _ _ _ _ _ _ _ _ _ _ _ _ _ _ _ _ _ _ _ _ _ _)
      unfold owns; iexists _; isplitr
      swap; · iexact HS9
      ipureintro; show _ = VS.read (Elt F) (VS.writes (Elt F) VS.junk _); exact View.read_writes_of_cover _ _ _ _ _ (coverA_9 (F := F) c _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  iexists _; iexact H2

end Cert.Kernel.Fr

end
-- ==== Proof.KbBodyB.lean ====
/-
  The body obligation at a middle point of a channel tile: from the accumulators at what the point before left, the two
  input blocks and the output's buffer, the body runs and hands back the accumulators at this point's contents,
  the input blocks as they were, and the output's buffer untouched.
-/
import proofs.«148899_j15599321219646_2_alg».proof.Proof.KbSt

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem bodyB (c : Dev nD) (t : Fin cfg0.N) (h0 : ¬t.val % 16 = 0) (h1 : ¬t.val % 16 = 15) (p : St F) (O : sProp 𝕄)
    {D0 D1 D2 : Type} (B : D2 → Vec F S10x128 .f32) :
    iprop(accAt c p ∗ O
        ∗ (∃ _d : D0, owns (c : Thread nD τ) (ms0 t) fullShare (iblk m c 0 t))
        ∗ (∃ _d : D1, owns (c : Thread nD τ) (ms1 t) fullShare (iblk m c 1 t))
        ∗ (∃ d : D2, owns (c : Thread nD τ) (ms2 t) fullShare (B d)))
      ⊢ wp frame (wpE (defs₀ (F := F)) Variants.none c none) Set.univ (bodyAt0 t) (fun _ =>
          iprop(accAt c (stB m c t h0 h1 p) ∗ O
            ∗ owns (c : Thread nD τ) (ms0 t) fullShare (iblk m c 0 t)
            ∗ owns (c : Thread nD τ) (ms1 t) fullShare (iblk m c 1 t)
            ∗ (∃ d : D2, owns (c : Thread nD τ) (ms2 t) fullShare (B d)))) := by
  unfold bodyAt0 accAt
  iintro ⟨⟨⟨HS0, HS1, HS2, HS3, HS4, HS5, HS6, HS7, HS8, HS9⟩, Hg⟩, Ho, ⟨%d0, H0⟩, ⟨%d1, H1⟩, ⟨%d2, H2⟩⟩
  iapply ((runB (F := F) c (grid0.coords t) _ _ _ _ _ _ _ _ _ _ _ _ _ _ _ _ _ _ _ _ _ _ _ _ _ _ (fun h => h0 ((isFirst_iff t).mp h)) (fun h => h1 ((isLast_iff t).mp h)) (iblk m c 0 t) (iblk m c 1 t) _ _ _ _ _ _ _ _ _ _).2.2.2.2.2.2.2.2.2.2 _ Set.univ _)
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
  isplitl [HS0 HS1 HS2 HS3 HS4 HS5 HS6 HS7 HS8 HS9 Hg]
  · isplitl [HS0 HS1 HS2 HS3 HS4 HS5 HS6 HS7 HS8 HS9]
    ·
      isplitl [HS0]
      · unfold owns; iexists _; isplitr
        swap; · iexact HS0
        ipureintro; show _ = VS.read (Elt F) (VS.writes (Elt F) VS.junk _); exact View.read_writes_of_cover _ _ _ _ _ (coverB_0 (F := F) c _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; show _ = VS.read (Elt F) (VS.writes (Elt F) VS.junk _); exact View.read_writes_of_cover _ _ _ _ _ (coverB_1 (F := F) c _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; show _ = VS.read (Elt F) (VS.writes (Elt F) VS.junk _); exact View.read_writes_of_cover _ _ _ _ _ (coverB_2 (F := F) c _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; show _ = VS.read (Elt F) (VS.writes (Elt F) VS.junk _); exact View.read_writes_of_cover _ _ _ _ _ (coverB_3 (F := F) c _ _ _ _ _ _ _ _ _ _ _ _ _ _ _ _ _ _ _ _ _ _ _ _ _ _ _ _ _ _ _ _ _ _ _ _ _ _ _ _ _)
      isplitl [HS4]
      · unfold owns; iexists _; isplitr
        swap; · iexact HS4
        ipureintro; show _ = VS.read (Elt F) (VS.writes (Elt F) VS.junk _); exact View.read_writes_of_cover _ _ _ _ _ (coverB_4 (F := F) c _ _ _ _ _ _ _ _ _ _ _ _ _ _ _ _ _ _ _ _ _ _ _ _ _ _ _ _ _ _ _ _ _ _ _ _ _ _ _ _ _)
      isplitl [HS5]
      · unfold owns; iexists _; isplitr
        swap; · iexact HS5
        ipureintro; show _ = VS.read (Elt F) (VS.writes (Elt F) VS.junk _); exact View.read_writes_of_cover _ _ _ _ _ (coverB_5 (F := F) c _ _ _ _ _ _ _ _ _ _ _ _ _ _ _ _ _ _ _ _ _ _ _ _ _ _ _ _ _ _ _ _ _ _ _ _ _ _ _ _ _)
      isplitl [HS6]
      · unfold owns; iexists _; isplitr
        swap; · iexact HS6
        ipureintro; show _ = VS.read (Elt F) (VS.writes (Elt F) VS.junk _); exact View.read_writes_of_cover _ _ _ _ _ (coverB_6 (F := F) c _ _ _ _ _ _ _ _ _ _ _ _ _ _ _ _ _ _ _ _ _ _ _ _ _ _ _ _ _ _ _ _ _ _ _ _ _ _ _ _ _)
      isplitl [HS7]
      · unfold owns; iexists _; isplitr
        swap; · iexact HS7
        ipureintro; show _ = VS.read (Elt F) (VS.writes (Elt F) VS.junk _); exact View.read_writes_of_cover _ _ _ _ _ (coverB_7 (F := F) c _ _ _ _ _ _ _ _ _ _ _ _ _ _ _ _ _ _ _ _ _ _ _ _ _ _ _ _ _ _ _ _ _ _ _ _ _ _ _ _ _)
      isplitl [HS8]
      · unfold owns; iexists _; isplitr
        swap; · iexact HS8
        ipureintro; show _ = VS.read (Elt F) (VS.writes (Elt F) VS.junk _); exact View.read_writes_of_cover _ _ _ _ _ (coverB_8 (F := F) c _ _ _ _ _ _ _ _ _ _ _ _ _ _ _ _ _ _ _ _ _ _ _ _ _ _ _ _ _ _ _ _ _ _ _ _ _ _ _ _ _)
      unfold owns; iexists _; isplitr
      swap; · iexact HS9
      ipureintro; show _ = VS.read (Elt F) (VS.writes (Elt F) VS.junk _); exact View.read_writes_of_cover _ _ _ _ _ (coverB_9 (F := F) c _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  iexists _; iexact H2

end Cert.Kernel.Fr

end
-- ==== Proof.KbBodyC.lean ====
/-
  The body obligation at a channel tile's last point: from the accumulators at what the point before left, the two
  input blocks and the output's buffer, the body runs and hands back the accumulators at this point's contents,
  the input blocks as they were, and the output's buffer at the ten lane sums.
-/
import proofs.«148899_j15599321219646_2_alg».proof.Proof.KbSt

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem bodyC (c : Dev nD) (t : Fin cfg0.N) (h0 : ¬t.val % 16 = 0) (h1 : t.val % 16 = 15) (p : St F) (O : sProp 𝕄)
    {D0 D1 D2 : Type} (B : D2 → Vec F S10x128 .f32) :
    iprop(accAt c p ∗ O
        ∗ (∃ _d : D0, owns (c : Thread nD τ) (ms0 t) fullShare (iblk m c 0 t))
        ∗ (∃ _d : D1, owns (c : Thread nD τ) (ms1 t) fullShare (iblk m c 1 t))
        ∗ (∃ d : D2, owns (c : Thread nD τ) (ms2 t) fullShare (B d)))
      ⊢ wp frame (wpE (defs₀ (F := F)) Variants.none c none) Set.univ (bodyAt0 t) (fun _ =>
          iprop(accAt c (stC m c t h0 h1 p) ∗ O
            ∗ owns (c : Thread nD τ) (ms0 t) fullShare (iblk m c 0 t)
            ∗ owns (c : Thread nD τ) (ms1 t) fullShare (iblk m c 1 t)
            ∗ owns (c : Thread nD τ) (ms2 t) fullShare (stC m c t h0 h1 p).o)) := by
  unfold bodyAt0 accAt
  iintro ⟨⟨⟨HS0, HS1, HS2, HS3, HS4, HS5, HS6, HS7, HS8, HS9⟩, Hg⟩, Ho, ⟨%d0, H0⟩, ⟨%d1, H1⟩, ⟨%d2, H2⟩⟩
  iapply ((runC (F := F) c (grid0.coords t) _ _ _ _ _ _ _ _ _ _ _ _ _ _ _ _ _ _ _ _ _ _ _ _ _ _ (fun h => h0 ((isFirst_iff t).mp h)) ((isLast_iff t).mpr h1) (iblk m c 0 t) (iblk m c 1 t) _ _ _ _ _ _ _ _ _ _).2.2.2.2.2.2.2.2.2.2.2 Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, ⟨%e2, H2⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
  isplitl [HS0 HS1 HS2 HS3 HS4 HS5 HS6 HS7 HS8 HS9 Hg]
  · isplitl [HS0 HS1 HS2 HS3 HS4 HS5 HS6 HS7 HS8 HS9]
    ·
      isplitl [HS0]
      · unfold owns; iexists _; isplitr
        swap; · iexact HS0
        ipureintro; show _ = VS.read (Elt F) (VS.writes (Elt F) VS.junk _); exact View.read_writes_of_cover _ _ _ _ _ (coverC_0 (F := F) c _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; show _ = VS.read (Elt F) (VS.writes (Elt F) VS.junk _); exact View.read_writes_of_cover _ _ _ _ _ (coverC_1 (F := F) c _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; show _ = VS.read (Elt F) (VS.writes (Elt F) VS.junk _); exact View.read_writes_of_cover _ _ _ _ _ (coverC_2 (F := F) c _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; show _ = VS.read (Elt F) (VS.writes (Elt F) VS.junk _); exact View.read_writes_of_cover _ _ _ _ _ (coverC_3 (F := F) c _ _ _ _ _ _ _ _ _ _ _ _ _ _ _ _ _ _ _ _ _ _ _ _ _ _ _ _ _ _ _ _ _ _ _ _ _ _ _ _ _)
      isplitl [HS4]
      · unfold owns; iexists _; isplitr
        swap; · iexact HS4
        ipureintro; show _ = VS.read (Elt F) (VS.writes (Elt F) VS.junk _); exact View.read_writes_of_cover _ _ _ _ _ (coverC_4 (F := F) c _ _ _ _ _ _ _ _ _ _ _ _ _ _ _ _ _ _ _ _ _ _ _ _ _ _ _ _ _ _ _ _ _ _ _ _ _ _ _ _ _)
      isplitl [HS5]
      · unfold owns; iexists _; isplitr
        swap; · iexact HS5
        ipureintro; show _ = VS.read (Elt F) (VS.writes (Elt F) VS.junk _); exact View.read_writes_of_cover _ _ _ _ _ (coverC_5 (F := F) c _ _ _ _ _ _ _ _ _ _ _ _ _ _ _ _ _ _ _ _ _ _ _ _ _ _ _ _ _ _ _ _ _ _ _ _ _ _ _ _ _)
      isplitl [HS6]
      · unfold owns; iexists _; isplitr
        swap; · iexact HS6
        ipureintro; show _ = VS.read (Elt F) (VS.writes (Elt F) VS.junk _); exact View.read_writes_of_cover _ _ _ _ _ (coverC_6 (F := F) c _ _ _ _ _ _ _ _ _ _ _ _ _ _ _ _ _ _ _ _ _ _ _ _ _ _ _ _ _ _ _ _ _ _ _ _ _ _ _ _ _)
      isplitl [HS7]
      · unfold owns; iexists _; isplitr
        swap; · iexact HS7
        ipureintro; show _ = VS.read (Elt F) (VS.writes (Elt F) VS.junk _); exact View.read_writes_of_cover _ _ _ _ _ (coverC_7 (F := F) c _ _ _ _ _ _ _ _ _ _ _ _ _ _ _ _ _ _ _ _ _ _ _ _ _ _ _ _ _ _ _ _ _ _ _ _ _ _ _ _ _)
      isplitl [HS8]
      · unfold owns; iexists _; isplitr
        swap; · iexact HS8
        ipureintro; show _ = VS.read (Elt F) (VS.writes (Elt F) VS.junk _); exact View.read_writes_of_cover _ _ _ _ _ (coverC_8 (F := F) c _ _ _ _ _ _ _ _ _ _ _ _ _ _ _ _ _ _ _ _ _ _ _ _ _ _ _ _ _ _ _ _ _ _ _ _ _ _ _ _ _)
      unfold owns; iexists _; isplitr
      swap; · iexact HS9
      ipureintro; show _ = VS.read (Elt F) (VS.writes (Elt F) VS.junk _); exact View.read_writes_of_cover _ _ _ _ _ (coverC_9 (F := F) c _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  unfold owns; iexists _; isplitr
  swap; · iexact H2
  ipureintro; show _ = VO.read (Elt F) (VO.writes (Elt F) VO.junk _); exact View.read_writes_of_cover _ _ _ _ _ (coverC_o (F := F) c _ _ _ _ _ _ _ _ _ _ _ _ _ _ _ _ _ _ _ _ _ _ _ _ _ _ _ _ _ _ _ _ _ _ _ _ _ _ _ _ _)

end Cert.Kernel.Fr

end
-- ==== Proof.KbFrame.lean ====
/-
  The body obligation at every point, and the run of @main.

  The position of a point within its channel tile says which of the three cases applies; each case's lemma is
  applied to the invariant as the point finds it. The launch theorem then gives the run of @main: the region,
  then the 387 host lines read over the arrays the region leaves; in particular the two arguments end as they
  started.
-/
import proofs.«148899_j15599321219646_2_alg».proof.Proof.KbBodyA
import proofs.«148899_j15599321219646_2_alg».proof.Proof.KbBodyB
import proofs.«148899_j15599321219646_2_alg».proof.Proof.KbBodyC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Accumulators owned at named contents are, in particular, owned at some contents. -/
theorem accAt_any (c : Dev nD) (p : St F) :
    accAt c p ⊢ (iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) : sProp 𝕄) := by
  unfold accAt
  iintro ⟨⟨HS0, HS1, HS2, HS3, HS4, HS5, HS6, HS7, HS8, HS9⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · have h1 : ¬t.val % 16 = 15 := by omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [Dat.leavesExact_idle (dats m 0 c) 2 t (idle2 t (fun h => h1 ((isLast_iff t).mp h))) (noFlush2 t (fun h => h1 ((isLast_iff t).mp h)))]
    rw [outsAt_A m c t h0 h1]
    by_cases hz : t.val = 0
    · rw [PhiS_castSucc m c t, PhiS_zero m c _ _ hz, PhiA_eq]
      exact bodyA m c t h0 h1 _ _
    · rw [PhiS_castSucc m c t, PhiS_pos m c _ _ hz]
      iintro ⟨HΦ, Ho, H0, H1, H2⟩
      iapply (bodyA m c t h0 h1 _ _)
      isplitl [HΦ]; · iapply (accAt_any c _); iexact HΦ
      isplitl [Ho]; · iexact Ho
      isplitl [H0]; · iexact H0
      isplitl [H1]; · iexact H1
      iexact H2
  · have hz : t.val ≠ 0 := fun h => h0 (by rw [h])
    by_cases h1 : t.val % 16 = 15
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t ((isLast_iff t).mpr h1)], after2]
      rw [outsAt_C m c t h0 h1, PhiS_castSucc m c t, PhiS_pos m c _ _ hz]
      exact bodyC m c t h0 h1 _ _ _
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [Dat.leavesExact_idle (dats m 0 c) 2 t (idle2 t (fun h => h1 ((isLast_iff t).mp h))) (noFlush2 t (fun h => h1 ((isLast_iff t).mp h)))]
      rw [outsAt_B m c t h0 h1, PhiS_castSucc m c t, PhiS_pos m c _ _ hz]
      exact bodyB m c t h0 h1 _ _ _

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  exact accAt_any c _

theorem hout (c : Dev nD) : (dats m 0 c).Φ (Fin.last cfg0.N) ⊢ Pipeline.ΦA spec0 c :=
  Phi_out m c _ (by rw [Fin.val_last]; have : cfg0.N = 32 := N_0; omega)

/-! ## The run of @main -/

set_option backward.isDefEq.respectTransparency.types false in
set_option maxRecDepth 200000 in
set_option maxHeartbeats 40000000 in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The two argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.Kernel.Fr

end
-- ==== Proof.KiBase.lean ====
/-
  The region of the moments kernel and the host lines after it, as the launch theorem wants them.

  @main is one region (a grid of 2 x 8 x 2 = 32 points, the channel tile outermost) followed by 387 host
  operations. Every later operation writes a buffer of its own, never one of the three arrays the region's
  windows stage (the two arguments and the 10 x 256 table of raw power sums), touches unscoped buffers only and
  allocates nothing: the three side conditions of the launch theorem, each proved for the whole list at once.

  Window 0 stages x, window 1 stages the target, each as a 1 x 128 x 64 x 128 block at (b, channel tile, row
  tile, 0); window 2 stages the 10 x 128 block of sums of the channel tile. A point's position among the 16
  points of its channel tile decides what the body does: at position 0 it first clears its ten 128 x 128
  accumulators, at position 15 it also reduces them along the lanes into the ten rows of the output block,
  which the pipeline writes back there and nowhere else; in between the output's buffer is left alone.
-/
import proofs.«148899_j15599321219646_2_alg».proof.Proof.Gen.KernelIdeal.Launch
import proofs.«148899_j15599321219646_2_alg».proof.Proof.Gen.KernelIdeal.Skeleton
import proofs.«148899_j15599321219646_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then the host lines -/

/-- Core `c`'s buffers when the region is entered: no host line comes before it, so the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

set_option maxHeartbeats 4000000 in
/-- None of the later lines allocates. -/
theorem tail_fresh : (hostOps1 : List (HloOp τ sig (Elt F))).Forall fun op => op.fresh = ∅ := by
  simp only [List.Forall]; repeat' constructor

/-- An operation whose one written buffer is none of the three staged arrays writes no staged array. -/
theorem keeps_of {op : HloOp τ sig (Elt F)} {y : Ref sig .tc} (hw : op.writes = {Proc.devRef .tc y})
    (h0 : main_arg0 ≠ y) (h1 : main_arg1 ≠ y) (h2 : main_call0_v0 ≠ y) :
    ∀ w, Proc.devRef .tc (Pipeline.arrRef spec0 w) ∉ op.writes := by
  intro w
  rw [hw, Finset.mem_singleton]
  fin_cases w
  · exact StableHlo.devRef_ne_of_ne h0
  · exact StableHlo.devRef_ne_of_ne h1
  · exact StableHlo.devRef_ne_of_ne h2

set_option maxHeartbeats 40000000 in
/-- Each later line writes its own result buffer, which is none of the staged arrays. -/
theorem tail_keeps : (hostOps1 : List (HloOp τ sig (Elt F))).Forall fun op =>
    ∀ w, Proc.devRef .tc (Pipeline.arrRef spec0 w) ∉ op.writes := by
  simp only [List.Forall]
  repeat' constructor
  all_goals exact keeps_of rfl (by decide) (by decide) (by decide)

set_option maxRecDepth 200000 in
set_option maxHeartbeats 40000000 in
/-- @main reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp tail_keeps) op hop

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point, for any proof data over these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- "First point of the channel tile": b = 0 and row tile 0. -/
abbrev isFirst (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1
theorem isFirst_iff : ∀ t : Fin cfg0.N, isFirst (grid0.coords t) ↔ t.val % 16 = 0 :=
  (by decide +kernel : ∀ t : Fin grid0.N, isFirst (grid0.coords t) ↔ t.val % 16 = 0)

/-- "Last point of the channel tile": b = 7 and row tile 1. -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from a tile's last point the output's buffer is idle and not written back. -/
theorem idle2 : ∀ t : Fin cfg0.N, ¬isLast (grid0.coords t) → cfg0.idle 2 (grid0.coords t) = true := by decide +kernel
theorem noFlush2 : ∀ t : Fin cfg0.N, ¬isLast (grid0.coords t) → (cfg0.win 2).flush t = false := by decide +kernel
/-- At a tile's last point the body stores into it. -/
theorem live2 : ∀ t : Fin cfg0.N, isLast (grid0.coords t) → cfg0.idle 2 (grid0.coords t) = false := by decide +kernel

/-! ## The memrefs the body is called with -/

/-- One staging buffer of the output window, through which its contents are stated. -/
abbrev VO : View sig .tc .vmem S10x128 .f32 := (Memref.whole cc0_stg2_0 : Memref sig .tc .vmem S10x128 .f32).view
abbrev ms0 (t : Fin cfg0.N) : Memref sig .tc .vmem S1x128x64x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x64x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10x128 .f32 := win0_2.stage (cfg0.slots t 2)
abbrev hs2 (t : Fin cfg0.N) : (ms2 t).IsWhole := hstage0_2 ((cfg0.slots t 2).cast nbuf0_2)
/-- The ten accumulators: five for the powers of x, five for the powers of the target. -/
abbrev sc0 : Memref sig .tc .vmem S128x128 .f32 := Memref.whole cc0_scratch0
abbrev sc1 : Memref sig .tc .vmem S128x128 .f32 := Memref.whole cc0_scratch1
abbrev sc2 : Memref sig .tc .vmem S128x128 .f32 := Memref.whole cc0_scratch2
abbrev sc3 : Memref sig .tc .vmem S128x128 .f32 := Memref.whole cc0_scratch3
abbrev sc4 : Memref sig .tc .vmem S128x128 .f32 := Memref.whole cc0_scratch4
abbrev sc5 : Memref sig .tc .vmem S128x128 .f32 := Memref.whole cc0_scratch5
abbrev sc6 : Memref sig .tc .vmem S128x128 .f32 := Memref.whole cc0_scratch6
abbrev sc7 : Memref sig .tc .vmem S128x128 .f32 := Memref.whole cc0_scratch7
abbrev sc8 : Memref sig .tc .vmem S128x128 .f32 := Memref.whole cc0_scratch8
abbrev sc9 : Memref sig .tc .vmem S128x128 .f32 := Memref.whole cc0_scratch9
/-- An accumulator as a view. -/
abbrev VS : View sig .tc .vmem S128x128 .f32 := (sc0).view

/-- The launch's invariant with the ten accumulators as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) := by
  unfold Pipeline.ΦA; rw [scopedRest0_eq]; simp only [sc0, sc1, sc2, sc3, sc4, sc5, sc6, sc7, sc8, sc9, owns_whole]; try rfl

end Cert.KernelIdeal.Fr

end
-- ==== Proof.KiRunA.lean ====
/-
  The kernel body run at the first point of a channel tile: the ten accumulators are cleared before they are added
  to, so what they held does not matter (they are taken at anything); nothing is stored into the output block,
  which is handed back untouched, as are the two input blocks x0, x1. Each accumulator comes back with this
  point's stores listed over it; the lists are found by the run itself.
-/
import proofs.«148899_j15599321219646_2_alg».proof.Proof.KiBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runA (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i)
    (x0 x1 : Vec F S1x128x64x128 .f32) :
    Σ' (LS0 : List (View.Piece (Elt F) S128x128 .f32)), Σ' (LS1 : List (View.Piece (Elt F) S128x128 .f32)), Σ' (LS2 : List (View.Piece (Elt F) S128x128 .f32)), Σ' (LS3 : List (View.Piece (Elt F) S128x128 .f32)), Σ' (LS4 : List (View.Piece (Elt F) S128x128 .f32)), Σ' (LS5 : List (View.Piece (Elt F) S128x128 .f32)), Σ' (LS6 : List (View.Piece (Elt F) S128x128 .f32)), Σ' (LS7 : List (View.Piece (Elt F) S128x128 .f32)), Σ' (LS8 : List (View.Piece (Elt F) S128x128 .f32)), { LS9 : List (View.Piece (Elt F) S128x128 .f32) //
      ∀ (xi : Vec F S10x128 .f32) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4) ∗ (∃ f, arg11.view.loc (c : Thread nD τ) ↦[arg11.view.set]{fullShare} arg11.view.writes (Elt F) f LS5) ∗ (∃ f, arg12.view.loc (c : Thread nD τ) ↦[arg12.view.set]{fullShare} arg12.view.writes (Elt F) f LS6) ∗ (∃ f, arg13.view.loc (c : Thread nD τ) ↦[arg13.view.set]{fullShare} arg13.view.writes (Elt F) f LS7) ∗ (∃ f, arg14.view.loc (c : Thread nD τ) ↦[arg14.view.set]{fullShare} arg14.view.writes (Elt F) f LS8) ∗ (∃ f, arg15.view.loc (c : Thread nD τ) ↦[arg15.view.set]{fullShare} arg15.view.writes (Elt F) f LS9)) -∗ K ⟨⟩))
          ⊢ wp frame (wpE (defs₀ (F := F)) Variants.none c none) E (cc0__moments_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, ?_, fun xi E K => ?run⟩
  case run =>
    simp only [cc0__moments_kernel_eq_skeleton]; unfold cc0__moments_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
    obtain rfl := harg3.eq_unread hf0
    obtain rfl := harg4.eq_unread hf1
    obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.KernelIdeal.Fr

end
-- ==== Proof.KiRunB.lean ====
/-
  The kernel body run at a middle point of a channel tile (the accumulators are added to; nothing is stored into the output block).
  The two input blocks are held at their contents x0, x1 and handed back as they were; each accumulator is held at
  what the point before left (xs0 … xs9) and handed back with this point's stores listed over it; the output block is handed back untouched.
  The lists of stores are found by the run itself.
-/
import proofs.«148899_j15599321219646_2_alg».proof.Proof.KiRunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runB (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i)
    (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    Σ' (LS0 : List (View.Piece (Elt F) S128x128 .f32)), Σ' (LS1 : List (View.Piece (Elt F) S128x128 .f32)), Σ' (LS2 : List (View.Piece (Elt F) S128x128 .f32)), Σ' (LS3 : List (View.Piece (Elt F) S128x128 .f32)), Σ' (LS4 : List (View.Piece (Elt F) S128x128 .f32)), Σ' (LS5 : List (View.Piece (Elt F) S128x128 .f32)), Σ' (LS6 : List (View.Piece (Elt F) S128x128 .f32)), Σ' (LS7 : List (View.Piece (Elt F) S128x128 .f32)), Σ' (LS8 : List (View.Piece (Elt F) S128x128 .f32)), { LS9 : List (View.Piece (Elt F) S128x128 .f32) //
      ∀ (xi : Vec F S10x128 .f32) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs0 ∗ owns (c : Thread nD τ) arg7 fullShare xs1 ∗ owns (c : Thread nD τ) arg8 fullShare xs2 ∗ owns (c : Thread nD τ) arg9 fullShare xs3 ∗ owns (c : Thread nD τ) arg10 fullShare xs4 ∗ owns (c : Thread nD τ) arg11 fullShare xs5 ∗ owns (c : Thread nD τ) arg12 fullShare xs6 ∗ owns (c : Thread nD τ) arg13 fullShare xs7 ∗ owns (c : Thread nD τ) arg14 fullShare xs8 ∗ owns (c : Thread nD τ) arg15 fullShare xs9
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4) ∗ (∃ f, arg11.view.loc (c : Thread nD τ) ↦[arg11.view.set]{fullShare} arg11.view.writes (Elt F) f LS5) ∗ (∃ f, arg12.view.loc (c : Thread nD τ) ↦[arg12.view.set]{fullShare} arg12.view.writes (Elt F) f LS6) ∗ (∃ f, arg13.view.loc (c : Thread nD τ) ↦[arg13.view.set]{fullShare} arg13.view.writes (Elt F) f LS7) ∗ (∃ f, arg14.view.loc (c : Thread nD τ) ↦[arg14.view.set]{fullShare} arg14.view.writes (Elt F) f LS8) ∗ (∃ f, arg15.view.loc (c : Thread nD τ) ↦[arg15.view.set]{fullShare} arg15.view.writes (Elt F) f LS9)) -∗ K ⟨⟩))
          ⊢ wp frame (wpE (defs₀ (F := F)) Variants.none c none) E (cc0__moments_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, ?_, fun xi E K => ?run⟩
  case run =>
    simp only [cc0__moments_kernel_eq_skeleton]; unfold cc0__moments_kernel_skel
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg3.eq_unread hf0
    obtain rfl := harg4.eq_unread hf1
    obtain rfl := harg5.eq_unread hf2
    obtain rfl := harg6.eq_unread hfs0
    obtain rfl := harg7.eq_unread hfs1
    obtain rfl := harg8.eq_unread hfs2
    obtain rfl := harg9.eq_unread hfs3
    obtain rfl := harg10.eq_unread hfs4
    obtain rfl := harg11.eq_unread hfs5
    obtain rfl := harg12.eq_unread hfs6
    obtain rfl := harg13.eq_unread hfs7
    obtain rfl := harg14.eq_unread hfs8
    obtain rfl := harg15.eq_unread hfs9
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.KernelIdeal.Fr

end
-- ==== Proof.KiRunC.lean ====
/-
  The kernel body run at the last point of a channel tile (the accumulators are added to and then reduced along the lanes into the ten rows of the output block).
  The two input blocks are held at their contents x0, x1 and handed back as they were; each accumulator is held at
  what the point before left (xs0 … xs9) and handed back with this point's stores listed over it; the output block is held at anything and handed back with its ten row stores listed.
  The lists of stores are found by the run itself.
-/
import proofs.«148899_j15599321219646_2_alg».proof.Proof.KiRunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def runC (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i)
    (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    Σ' (L : List (View.Piece (Elt F) S10x128 .f32)), Σ' (LS0 : List (View.Piece (Elt F) S128x128 .f32)), Σ' (LS1 : List (View.Piece (Elt F) S128x128 .f32)), Σ' (LS2 : List (View.Piece (Elt F) S128x128 .f32)), Σ' (LS3 : List (View.Piece (Elt F) S128x128 .f32)), Σ' (LS4 : List (View.Piece (Elt F) S128x128 .f32)), Σ' (LS5 : List (View.Piece (Elt F) S128x128 .f32)), Σ' (LS6 : List (View.Piece (Elt F) S128x128 .f32)), Σ' (LS7 : List (View.Piece (Elt F) S128x128 .f32)), Σ' (LS8 : List (View.Piece (Elt F) S128x128 .f32)), { LS9 : List (View.Piece (Elt F) S128x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1 ∗ owns (c : Thread nD τ) arg8 fullShare xs2 ∗ owns (c : Thread nD τ) arg9 fullShare xs3 ∗ owns (c : Thread nD τ) arg10 fullShare xs4 ∗ owns (c : Thread nD τ) arg11 fullShare xs5 ∗ owns (c : Thread nD τ) arg12 fullShare xs6 ∗ owns (c : Thread nD τ) arg13 fullShare xs7 ∗ owns (c : Thread nD τ) arg14 fullShare xs8 ∗ owns (c : Thread nD τ) arg15 fullShare xs9
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2) ∗ (∃ f, arg9.view.loc (c : Thread nD τ) ↦[arg9.view.set]{fullShare} arg9.view.writes (Elt F) f LS3) ∗ (∃ f, arg10.view.loc (c : Thread nD τ) ↦[arg10.view.set]{fullShare} arg10.view.writes (Elt F) f LS4) ∗ (∃ f, arg11.view.loc (c : Thread nD τ) ↦[arg11.view.set]{fullShare} arg11.view.writes (Elt F) f LS5) ∗ (∃ f, arg12.view.loc (c : Thread nD τ) ↦[arg12.view.set]{fullShare} arg12.view.writes (Elt F) f LS6) ∗ (∃ f, arg13.view.loc (c : Thread nD τ) ↦[arg13.view.set]{fullShare} arg13.view.writes (Elt F) f LS7) ∗ (∃ f, arg14.view.loc (c : Thread nD τ) ↦[arg14.view.set]{fullShare} arg14.view.writes (Elt F) f LS8) ∗ (∃ f, arg15.view.loc (c : Thread nD τ) ↦[arg15.view.set]{fullShare} arg15.view.writes (Elt F) f LS9)) -∗ K ⟨⟩))
          ⊢ wp frame (wpE (defs₀ (F := F)) Variants.none c none) E (cc0__moments_kernel i arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, ?_, ?_, fun E K => ?run⟩
  case run =>
    simp only [cc0__moments_kernel_eq_skeleton]; unfold cc0__moments_kernel_skel
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, ⟨%fs9, %hfs9, HS9⟩, Hk⟩
    obtain rfl := harg3.eq_unread hf0
    obtain rfl := harg4.eq_unread hf1
    obtain rfl := harg6.eq_unread hfs0
    obtain rfl := harg7.eq_unread hfs1
    obtain rfl := harg8.eq_unread hfs2
    obtain rfl := harg9.eq_unread hfs3
    obtain rfl := harg10.eq_unread hfs4
    obtain rfl := harg11.eq_unread hfs5
    obtain rfl := harg12.eq_unread hfs6
    obtain rfl := harg13.eq_unread hfs7
    obtain rfl := harg14.eq_unread hfs8
    obtain rfl := harg15.eq_unread hfs9
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9

end Cert.KernelIdeal.Fr

end
-- ==== Proof.KiSt.lean ====
/-
  What each grid point leaves, and the region's invariant.

  After the body at a point the ten accumulators hold: at a channel tile's first point, this point's sums over a
  cleared accumulator; at every later point of the tile, this point's sums added to what the point before left.
  The output block holds the accumulators' lane sums after a tile's last point, and is not looked at before.
  The invariant carries the ten accumulators at those contents from one point to the next.
-/
import proofs.«148899_j15599321219646_2_alg».proof.Proof.KiRunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stores of each case cover their buffers -/

theorem coverA_0 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).1, y ∈ pc.1.set :=
  View.cover_of_tiledL _ S128x128.size (by sl_kernel_rfl) y
theorem coverA_1 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.1, y ∈ pc.1.set :=
  View.cover_of_tiledL _ S128x128.size (by sl_kernel_rfl) y
theorem coverA_2 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.1, y ∈ pc.1.set :=
  View.cover_of_tiledL _ S128x128.size (by sl_kernel_rfl) y
theorem coverA_3 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.1, y ∈ pc.1.set :=
  View.cover_of_tiledL _ S128x128.size (by sl_kernel_rfl) y
theorem coverA_4 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.1, y ∈ pc.1.set :=
  View.cover_of_tiledL _ S128x128.size (by sl_kernel_rfl) y
theorem coverA_5 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.1, y ∈ pc.1.set :=
  View.cover_of_tiledL _ S128x128.size (by sl_kernel_rfl) y
theorem coverA_6 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.2.1, y ∈ pc.1.set :=
  View.cover_of_tiledL _ S128x128.size (by sl_kernel_rfl) y
theorem coverA_7 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.2.2.1, y ∈ pc.1.set :=
  View.cover_of_tiledL _ S128x128.size (by sl_kernel_rfl) y
theorem coverA_8 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.2.2.2.1, y ∈ pc.1.set :=
  View.cover_of_tiledL _ S128x128.size (by sl_kernel_rfl) y
theorem coverA_9 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  (y : S128x128.Idx) :
    ∃ pc ∈ (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.2.2.2.2.1, y ∈ pc.1.set :=
  View.cover_of_tiledL _ S128x128.size (by sl_kernel_rfl) y
theorem coverB_0 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).1, y ∈ pc.1.set :=
  View.cover_of_tiledL _ S128x128.size (by sl_kernel_rfl) y
theorem coverB_1 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.1, y ∈ pc.1.set :=
  View.cover_of_tiledL _ S128x128.size (by sl_kernel_rfl) y
theorem coverB_2 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.1, y ∈ pc.1.set :=
  View.cover_of_tiledL _ S128x128.size (by sl_kernel_rfl) y
theorem coverB_3 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.1, y ∈ pc.1.set :=
  View.cover_of_tiledL _ S128x128.size (by sl_kernel_rfl) y
theorem coverB_4 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.1, y ∈ pc.1.set :=
  View.cover_of_tiledL _ S128x128.size (by sl_kernel_rfl) y
theorem coverB_5 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.1, y ∈ pc.1.set :=
  View.cover_of_tiledL _ S128x128.size (by sl_kernel_rfl) y
theorem coverB_6 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.1, y ∈ pc.1.set :=
  View.cover_of_tiledL _ S128x128.size (by sl_kernel_rfl) y
theorem coverB_7 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.1, y ∈ pc.1.set :=
  View.cover_of_tiledL _ S128x128.size (by sl_kernel_rfl) y
theorem coverB_8 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.1, y ∈ pc.1.set :=
  View.cover_of_tiledL _ S128x128.size (by sl_kernel_rfl) y
theorem coverB_9 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.2.1, y ∈ pc.1.set :=
  View.cover_of_tiledL _ S128x128.size (by sl_kernel_rfl) y
theorem coverC_0 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.1, y ∈ pc.1.set :=
  View.cover_of_tiledL _ S128x128.size (by sl_kernel_rfl) y
theorem coverC_1 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.1, y ∈ pc.1.set :=
  View.cover_of_tiledL _ S128x128.size (by sl_kernel_rfl) y
theorem coverC_2 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.1, y ∈ pc.1.set :=
  View.cover_of_tiledL _ S128x128.size (by sl_kernel_rfl) y
theorem coverC_3 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.1, y ∈ pc.1.set :=
  View.cover_of_tiledL _ S128x128.size (by sl_kernel_rfl) y
theorem coverC_4 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.1, y ∈ pc.1.set :=
  View.cover_of_tiledL _ S128x128.size (by sl_kernel_rfl) y
theorem coverC_5 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.1, y ∈ pc.1.set :=
  View.cover_of_tiledL _ S128x128.size (by sl_kernel_rfl) y
theorem coverC_6 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.1, y ∈ pc.1.set :=
  View.cover_of_tiledL _ S128x128.size (by sl_kernel_rfl) y
theorem coverC_7 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.1, y ∈ pc.1.set :=
  View.cover_of_tiledL _ S128x128.size (by sl_kernel_rfl) y
theorem coverC_8 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.2.1, y ∈ pc.1.set :=
  View.cover_of_tiledL _ S128x128.size (by sl_kernel_rfl) y
theorem coverC_9 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S128x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.2.2.1, y ∈ pc.1.set :=
  View.cover_of_tiledL _ S128x128.size (by sl_kernel_rfl) y
/-- The ten row stores of a tile's last point tile the 10 x 128 output block. -/
theorem coverC_o (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) (y : S10x128.Idx) :
    ∃ pc ∈ (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).1, y ∈ pc.1.set :=
  View.cover_of_tiledL (s := S10x128) _ ![1, 128] (by sl_kernel_rfl) y

/-! ## What a point leaves -/

/-- The output block and the ten accumulators after a point. -/
structure St (F : FTy → Type) where
  o : Vec F S10x128 .f32
  s0 : Vec F S128x128 .f32
  s1 : Vec F S128x128 .f32
  s2 : Vec F S128x128 .f32
  s3 : Vec F S128x128 .f32
  s4 : Vec F S128x128 .f32
  s5 : Vec F S128x128 .f32
  s6 : Vec F S128x128 .f32
  s7 : Vec F S128x128 .f32
  s8 : Vec F S128x128 .f32
  s9 : Vec F S128x128 .f32

/-- A tile's first point: the case's stores read back; the output block is a placeholder nothing consults. -/
def stA (c : Dev nD) (t : Fin cfg0.N) (h0 : t.val % 16 = 0) (h1 : ¬t.val % 16 = 15)  : St F :=
  { o := VO.read (Elt F) (VO.writes (Elt F) VO.junk [])
    s0 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).1)
    s1 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.1)
    s2 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.1)
    s3 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.1)
    s4 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.2.1)
    s5 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.2.2.1)
    s6 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.2.2.2.1)
    s7 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.2.2.2.2.1)
    s8 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.2.2.2.2.2.1)
    s9 := VS.read (Elt F) (VS.writes (Elt F) VS.junk (runA (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)).2.2.2.2.2.2.2.2.2.1) }
/-- A middle point, over what the point before left (`p`). -/
def stB (c : Dev nD) (t : Fin cfg0.N) (h0 : ¬t.val % 16 = 0) (h1 : ¬t.val % 16 = 15) (p : St F) : St F :=
  { o := VO.read (Elt F) (VO.writes (Elt F) VO.junk [])
    s0 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).1)
    s1 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.1)
    s2 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.1)
    s3 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.1)
    s4 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.2.1)
    s5 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.2.2.1)
    s6 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.2.2.2.1)
    s7 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.2.2.2.2.1)
    s8 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.2.2.2.2.2.1)
    s9 := VS.read (Elt F) (VS.writes (Elt F) VS.junk (runB (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9).2.2.2.2.2.2.2.2.2.1) }
/-- A tile's last point, over what the point before left. -/
def stC (c : Dev nD) (t : Fin cfg0.N) (h0 : ¬t.val % 16 = 0) (h1 : t.val % 16 = 15) (p : St F) : St F :=
  { o := VO.read (Elt F) (VO.writes (Elt F) VO.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).1)
    s0 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.1)
    s1 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.1)
    s2 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.1)
    s3 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.1)
    s4 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.2.1)
    s5 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.2.2.1)
    s6 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.2.2.2.1)
    s7 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.2.2.2.2.1)
    s8 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.2.2.2.2.2.1)
    s9 := VS.read (Elt F) (VS.writes (Elt F) VS.junk (runC (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9).2.2.2.2.2.2.2.2.2.2.1) }

/-- Point by point: the case the position within the tile selects. -/
def outsAt (c : Dev nD) : (n : ℕ) → n < cfg0.N → St F
  | 0, hn => stA m c ⟨0, hn⟩ (Nat.zero_mod _) (fun h => absurd (show (0 : ℕ) % 16 = 15 from h) (by decide : ¬(0 : ℕ) % 16 = 15))
  | n + 1, hn =>
    if h0 : (n + 1) % 16 = 0 then
      if h1 : (n + 1) % 16 = 15 then
        False.elim (by omega)
      else stA m c ⟨n + 1, hn⟩ h0 h1
    else
      if h1 : (n + 1) % 16 = 15 then stC m c ⟨n + 1, hn⟩ h0 h1 (outsAt c n (Nat.lt_of_succ_lt hn))
      else stB m c ⟨n + 1, hn⟩ h0 h1 (outsAt c n (Nat.lt_of_succ_lt hn))

theorem outsAt_A (c : Dev nD) (t : Fin cfg0.N) (h0 : t.val % 16 = 0) (h1 : ¬t.val % 16 = 15) :
    outsAt m c t.val t.isLt = stA m c t h0 h1 := by
  obtain ⟨n, hn⟩ := t
  cases n with
  | zero => exact rfl
  | succ n => exact (dif_pos h0).trans ((dif_neg h1).trans rfl)

theorem outsAt_B (c : Dev nD) (t : Fin cfg0.N) (h0 : ¬t.val % 16 = 0) (h1 : ¬t.val % 16 = 15) :
    outsAt m c t.val t.isLt = stB m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 16 = 0) (h1 : t.val % 16 = 15) :
    outsAt m c t.val t.isLt = stC m c t h0 h1 (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulators carried from point to point -/

/-- The ten accumulators owned at the contents `p`, and the generator register at some state. -/
def accAt (c : Dev nD) (p : St F) : sProp 𝕄 :=
  iprop(iprop(owns (c : Thread nD τ) sc0 fullShare (p).s0 ∗ owns (c : Thread nD τ) sc1 fullShare (p).s1 ∗ owns (c : Thread nD τ) sc2 fullShare (p).s2 ∗ owns (c : Thread nD τ) sc3 fullShare (p).s3 ∗ owns (c : Thread nD τ) sc4 fullShare (p).s4 ∗ owns (c : Thread nD τ) sc5 fullShare (p).s5 ∗ owns (c : Thread nD τ) sc6 fullShare (p).s6 ∗ owns (c : Thread nD τ) sc7 fullShare (p).s7 ∗ owns (c : Thread nD τ) sc8 fullShare (p).s8 ∗ owns (c : Thread nD τ) sc9 fullShare (p).s9) ∗ (∃ r, prngReg c r))

def PhiS (c : Dev nD) : (n : ℕ) → n ≤ cfg0.N → sProp 𝕄
  | 0, _ => Pipeline.ΦA spec0 c
  | n + 1, hn => accAt c (outsAt m c n hn)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = accAt c (outsAt m c n hn) := rfl

theorem PhiS_pos (c : Dev nD) (n : ℕ) (h : n ≤ cfg0.N) (hz : n ≠ 0) :
    PhiS m c n h = accAt c (outsAt m c (n - 1) (by omega)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).o
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).o := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

end Cert.KernelIdeal.Fr

end
-- ==== Proof.KiBodyA.lean ====
/-
  The body obligation at a channel tile's first point (the accumulators taken at anything): from the accumulators, the two
  input blocks and the output's buffer, the body runs and hands back the accumulators at this point's contents,
  the input blocks as they were, and the output's buffer untouched.
-/
import proofs.«148899_j15599321219646_2_alg».proof.Proof.KiSt

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem bodyA (c : Dev nD) (t : Fin cfg0.N) (h0 : t.val % 16 = 0) (h1 : ¬t.val % 16 = 15)  (O : sProp 𝕄)
    {D0 D1 D2 : Type} (B : D2 → Vec F S10x128 .f32) :
    iprop(iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) ∗ O
        ∗ (∃ _d : D0, owns (c : Thread nD τ) (ms0 t) fullShare (iblk m c 0 t))
        ∗ (∃ _d : D1, owns (c : Thread nD τ) (ms1 t) fullShare (iblk m c 1 t))
        ∗ (∃ d : D2, owns (c : Thread nD τ) (ms2 t) fullShare (B d)))
      ⊢ wp frame (wpE (defs₀ (F := F)) Variants.none c none) Set.univ (bodyAt0 t) (fun _ =>
          iprop(accAt c (stA m c t h0 h1) ∗ O
            ∗ owns (c : Thread nD τ) (ms0 t) fullShare (iblk m c 0 t)
            ∗ owns (c : Thread nD τ) (ms1 t) fullShare (iblk m c 1 t)
            ∗ (∃ d : D2, owns (c : Thread nD τ) (ms2 t) fullShare (B d)))) := by
  unfold bodyAt0 accAt
  iintro ⟨⟨⟨HS0, HS1, HS2, HS3, HS4, HS5, HS6, HS7, HS8, HS9⟩, Hg⟩, Ho, ⟨%d0, H0⟩, ⟨%d1, H1⟩, ⟨%d2, H2⟩⟩
  iapply ((runA (F := F) c (grid0.coords t) _ _ _ _ _ _ _ _ _ _ _ _ _ _ _ _ _ _ _ _ _ _ _ _ _ _ ((isFirst_iff t).mpr h0) (fun h => h1 ((isLast_iff t).mp h)) (iblk m c 0 t) (iblk m c 1 t)).2.2.2.2.2.2.2.2.2.2 _ Set.univ _)
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
  isplitl [HS0 HS1 HS2 HS3 HS4 HS5 HS6 HS7 HS8 HS9 Hg]
  · isplitl [HS0 HS1 HS2 HS3 HS4 HS5 HS6 HS7 HS8 HS9]
    ·
      isplitl [HS0]
      · unfold owns; iexists _; isplitr
        swap; · iexact HS0
        ipureintro; show _ = VS.read (Elt F) (VS.writes (Elt F) VS.junk _); exact View.read_writes_of_cover _ _ _ _ _ (coverA_0 (F := F) c _ _ _ _ _ _ _ _ _ _ _ _ _ _ _ _ _ _ _ _ _ _ _ _ _ _ _ _ _ _ _)
      isplitl [HS1]
      · unfold owns; iexists _; isplitr
        swap; · iexact HS1
        ipureintro; show _ = VS.read (Elt F) (VS.writes (Elt F) VS.junk _); exact View.read_writes_of_cover _ _ _ _ _ (coverA_1 (F := F) c _ _ _ _ _ _ _ _ _ _ _ _ _ _ _ _ _ _ _ _ _ _ _ _ _ _ _ _ _ _ _)
      isplitl [HS2]
      · unfold owns; iexists _; isplitr
        swap; · iexact HS2
        ipureintro; show _ = VS.read (Elt F) (VS.writes (Elt F) VS.junk _); exact View.read_writes_of_cover _ _ _ _ _ (coverA_2 (F := F) c _ _ _ _ _ _ _ _ _ _ _ _ _ _ _ _ _ _ _ _ _ _ _ _ _ _ _ _ _ _ _)
      isplitl [HS3]
      · unfold owns; iexists _; isplitr
        swap; · iexact HS3
        ipureintro; show _ = VS.read (Elt F) (VS.writes (Elt F) VS.junk _); exact View.read_writes_of_cover _ _ _ _ _ (coverA_3 (F := F) c _ _ _ _ _ _ _ _ _ _ _ _ _ _ _ _ _ _ _ _ _ _ _ _ _ _ _ _ _ _ _)
      isplitl [HS4]
      · unfold owns; iexists _; isplitr
        swap; · iexact HS4
        ipureintro; show _ = VS.read (Elt F) (VS.writes (Elt F) VS.junk _); exact View.read_writes_of_cover _ _ _ _ _ (coverA_4 (F := F) c _ _ _ _ _ _ _ _ _ _ _ _ _ _ _ _ _ _ _ _ _ _ _ _ _ _ _ _ _ _ _)
      isplitl [HS5]
      · unfold owns; iexists _; isplitr
        swap; · iexact HS5
        ipureintro; show _ = VS.read (Elt F) (VS.writes (Elt F) VS.junk _); exact View.read_writes_of_cover _ _ _ _ _ (coverA_5 (F := F) c _ _ _ _ _ _ _ _ _ _ _ _ _ _ _ _ _ _ _ _ _ _ _ _ _ _ _ _ _ _ _)
      isplitl [HS6]
      · unfold owns; iexists _; isplitr
        swap; · iexact HS6
        ipureintro; show _ = VS.read (Elt F) (VS.writes (Elt F) VS.junk _); exact View.read_writes_of_cover _ _ _ _ _ (coverA_6 (F := F) c _ _ _ _ _ _ _ _ _ _ _ _ _ _ _ _ _ _ _ _ _ _ _ _ _ _ _ _ _ _ _)
      isplitl [HS7]
      · unfold owns; iexists _; isplitr
        swap; · iexact HS7
        ipureintro; show _ = VS.read (Elt F) (VS.writes (Elt F) VS.junk _); exact View.read_writes_of_cover _ _ _ _ _ (coverA_7 (F := F) c _ _ _ _ _ _ _ _ _ _ _ _ _ _ _ _ _ _ _ _ _ _ _ _ _ _ _ _ _ _ _)
      isplitl [HS8]
      · unfold owns; iexists _; isplitr
        swap; · iexact HS8
        ipureintro; show _ = VS.read (Elt F) (VS.writes (Elt F) VS.junk _); exact View.read_writes_of_cover _ _ _ _ _ (coverA_8 (F := F) c _ _ _ _ _ _ _ _ _ _ _ _ _ _ _ _ _ _ _ _ _ _ _ _ _ _ _ _ _ _ _)
      unfold owns; iexists _; isplitr
      swap; · iexact HS9
      ipureintro; show _ = VS.read (Elt F) (VS.writes (Elt F) VS.junk _); exact View.read_writes_of_cover _ _ _ _ _ (coverA_9 (F := F) c _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  iexists _; iexact H2

end Cert.KernelIdeal.Fr

end
-- ==== Proof.KiBodyB.lean ====
/-
  The body obligation at a middle point of a channel tile: from the accumulators at what the point before left, the two
  input blocks and the output's buffer, the body runs and hands back the accumulators at this point's contents,
  the input blocks as they were, and the output's buffer untouched.
-/
import proofs.«148899_j15599321219646_2_alg».proof.Proof.KiSt

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem bodyB (c : Dev nD) (t : Fin cfg0.N) (h0 : ¬t.val % 16 = 0) (h1 : ¬t.val % 16 = 15) (p : St F) (O : sProp 𝕄)
    {D0 D1 D2 : Type} (B : D2 → Vec F S10x128 .f32) :
    iprop(accAt c p ∗ O
        ∗ (∃ _d : D0, owns (c : Thread nD τ) (ms0 t) fullShare (iblk m c 0 t))
        ∗ (∃ _d : D1, owns (c : Thread nD τ) (ms1 t) fullShare (iblk m c 1 t))
        ∗ (∃ d : D2, owns (c : Thread nD τ) (ms2 t) fullShare (B d)))
      ⊢ wp frame (wpE (defs₀ (F := F)) Variants.none c none) Set.univ (bodyAt0 t) (fun _ =>
          iprop(accAt c (stB m c t h0 h1 p) ∗ O
            ∗ owns (c : Thread nD τ) (ms0 t) fullShare (iblk m c 0 t)
            ∗ owns (c : Thread nD τ) (ms1 t) fullShare (iblk m c 1 t)
            ∗ (∃ d : D2, owns (c : Thread nD τ) (ms2 t) fullShare (B d)))) := by
  unfold bodyAt0 accAt
  iintro ⟨⟨⟨HS0, HS1, HS2, HS3, HS4, HS5, HS6, HS7, HS8, HS9⟩, Hg⟩, Ho, ⟨%d0, H0⟩, ⟨%d1, H1⟩, ⟨%d2, H2⟩⟩
  iapply ((runB (F := F) c (grid0.coords t) _ _ _ _ _ _ _ _ _ _ _ _ _ _ _ _ _ _ _ _ _ _ _ _ _ _ (fun h => h0 ((isFirst_iff t).mp h)) (fun h => h1 ((isLast_iff t).mp h)) (iblk m c 0 t) (iblk m c 1 t) _ _ _ _ _ _ _ _ _ _).2.2.2.2.2.2.2.2.2.2 _ Set.univ _)
  isplitl [H0]; · iexact H0
  isplitl [H1]; · iexact H1
  isplitl [H2]; · iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
  isplitl [HS0 HS1 HS2 HS3 HS4 HS5 HS6 HS7 HS8 HS9 Hg]
  · isplitl [HS0 HS1 HS2 HS3 HS4 HS5 HS6 HS7 HS8 HS9]
    ·
      isplitl [HS0]
      · unfold owns; iexists _; isplitr
        swap; · iexact HS0
        ipureintro; show _ = VS.read (Elt F) (VS.writes (Elt F) VS.junk _); exact View.read_writes_of_cover _ _ _ _ _ (coverB_0 (F := F) c _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; show _ = VS.read (Elt F) (VS.writes (Elt F) VS.junk _); exact View.read_writes_of_cover _ _ _ _ _ (coverB_1 (F := F) c _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; show _ = VS.read (Elt F) (VS.writes (Elt F) VS.junk _); exact View.read_writes_of_cover _ _ _ _ _ (coverB_2 (F := F) c _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; show _ = VS.read (Elt F) (VS.writes (Elt F) VS.junk _); exact View.read_writes_of_cover _ _ _ _ _ (coverB_3 (F := F) c _ _ _ _ _ _ _ _ _ _ _ _ _ _ _ _ _ _ _ _ _ _ _ _ _ _ _ _ _ _ _ _ _ _ _ _ _ _ _ _ _)
      isplitl [HS4]
      · unfold owns; iexists _; isplitr
        swap; · iexact HS4
        ipureintro; show _ = VS.read (Elt F) (VS.writes (Elt F) VS.junk _); exact View.read_writes_of_cover _ _ _ _ _ (coverB_4 (F := F) c _ _ _ _ _ _ _ _ _ _ _ _ _ _ _ _ _ _ _ _ _ _ _ _ _ _ _ _ _ _ _ _ _ _ _ _ _ _ _ _ _)
      isplitl [HS5]
      · unfold owns; iexists _; isplitr
        swap; · iexact HS5
        ipureintro; show _ = VS.read (Elt F) (VS.writes (Elt F) VS.junk _); exact View.read_writes_of_cover _ _ _ _ _ (coverB_5 (F := F) c _ _ _ _ _ _ _ _ _ _ _ _ _ _ _ _ _ _ _ _ _ _ _ _ _ _ _ _ _ _ _ _ _ _ _ _ _ _ _ _ _)
      isplitl [HS6]
      · unfold owns; iexists _; isplitr
        swap; · iexact HS6
        ipureintro; show _ = VS.read (Elt F) (VS.writes (Elt F) VS.junk _); exact View.read_writes_of_cover _ _ _ _ _ (coverB_6 (F := F) c _ _ _ _ _ _ _ _ _ _ _ _ _ _ _ _ _ _ _ _ _ _ _ _ _ _ _ _ _ _ _ _ _ _ _ _ _ _ _ _ _)
      isplitl [HS7]
      · unfold owns; iexists _; isplitr
        swap; · iexact HS7
        ipureintro; show _ = VS.read (Elt F) (VS.writes (Elt F) VS.junk _); exact View.read_writes_of_cover _ _ _ _ _ (coverB_7 (F := F) c _ _ _ _ _ _ _ _ _ _ _ _ _ _ _ _ _ _ _ _ _ _ _ _ _ _ _ _ _ _ _ _ _ _ _ _ _ _ _ _ _)
      isplitl [HS8]
      · unfold owns; iexists _; isplitr
        swap; · iexact HS8
        ipureintro; show _ = VS.read (Elt F) (VS.writes (Elt F) VS.junk _); exact View.read_writes_of_cover _ _ _ _ _ (coverB_8 (F := F) c _ _ _ _ _ _ _ _ _ _ _ _ _ _ _ _ _ _ _ _ _ _ _ _ _ _ _ _ _ _ _ _ _ _ _ _ _ _ _ _ _)
      unfold owns; iexists _; isplitr
      swap; · iexact HS9
      ipureintro; show _ = VS.read (Elt F) (VS.writes (Elt F) VS.junk _); exact View.read_writes_of_cover _ _ _ _ _ (coverB_9 (F := F) c _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  iexists _; iexact H2

end Cert.KernelIdeal.Fr

end
-- ==== Proof.KiBodyC.lean ====
/-
  The body obligation at a channel tile's last point: from the accumulators at what the point before left, the two
  input blocks and the output's buffer, the body runs and hands back the accumulators at this point's contents,
  the input blocks as they were, and the output's buffer at the ten lane sums.
-/
import proofs.«148899_j15599321219646_2_alg».proof.Proof.KiSt

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
theorem bodyC (c : Dev nD) (t : Fin cfg0.N) (h0 : ¬t.val % 16 = 0) (h1 : t.val % 16 = 15) (p : St F) (O : sProp 𝕄)
    {D0 D1 D2 : Type} (B : D2 → Vec F S10x128 .f32) :
    iprop(accAt c p ∗ O
        ∗ (∃ _d : D0, owns (c : Thread nD τ) (ms0 t) fullShare (iblk m c 0 t))
        ∗ (∃ _d : D1, owns (c : Thread nD τ) (ms1 t) fullShare (iblk m c 1 t))
        ∗ (∃ d : D2, owns (c : Thread nD τ) (ms2 t) fullShare (B d)))
      ⊢ wp frame (wpE (defs₀ (F := F)) Variants.none c none) Set.univ (bodyAt0 t) (fun _ =>
          iprop(accAt c (stC m c t h0 h1 p) ∗ O
            ∗ owns (c : Thread nD τ) (ms0 t) fullShare (iblk m c 0 t)
            ∗ owns (c : Thread nD τ) (ms1 t) fullShare (iblk m c 1 t)
            ∗ owns (c : Thread nD τ) (ms2 t) fullShare (stC m c t h0 h1 p).o)) := by
  unfold bodyAt0 accAt
  iintro ⟨⟨⟨HS0, HS1, HS2, HS3, HS4, HS5, HS6, HS7, HS8, HS9⟩, Hg⟩, Ho, ⟨%d0, H0⟩, ⟨%d1, H1⟩, ⟨%d2, H2⟩⟩
  iapply ((runC (F := F) c (grid0.coords t) _ _ _ _ _ _ _ _ _ _ _ _ _ _ _ _ _ _ _ _ _ _ _ _ _ _ (fun h => h0 ((isFirst_iff t).mp h)) ((isLast_iff t).mpr h1) (iblk m c 0 t) (iblk m c 1 t) _ _ _ _ _ _ _ _ _ _).2.2.2.2.2.2.2.2.2.2.2 Set.univ _)
  isplitl [H0]; · iexact H0
  isplitl [H1]; · iexact H1
  isplitl [H2]; · iexists _; iexact H2
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, ⟨%e2, H2⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩⟩
  isplitl [HS0 HS1 HS2 HS3 HS4 HS5 HS6 HS7 HS8 HS9 Hg]
  · isplitl [HS0 HS1 HS2 HS3 HS4 HS5 HS6 HS7 HS8 HS9]
    ·
      isplitl [HS0]
      · unfold owns; iexists _; isplitr
        swap; · iexact HS0
        ipureintro; show _ = VS.read (Elt F) (VS.writes (Elt F) VS.junk _); exact View.read_writes_of_cover _ _ _ _ _ (coverC_0 (F := F) c _ _ _ _ _ _ _ _ _ _ _ _ _ _ _ _ _ _ _ _ _ _ _ _ _ _ _ _ _ _ _ _ _ _ _ _ _ _ _ _ _)
      isplitl [HS1]
      · unfold owns; iexists _; isplitr
        swap; · iexact HS1
        ipureintro; show _ = VS.read (Elt F) (VS.writes (Elt F) VS.junk _); exact View.read_writes_of_cover _ _ _ _ _ (coverC_1 (F := F) c _ _ _ _ _ _ _ _ _ _ _ _ _ _ _ _ _ _ _ _ _ _ _ _ _ _ _ _ _ _ _ _ _ _ _ _ _ _ _ _ _)
      isplitl [HS2]
      · unfold owns; iexists _; isplitr
        swap; · iexact HS2
        ipureintro; show _ = VS.read (Elt F) (VS.writes (Elt F) VS.junk _); exact View.read_writes_of_cover _ _ _ _ _ (coverC_2 (F := F) c _ _ _ _ _ _ _ _ _ _ _ _ _ _ _ _ _ _ _ _ _ _ _ _ _ _ _ _ _ _ _ _ _ _ _ _ _ _ _ _ _)
      isplitl [HS3]
      · unfold owns; iexists _; isplitr
        swap; · iexact HS3
        ipureintro; show _ = VS.read (Elt F) (VS.writes (Elt F) VS.junk _); exact View.read_writes_of_cover _ _ _ _ _ (coverC_3 (F := F) c _ _ _ _ _ _ _ _ _ _ _ _ _ _ _ _ _ _ _ _ _ _ _ _ _ _ _ _ _ _ _ _ _ _ _ _ _ _ _ _ _)
      isplitl [HS4]
      · unfold owns; iexists _; isplitr
        swap; · iexact HS4
        ipureintro; show _ = VS.read (Elt F) (VS.writes (Elt F) VS.junk _); exact View.read_writes_of_cover _ _ _ _ _ (coverC_4 (F := F) c _ _ _ _ _ _ _ _ _ _ _ _ _ _ _ _ _ _ _ _ _ _ _ _ _ _ _ _ _ _ _ _ _ _ _ _ _ _ _ _ _)
      isplitl [HS5]
      · unfold owns; iexists _; isplitr
        swap; · iexact HS5
        ipureintro; show _ = VS.read (Elt F) (VS.writes (Elt F) VS.junk _); exact View.read_writes_of_cover _ _ _ _ _ (coverC_5 (F := F) c _ _ _ _ _ _ _ _ _ _ _ _ _ _ _ _ _ _ _ _ _ _ _ _ _ _ _ _ _ _ _ _ _ _ _ _ _ _ _ _ _)
      isplitl [HS6]
      · unfold owns; iexists _; isplitr
        swap; · iexact HS6
        ipureintro; show _ = VS.read (Elt F) (VS.writes (Elt F) VS.junk _); exact View.read_writes_of_cover _ _ _ _ _ (coverC_6 (F := F) c _ _ _ _ _ _ _ _ _ _ _ _ _ _ _ _ _ _ _ _ _ _ _ _ _ _ _ _ _ _ _ _ _ _ _ _ _ _ _ _ _)
      isplitl [HS7]
      · unfold owns; iexists _; isplitr
        swap; · iexact HS7
        ipureintro; show _ = VS.read (Elt F) (VS.writes (Elt F) VS.junk _); exact View.read_writes_of_cover _ _ _ _ _ (coverC_7 (F := F) c _ _ _ _ _ _ _ _ _ _ _ _ _ _ _ _ _ _ _ _ _ _ _ _ _ _ _ _ _ _ _ _ _ _ _ _ _ _ _ _ _)
      isplitl [HS8]
      · unfold owns; iexists _; isplitr
        swap; · iexact HS8
        ipureintro; show _ = VS.read (Elt F) (VS.writes (Elt F) VS.junk _); exact View.read_writes_of_cover _ _ _ _ _ (coverC_8 (F := F) c _ _ _ _ _ _ _ _ _ _ _ _ _ _ _ _ _ _ _ _ _ _ _ _ _ _ _ _ _ _ _ _ _ _ _ _ _ _ _ _ _)
      unfold owns; iexists _; isplitr
      swap; · iexact HS9
      ipureintro; show _ = VS.read (Elt F) (VS.writes (Elt F) VS.junk _); exact View.read_writes_of_cover _ _ _ _ _ (coverC_9 (F := F) c _ _ _ _ _ _ _ _ _ _ _ _ _ _ _ _ _ _ _ _ _ _ _ _ _ _ _ _ _ _ _ _ _ _ _ _ _ _ _ _ _)
    iexact Hg
  isplitl [Ho]; · iexact Ho
  isplitl [H0]; · iexact H0
  isplitl [H1]; · iexact H1
  unfold owns; iexists _; isplitr
  swap; · iexact H2
  ipureintro; show _ = VO.read (Elt F) (VO.writes (Elt F) VO.junk _); exact View.read_writes_of_cover _ _ _ _ _ (coverC_o (F := F) c _ _ _ _ _ _ _ _ _ _ _ _ _ _ _ _ _ _ _ _ _ _ _ _ _ _ _ _ _ _ _ _ _ _ _ _ _ _ _ _ _)

end Cert.KernelIdeal.Fr

end
-- ==== Proof.KiFrame.lean ====
/-
  The body obligation at every point, and the run of @main.

  The position of a point within its channel tile says which of the three cases applies; each case's lemma is
  applied to the invariant as the point finds it. The launch theorem then gives the run of @main: the region,
  then the 387 host lines read over the arrays the region leaves; in particular the two arguments end as they
  started.
-/
import proofs.«148899_j15599321219646_2_alg».proof.Proof.KiBodyA
import proofs.«148899_j15599321219646_2_alg».proof.Proof.KiBodyB
import proofs.«148899_j15599321219646_2_alg».proof.Proof.KiBodyC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Accumulators owned at named contents are, in particular, owned at some contents. -/
theorem accAt_any (c : Dev nD) (p : St F) :
    accAt c p ⊢ (iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d)) ∗ (∃ r, prngReg c r)) : sProp 𝕄) := by
  unfold accAt
  iintro ⟨⟨HS0, HS1, HS2, HS3, HS4, HS5, HS6, HS7, HS8, HS9⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    iexists _; iexact HS9
  iexact Hg

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 16 = 0
  · have h1 : ¬t.val % 16 = 15 := by omega
    rw [show (dats m 0 c).leavesExact 0 t = owns (c : Thread nD τ) (ms0 t) fullShare ((dats m 0 c).after 0 t) from by
      unfold Dat.leavesExact; rw [live0 t], after0]
    rw [show (dats m 0 c).leavesExact 1 t = owns (c : Thread nD τ) (ms1 t) fullShare ((dats m 0 c).after 1 t) from by
      unfold Dat.leavesExact; rw [live1 t], after1]
    rw [Dat.leavesExact_idle (dats m 0 c) 2 t (idle2 t (fun h => h1 ((isLast_iff t).mp h))) (noFlush2 t (fun h => h1 ((isLast_iff t).mp h)))]
    rw [outsAt_A m c t h0 h1]
    by_cases hz : t.val = 0
    · rw [PhiS_castSucc m c t, PhiS_zero m c _ _ hz, PhiA_eq]
      exact bodyA m c t h0 h1 _ _
    · rw [PhiS_castSucc m c t, PhiS_pos m c _ _ hz]
      iintro ⟨HΦ, Ho, H0, H1, H2⟩
      iapply (bodyA m c t h0 h1 _ _)
      isplitl [HΦ]; · iapply (accAt_any c _); iexact HΦ
      isplitl [Ho]; · iexact Ho
      isplitl [H0]; · iexact H0
      isplitl [H1]; · iexact H1
      iexact H2
  · have hz : t.val ≠ 0 := fun h => h0 (by rw [h])
    by_cases h1 : t.val % 16 = 15
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [show (dats m 0 c).leavesExact 2 t = owns (c : Thread nD τ) (ms2 t) fullShare ((dats m 0 c).after 2 t) from by
        unfold Dat.leavesExact; rw [live2 t ((isLast_iff t).mpr h1)], after2]
      rw [outsAt_C m c t h0 h1, PhiS_castSucc m c t, PhiS_pos m c _ _ hz]
      exact bodyC m c t h0 h1 _ _ _
    ·
      rw [show (dats m 0 c).leavesExact 0 t = owns (c : Thread nD τ) (ms0 t) fullShare ((dats m 0 c).after 0 t) from by
        unfold Dat.leavesExact; rw [live0 t], after0]
      rw [show (dats m 0 c).leavesExact 1 t = owns (c : Thread nD τ) (ms1 t) fullShare ((dats m 0 c).after 1 t) from by
        unfold Dat.leavesExact; rw [live1 t], after1]
      rw [Dat.leavesExact_idle (dats m 0 c) 2 t (idle2 t (fun h => h1 ((isLast_iff t).mp h))) (noFlush2 t (fun h => h1 ((isLast_iff t).mp h)))]
      rw [outsAt_B m c t h0 h1, PhiS_castSucc m c t, PhiS_pos m c _ _ hz]
      exact bodyB m c t h0 h1 _ _ _

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  exact accAt_any c _

theorem hout (c : Dev nD) : (dats m 0 c).Φ (Fin.last cfg0.N) ⊢ Pipeline.ΦA spec0 c :=
  Phi_out m c _ (by rw [Fin.val_last]; have : cfg0.N = 32 := N_0; omega)

/-! ## The run of @main -/

set_option backward.isDefEq.respectTransparency.types false in
set_option maxRecDepth 200000 in
set_option maxHeartbeats 40000000 in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The two argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.Fr

end
-- ==== Proof.KiVal.lean ====
/-
  What the three runs leave, as values.

  Write b for an input block with its unit axis dropped (128 channels x 64 rows x 128 lanes). Each accumulator
  gains the block's sum over its 64 rows of one power of b — b, b*b, (b*b)*b, … up to the fifth, the powers
  left-nested as the body forms them — added to what it held (to the cleared accumulator at a channel tile's
  first point). After a tile's last point the output block's row r is the lane sum of accumulator r.
-/
import proofs.«148899_j15599321219646_2_alg».proof.Proof.KiSt
import Idealize.ShloMosaic.Lib.Pipeline.Value
import Idealize.ShloMosaic.Lib.ValueIdx
import Idealize.ShloMosaic.Lib.ValueLayout

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- An input block with its leading unit axis dropped. -/
def blk3 (z : Vec F S1x128x64x128 .f32) : FVec F S128x64x128 .f32 :=
  shapeCast S128x64x128 z shapeCasts_S1x128x64x128_S128x64x128
/-- The sum over the 64 rows. -/
def rowSum (p : FVec F S128x64x128 .f32) : FVec F S128x128 .f32 :=
  multiReduction .add [1] S128x128 p 0x00000000#32 reduces_S128x64x128_S128x128 (.inl rfl) rfl
/-- The sum along the 128 lanes. -/
def laneSum (a : Vec F S128x128 .f32) : FVec F S128 .f32 :=
  multiReduction .add [1] S128 a 0x00000000#32 reduces_S128x128_S128 (.inl rfl) rfl
/-- The cleared accumulator. -/
def zero128 : FVec F S128x128 .f32 := broadcast S128x128 (Scalar.ofBits .f32 0x00000000#32)
/-- The ten rows of the output block, from the ten lane-sum vectors. -/
def rowsOf (n : Fin 10 → FVec F S128 .f32) : Vec F S10x128 .f32 := fun y => n (y 0) (ValueIdx.ix1 (y 1))

/-! ## A tile's first point -/

theorem pieceA_0 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  :
    VS.read (Elt F) (VS.writes (Elt F) VS.junk (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).1) = addf zero128 (rowSum (blk3 x0)) := by
  rw [View.read_writes_junk_eq_canon]
  unfold runA
  dsimp only
  sl_unfold_words
  rw [View.canon_cons_unit_zero (S := S128x128) hz2, View.readCov_unit_zero (S := S128x128) _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceA_1 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  :
    VS.read (Elt F) (VS.writes (Elt F) VS.junk (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.1) = addf zero128 (rowSum (mulf (blk3 x0) (blk3 x0))) := by
  rw [View.read_writes_junk_eq_canon]
  unfold runA
  dsimp only
  sl_unfold_words
  rw [View.canon_cons_unit_zero (S := S128x128) hz2, View.readCov_unit_zero (S := S128x128) _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceA_2 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  :
    VS.read (Elt F) (VS.writes (Elt F) VS.junk (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.1) = addf zero128 (rowSum (mulf (mulf (blk3 x0) (blk3 x0)) (blk3 x0))) := by
  rw [View.read_writes_junk_eq_canon]
  unfold runA
  dsimp only
  sl_unfold_words
  rw [View.canon_cons_unit_zero (S := S128x128) hz2, View.readCov_unit_zero (S := S128x128) _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceA_3 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  :
    VS.read (Elt F) (VS.writes (Elt F) VS.junk (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.1) = addf zero128 (rowSum (mulf (mulf (mulf (blk3 x0) (blk3 x0)) (blk3 x0)) (blk3 x0))) := by
  rw [View.read_writes_junk_eq_canon]
  unfold runA
  dsimp only
  sl_unfold_words
  rw [View.canon_cons_unit_zero (S := S128x128) hz2, View.readCov_unit_zero (S := S128x128) _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceA_4 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  :
    VS.read (Elt F) (VS.writes (Elt F) VS.junk (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.1) = addf zero128 (rowSum (mulf (mulf (mulf (mulf (blk3 x0) (blk3 x0)) (blk3 x0)) (blk3 x0)) (blk3 x0))) := by
  rw [View.read_writes_junk_eq_canon]
  unfold runA
  dsimp only
  sl_unfold_words
  rw [View.canon_cons_unit_zero (S := S128x128) hz2, View.readCov_unit_zero (S := S128x128) _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceA_5 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  :
    VS.read (Elt F) (VS.writes (Elt F) VS.junk (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.1) = addf zero128 (rowSum (blk3 x1)) := by
  rw [View.read_writes_junk_eq_canon]
  unfold runA
  dsimp only
  sl_unfold_words
  rw [View.canon_cons_unit_zero (S := S128x128) hz2, View.readCov_unit_zero (S := S128x128) _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceA_6 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  :
    VS.read (Elt F) (VS.writes (Elt F) VS.junk (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.2.1) = addf zero128 (rowSum (mulf (blk3 x1) (blk3 x1))) := by
  rw [View.read_writes_junk_eq_canon]
  unfold runA
  dsimp only
  sl_unfold_words
  rw [View.canon_cons_unit_zero (S := S128x128) hz2, View.readCov_unit_zero (S := S128x128) _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceA_7 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  :
    VS.read (Elt F) (VS.writes (Elt F) VS.junk (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.2.2.1) = addf zero128 (rowSum (mulf (mulf (blk3 x1) (blk3 x1)) (blk3 x1))) := by
  rw [View.read_writes_junk_eq_canon]
  unfold runA
  dsimp only
  sl_unfold_words
  rw [View.canon_cons_unit_zero (S := S128x128) hz2, View.readCov_unit_zero (S := S128x128) _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceA_8 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  :
    VS.read (Elt F) (VS.writes (Elt F) VS.junk (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.2.2.2.1) = addf zero128 (rowSum (mulf (mulf (mulf (blk3 x1) (blk3 x1)) (blk3 x1)) (blk3 x1))) := by
  rw [View.read_writes_junk_eq_canon]
  unfold runA
  dsimp only
  sl_unfold_words
  rw [View.canon_cons_unit_zero (S := S128x128) hz2, View.readCov_unit_zero (S := S128x128) _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceA_9 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : isFirst i) (hc1 : ¬isLast i) (x0 x1 : Vec F S1x128x64x128 .f32)  :
    VS.read (Elt F) (VS.writes (Elt F) VS.junk (runA (F := F) c i arg3 harg3 arg4 harg4 arg5 harg5 arg6 harg6 arg7 harg7 arg8 harg8 arg9 harg9 arg10 harg10 arg11 harg11 arg12 harg12 arg13 harg13 arg14 harg14 arg15 harg15 hc0 hc1 x0 x1).2.2.2.2.2.2.2.2.2.1) = addf zero128 (rowSum (mulf (mulf (mulf (mulf (blk3 x1) (blk3 x1)) (blk3 x1)) (blk3 x1)) (blk3 x1))) := by
  rw [View.read_writes_junk_eq_canon]
  unfold runA
  dsimp only
  sl_unfold_words
  rw [View.canon_cons_unit_zero (S := S128x128) hz2, View.readCov_unit_zero (S := S128x128) _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

/-! ## A middle point -/

theorem pieceB_0 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).1) = addf xs0 (rowSum (blk3 x0)) := by
  rw [View.read_writes_junk_eq_canon]
  unfold runB
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceB_1 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.1) = addf xs1 (rowSum (mulf (blk3 x0) (blk3 x0))) := by
  rw [View.read_writes_junk_eq_canon]
  unfold runB
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceB_2 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.1) = addf xs2 (rowSum (mulf (mulf (blk3 x0) (blk3 x0)) (blk3 x0))) := by
  rw [View.read_writes_junk_eq_canon]
  unfold runB
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceB_3 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.1) = addf xs3 (rowSum (mulf (mulf (mulf (blk3 x0) (blk3 x0)) (blk3 x0)) (blk3 x0))) := by
  rw [View.read_writes_junk_eq_canon]
  unfold runB
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceB_4 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.1) = addf xs4 (rowSum (mulf (mulf (mulf (mulf (blk3 x0) (blk3 x0)) (blk3 x0)) (blk3 x0)) (blk3 x0))) := by
  rw [View.read_writes_junk_eq_canon]
  unfold runB
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceB_5 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.1) = addf xs5 (rowSum (blk3 x1)) := by
  rw [View.read_writes_junk_eq_canon]
  unfold runB
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceB_6 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.1) = addf xs6 (rowSum (mulf (blk3 x1) (blk3 x1))) := by
  rw [View.read_writes_junk_eq_canon]
  unfold runB
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceB_7 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.1) = addf xs7 (rowSum (mulf (mulf (blk3 x1) (blk3 x1)) (blk3 x1))) := by
  rw [View.read_writes_junk_eq_canon]
  unfold runB
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceB_8 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.1) = addf xs8 (rowSum (mulf (mulf (mulf (blk3 x1) (blk3 x1)) (blk3 x1)) (blk3 x1))) := by
  rw [View.read_writes_junk_eq_canon]
  unfold runB
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceB_9 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : ¬isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runB (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.2.1) = addf xs9 (rowSum (mulf (mulf (mulf (mulf (blk3 x1) (blk3 x1)) (blk3 x1)) (blk3 x1)) (blk3 x1))) := by
  rw [View.read_writes_junk_eq_canon]
  unfold runB
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

/-! ## A tile's last point -/

theorem pieceC_0 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.1) = addf xs0 (rowSum (blk3 x0)) := by
  rw [View.read_writes_junk_eq_canon]
  unfold runC
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceC_1 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.1) = addf xs1 (rowSum (mulf (blk3 x0) (blk3 x0))) := by
  rw [View.read_writes_junk_eq_canon]
  unfold runC
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceC_2 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.1) = addf xs2 (rowSum (mulf (mulf (blk3 x0) (blk3 x0)) (blk3 x0))) := by
  rw [View.read_writes_junk_eq_canon]
  unfold runC
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceC_3 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.1) = addf xs3 (rowSum (mulf (mulf (mulf (blk3 x0) (blk3 x0)) (blk3 x0)) (blk3 x0))) := by
  rw [View.read_writes_junk_eq_canon]
  unfold runC
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceC_4 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.1) = addf xs4 (rowSum (mulf (mulf (mulf (mulf (blk3 x0) (blk3 x0)) (blk3 x0)) (blk3 x0)) (blk3 x0))) := by
  rw [View.read_writes_junk_eq_canon]
  unfold runC
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceC_5 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.1) = addf xs5 (rowSum (blk3 x1)) := by
  rw [View.read_writes_junk_eq_canon]
  unfold runC
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceC_6 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.1) = addf xs6 (rowSum (mulf (blk3 x1) (blk3 x1))) := by
  rw [View.read_writes_junk_eq_canon]
  unfold runC
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceC_7 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.1) = addf xs7 (rowSum (mulf (mulf (blk3 x1) (blk3 x1)) (blk3 x1))) := by
  rw [View.read_writes_junk_eq_canon]
  unfold runC
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceC_8 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.2.1) = addf xs8 (rowSum (mulf (mulf (mulf (blk3 x1) (blk3 x1)) (blk3 x1)) (blk3 x1))) := by
  rw [View.read_writes_junk_eq_canon]
  unfold runC
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

theorem pieceC_9 (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VS.read (Elt F) (VS.writes (Elt F) VS.junk (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).2.2.2.2.2.2.2.2.2.2.1) = addf xs9 (rowSum (mulf (mulf (mulf (mulf (blk3 x1) (blk3 x1)) (blk3 x1)) (blk3 x1)) (blk3 x1))) := by
  rw [View.read_writes_junk_eq_canon]
  unfold runC
  dsimp only
  sl_unfold_words
  rw [View.canon_unit_zero (S := S128x128) hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self, blk3, rowSum, zero128]

end Cert.KernelIdeal.Fr

end
-- ==== Proof.KiAcc.lean ====
/-
  The accumulators in closed form.

  Accumulator k after a grid point is, within the point's channel tile, the cleared accumulator plus the row
  sums of the blocks of the tile's points so far, added in point order: by induction on the point, each case
  of the body adding its own block's row sums.
-/
import proofs.«148899_j15599321219646_2_alg».proof.Proof.KiVal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output block after a channel tile's last point -/

open Idealize.ShloMosaic.ValueIdx in
/-- One row store agrees with the rows function on its rectangle. -/
theorem row_piece (n : Fin 10 → FVec F S128 .f32) (k : Fin 10) (off : Fin 2 → Nat) (hoff : off = ![k.val, 0])
    (inb : ∀ a, off a + (![1, 128] : Fin 2 → Nat) a ≤ S10x128.size a)
    (x : (Rect.unit (s := S10x128) off ![1, 128] inb).shape.Idx) :
    shapeCast S1x128 (n k) shapeCasts_S128_S1x128 x = rowsOf n ((Rect.unit (s := S10x128) off ![1, 128] inb).emb x) := by
  subst hoff
  obtain ⟨u, q, rfl⟩ : ∃ (u : Fin 1) (q : Fin 128), x = ix2 u q := ⟨x 0, x 1, eq_ix2 x⟩
  rw [shapeCast_a_1a_apply]
  unfold rowsOf
  have e0 : (Rect.unit (s := S10x128) ![k.val, 0] ![1, 128] inb).emb (ix2 u q) 0 = k :=
    Fin.ext (by rw [Rect.emb_apply]; show k.val + 1 * u.val = k.val; omega)
  have e1 : (Rect.unit (s := S10x128) ![k.val, 0] ![1, 128] inb).emb (ix2 u q) 1 = q :=
    Fin.ext (by rw [Rect.emb_apply]; show 0 + 1 * q.val = q.val; omega)
  rw [e0, e1]

/-- Ten row stores, one per row, leave the rows function. -/
theorem canon_rows (n : Fin 10 → FVec F S128 .f32) (i9 : ∀ a, (![9, 0] : Fin 2 → Nat) a + (![1, 128] : Fin 2 → Nat) a ≤ S10x128.size a) (i8 : ∀ a, (![8, 0] : Fin 2 → Nat) a + (![1, 128] : Fin 2 → Nat) a ≤ S10x128.size a) (i7 : ∀ a, (![7, 0] : Fin 2 → Nat) a + (![1, 128] : Fin 2 → Nat) a ≤ S10x128.size a) (i6 : ∀ a, (![6, 0] : Fin 2 → Nat) a + (![1, 128] : Fin 2 → Nat) a ≤ S10x128.size a) (i5 : ∀ a, (![5, 0] : Fin 2 → Nat) a + (![1, 128] : Fin 2 → Nat) a ≤ S10x128.size a) (i4 : ∀ a, (![4, 0] : Fin 2 → Nat) a + (![1, 128] : Fin 2 → Nat) a ≤ S10x128.size a) (i3 : ∀ a, (![3, 0] : Fin 2 → Nat) a + (![1, 128] : Fin 2 → Nat) a ≤ S10x128.size a) (i2 : ∀ a, (![2, 0] : Fin 2 → Nat) a + (![1, 128] : Fin 2 → Nat) a ≤ S10x128.size a) (i1 : ∀ a, (![1, 0] : Fin 2 → Nat) a + (![1, 128] : Fin 2 → Nat) a ≤ S10x128.size a) (i0 : ∀ a, (![0, 0] : Fin 2 → Nat) a + (![1, 128] : Fin 2 → Nat) a ≤ S10x128.size a) :
    View.canon
      [(⟨Rect.unit (s := S10x128) ![9, 0] ![1, 128] i9, shapeCast S1x128 (n 9) shapeCasts_S128_S1x128⟩ : View.Piece (Elt F) S10x128 .f32),
       (⟨Rect.unit (s := S10x128) ![8, 0] ![1, 128] i8, shapeCast S1x128 (n 8) shapeCasts_S128_S1x128⟩ : View.Piece (Elt F) S10x128 .f32),
       (⟨Rect.unit (s := S10x128) ![7, 0] ![1, 128] i7, shapeCast S1x128 (n 7) shapeCasts_S128_S1x128⟩ : View.Piece (Elt F) S10x128 .f32),
       (⟨Rect.unit (s := S10x128) ![6, 0] ![1, 128] i6, shapeCast S1x128 (n 6) shapeCasts_S128_S1x128⟩ : View.Piece (Elt F) S10x128 .f32),
       (⟨Rect.unit (s := S10x128) ![5, 0] ![1, 128] i5, shapeCast S1x128 (n 5) shapeCasts_S128_S1x128⟩ : View.Piece (Elt F) S10x128 .f32),
       (⟨Rect.unit (s := S10x128) ![4, 0] ![1, 128] i4, shapeCast S1x128 (n 4) shapeCasts_S128_S1x128⟩ : View.Piece (Elt F) S10x128 .f32),
       (⟨Rect.unit (s := S10x128) ![3, 0] ![1, 128] i3, shapeCast S1x128 (n 3) shapeCasts_S128_S1x128⟩ : View.Piece (Elt F) S10x128 .f32),
       (⟨Rect.unit (s := S10x128) ![2, 0] ![1, 128] i2, shapeCast S1x128 (n 2) shapeCasts_S128_S1x128⟩ : View.Piece (Elt F) S10x128 .f32),
       (⟨Rect.unit (s := S10x128) ![1, 0] ![1, 128] i1, shapeCast S1x128 (n 1) shapeCasts_S128_S1x128⟩ : View.Piece (Elt F) S10x128 .f32),
       (⟨Rect.unit (s := S10x128) ![0, 0] ![1, 128] i0, shapeCast S1x128 (n 0) shapeCasts_S128_S1x128⟩ : View.Piece (Elt F) S10x128 .f32)]
      = rowsOf n := by
  funext y
  refine View.canon_apply_of_pieces (rowsOf n) _ ?_ y ?_
  · intro p hp x
    simp only [List.mem_cons, List.mem_nil_iff, or_false] at hp
    rcases hp with rfl | rfl | rfl | rfl | rfl | rfl | rfl | rfl | rfl | rfl
    · exact row_piece n 9 ![9, 0] rfl i9 x
    · exact row_piece n 8 ![8, 0] rfl i8 x
    · exact row_piece n 7 ![7, 0] rfl i7 x
    · exact row_piece n 6 ![6, 0] rfl i6 x
    · exact row_piece n 5 ![5, 0] rfl i5 x
    · exact row_piece n 4 ![4, 0] rfl i4 x
    · exact row_piece n 3 ![3, 0] rfl i3 x
    · exact row_piece n 2 ![2, 0] rfl i2 x
    · exact row_piece n 1 ![1, 0] rfl i1 x
    · exact row_piece n 0 ![0, 0] rfl i0 x
  · exact View.cover_of_tiledL (s := S10x128) _ ![1, 128] (by sl_kernel_rfl) y

/-- The last case's ten row stores leave, in row r, the lane sum of what the point leaves in accumulator r. -/
theorem pieceC_o (c : Dev nD) (i : grid0.Coords) (arg3 : Memref sig .tc .vmem S1x128x64x128 .f32) (harg3 : arg3.IsWhole) (arg4 : Memref sig .tc .vmem S1x128x64x128 .f32) (harg4 : arg4.IsWhole) (arg5 : Memref sig .tc .vmem S10x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (hc0 : ¬isFirst i) (hc1 : isLast i) (x0 x1 : Vec F S1x128x64x128 .f32) (xs0 : Vec F S128x128 .f32) (xs1 : Vec F S128x128 .f32) (xs2 : Vec F S128x128 .f32) (xs3 : Vec F S128x128 .f32) (xs4 : Vec F S128x128 .f32) (xs5 : Vec F S128x128 .f32) (xs6 : Vec F S128x128 .f32) (xs7 : Vec F S128x128 .f32) (xs8 : Vec F S128x128 .f32) (xs9 : Vec F S128x128 .f32) :
    VO.read (Elt F) (VO.writes (Elt F) VO.junk (runC (F := F) c i arg3 harg3 arg4 harg4 arg5 harg5 arg6 harg6 arg7 harg7 arg8 harg8 arg9 harg9 arg10 harg10 arg11 harg11 arg12 harg12 arg13 harg13 arg14 harg14 arg15 harg15 hc0 hc1 x0 x1 xs0 xs1 xs2 xs3 xs4 xs5 xs6 xs7 xs8 xs9).1)
      = rowsOf ![laneSum (addf xs0 (rowSum (blk3 x0))), laneSum (addf xs1 (rowSum (mulf (blk3 x0) (blk3 x0)))), laneSum (addf xs2 (rowSum (mulf (mulf (blk3 x0) (blk3 x0)) (blk3 x0)))), laneSum (addf xs3 (rowSum (mulf (mulf (mulf (blk3 x0) (blk3 x0)) (blk3 x0)) (blk3 x0)))), laneSum (addf xs4 (rowSum (mulf (mulf (mulf (mulf (blk3 x0) (blk3 x0)) (blk3 x0)) (blk3 x0)) (blk3 x0)))), laneSum (addf xs5 (rowSum (blk3 x1))), laneSum (addf xs6 (rowSum (mulf (blk3 x1) (blk3 x1)))), laneSum (addf xs7 (rowSum (mulf (mulf (blk3 x1) (blk3 x1)) (blk3 x1)))), laneSum (addf xs8 (rowSum (mulf (mulf (mulf (blk3 x1) (blk3 x1)) (blk3 x1)) (blk3 x1)))), laneSum (addf xs9 (rowSum (mulf (mulf (mulf (mulf (blk3 x1) (blk3 x1)) (blk3 x1)) (blk3 x1)) (blk3 x1))))] := by
  rw [View.read_writes_junk_eq_canon]
  unfold runC
  dsimp only
  sl_unfold_words
  simp only [View.readCov_unit_zero (S := S128x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, View.readAt_eq_ld, harg3.read_unread, harg4.read_unread, harg6.read_unread, harg7.read_unread, harg8.read_unread, harg9.read_unread, harg10.read_unread, harg11.read_unread, harg12.read_unread, harg13.read_unread, harg14.read_unread, harg15.read_unread,
    View.ld_unit_zero (S := S128x128) hz2, View.ld_unit_zero (S := S1x128x64x128) hz4, shapeCast_self]
  exact canon_rows (F := F) ![laneSum (addf xs0 (rowSum (blk3 x0))), laneSum (addf xs1 (rowSum (mulf (blk3 x0) (blk3 x0)))), laneSum (addf xs2 (rowSum (mulf (mulf (blk3 x0) (blk3 x0)) (blk3 x0)))), laneSum (addf xs3 (rowSum (mulf (mulf (mulf (blk3 x0) (blk3 x0)) (blk3 x0)) (blk3 x0)))), laneSum (addf xs4 (rowSum (mulf (mulf (mulf (mulf (blk3 x0) (blk3 x0)) (blk3 x0)) (blk3 x0)) (blk3 x0)))), laneSum (addf xs5 (rowSum (blk3 x1))), laneSum (addf xs6 (rowSum (mulf (blk3 x1) (blk3 x1)))), laneSum (addf xs7 (rowSum (mulf (mulf (blk3 x1) (blk3 x1)) (blk3 x1)))), laneSum (addf xs8 (rowSum (mulf (mulf (mulf (blk3 x1) (blk3 x1)) (blk3 x1)) (blk3 x1)))), laneSum (addf xs9 (rowSum (mulf (mulf (mulf (mulf (blk3 x1) (blk3 x1)) (blk3 x1)) (blk3 x1)) (blk3 x1))))] _ _ _ _ _ _ _ _ _ _

/-! ## The accumulators, point by point -/

/-- The ten accumulators of a point's contents, by number. -/
def St.acc (p : St F) (k : Fin 10) : Vec F S128x128 .f32 :=
  match k with
  | ⟨0, _⟩ => p.s0
  | ⟨1, _⟩ => p.s1
  | ⟨2, _⟩ => p.s2
  | ⟨3, _⟩ => p.s3
  | ⟨4, _⟩ => p.s4
  | ⟨5, _⟩ => p.s5
  | ⟨6, _⟩ => p.s6
  | ⟨7, _⟩ => p.s7
  | ⟨8, _⟩ => p.s8
  | ⟨9, _⟩ => p.s9

/-- What a point adds to each accumulator: the row sums of the powers of its two blocks. -/
def termOf (x0 x1 : Vec F S1x128x64x128 .f32) (k : Fin 10) : FVec F S128x128 .f32 :=
  match k with
  | ⟨0, _⟩ => rowSum (blk3 x0)
  | ⟨1, _⟩ => rowSum (mulf (blk3 x0) (blk3 x0))
  | ⟨2, _⟩ => rowSum (mulf (mulf (blk3 x0) (blk3 x0)) (blk3 x0))
  | ⟨3, _⟩ => rowSum (mulf (mulf (mulf (blk3 x0) (blk3 x0)) (blk3 x0)) (blk3 x0))
  | ⟨4, _⟩ => rowSum (mulf (mulf (mulf (mulf (blk3 x0) (blk3 x0)) (blk3 x0)) (blk3 x0)) (blk3 x0))
  | ⟨5, _⟩ => rowSum (blk3 x1)
  | ⟨6, _⟩ => rowSum (mulf (blk3 x1) (blk3 x1))
  | ⟨7, _⟩ => rowSum (mulf (mulf (blk3 x1) (blk3 x1)) (blk3 x1))
  | ⟨8, _⟩ => rowSum (mulf (mulf (mulf (blk3 x1) (blk3 x1)) (blk3 x1)) (blk3 x1))
  | ⟨9, _⟩ => rowSum (mulf (mulf (mulf (mulf (blk3 x1) (blk3 x1)) (blk3 x1)) (blk3 x1)) (blk3 x1))

set_option maxHeartbeats 8000000 in
/-- A tile's first point adds its terms to the cleared accumulators. -/
theorem stA_acc (c : Dev nD) (t : Fin cfg0.N) (h0 : t.val % 16 = 0) (h1 : ¬t.val % 16 = 15) (k : Fin 10) :
    (stA m c t h0 h1).acc k = addf zero128 (termOf (iblk m c 0 t) (iblk m c 1 t) k) := by
  fin_cases k
  · show (stA m c t h0 h1).s0 = addf zero128 (rowSum (blk3 (iblk m c 0 t)))
    exact pieceA_0 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)
  · show (stA m c t h0 h1).s1 = addf zero128 (rowSum (mulf (blk3 (iblk m c 0 t)) (blk3 (iblk m c 0 t))))
    exact pieceA_1 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)
  · show (stA m c t h0 h1).s2 = addf zero128 (rowSum (mulf (mulf (blk3 (iblk m c 0 t)) (blk3 (iblk m c 0 t))) (blk3 (iblk m c 0 t))))
    exact pieceA_2 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)
  · show (stA m c t h0 h1).s3 = addf zero128 (rowSum (mulf (mulf (mulf (blk3 (iblk m c 0 t)) (blk3 (iblk m c 0 t))) (blk3 (iblk m c 0 t))) (blk3 (iblk m c 0 t))))
    exact pieceA_3 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)
  · show (stA m c t h0 h1).s4 = addf zero128 (rowSum (mulf (mulf (mulf (mulf (blk3 (iblk m c 0 t)) (blk3 (iblk m c 0 t))) (blk3 (iblk m c 0 t))) (blk3 (iblk m c 0 t))) (blk3 (iblk m c 0 t))))
    exact pieceA_4 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)
  · show (stA m c t h0 h1).s5 = addf zero128 (rowSum (blk3 (iblk m c 1 t)))
    exact pieceA_5 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)
  · show (stA m c t h0 h1).s6 = addf zero128 (rowSum (mulf (blk3 (iblk m c 1 t)) (blk3 (iblk m c 1 t))))
    exact pieceA_6 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)
  · show (stA m c t h0 h1).s7 = addf zero128 (rowSum (mulf (mulf (blk3 (iblk m c 1 t)) (blk3 (iblk m c 1 t))) (blk3 (iblk m c 1 t))))
    exact pieceA_7 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)
  · show (stA m c t h0 h1).s8 = addf zero128 (rowSum (mulf (mulf (mulf (blk3 (iblk m c 1 t)) (blk3 (iblk m c 1 t))) (blk3 (iblk m c 1 t))) (blk3 (iblk m c 1 t))))
    exact pieceA_8 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)
  · show (stA m c t h0 h1).s9 = addf zero128 (rowSum (mulf (mulf (mulf (mulf (blk3 (iblk m c 1 t)) (blk3 (iblk m c 1 t))) (blk3 (iblk m c 1 t))) (blk3 (iblk m c 1 t))) (blk3 (iblk m c 1 t))))
    exact pieceA_9 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) ((isFirst_iff t).mpr h0) (fun h => h1 ((isLast_iff t).mp h)) (iblk m c 0 t) (iblk m c 1 t)

set_option maxHeartbeats 8000000 in
/-- A middle point adds its terms to what the point before left. -/
theorem stB_acc (c : Dev nD) (t : Fin cfg0.N) (h0 : ¬t.val % 16 = 0) (h1 : ¬t.val % 16 = 15) (p : St F) (k : Fin 10) :
    (stB m c t h0 h1 p).acc k = addf (p.acc k) (termOf (iblk m c 0 t) (iblk m c 1 t) k) := by
  fin_cases k
  · show (stB m c t h0 h1 p).s0 = addf p.s0 (rowSum (blk3 (iblk m c 0 t)))
    exact pieceB_0 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9
  · show (stB m c t h0 h1 p).s1 = addf p.s1 (rowSum (mulf (blk3 (iblk m c 0 t)) (blk3 (iblk m c 0 t))))
    exact pieceB_1 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9
  · show (stB m c t h0 h1 p).s2 = addf p.s2 (rowSum (mulf (mulf (blk3 (iblk m c 0 t)) (blk3 (iblk m c 0 t))) (blk3 (iblk m c 0 t))))
    exact pieceB_2 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9
  · show (stB m c t h0 h1 p).s3 = addf p.s3 (rowSum (mulf (mulf (mulf (blk3 (iblk m c 0 t)) (blk3 (iblk m c 0 t))) (blk3 (iblk m c 0 t))) (blk3 (iblk m c 0 t))))
    exact pieceB_3 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9
  · show (stB m c t h0 h1 p).s4 = addf p.s4 (rowSum (mulf (mulf (mulf (mulf (blk3 (iblk m c 0 t)) (blk3 (iblk m c 0 t))) (blk3 (iblk m c 0 t))) (blk3 (iblk m c 0 t))) (blk3 (iblk m c 0 t))))
    exact pieceB_4 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9
  · show (stB m c t h0 h1 p).s5 = addf p.s5 (rowSum (blk3 (iblk m c 1 t)))
    exact pieceB_5 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9
  · show (stB m c t h0 h1 p).s6 = addf p.s6 (rowSum (mulf (blk3 (iblk m c 1 t)) (blk3 (iblk m c 1 t))))
    exact pieceB_6 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9
  · show (stB m c t h0 h1 p).s7 = addf p.s7 (rowSum (mulf (mulf (blk3 (iblk m c 1 t)) (blk3 (iblk m c 1 t))) (blk3 (iblk m c 1 t))))
    exact pieceB_7 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9
  · show (stB m c t h0 h1 p).s8 = addf p.s8 (rowSum (mulf (mulf (mulf (blk3 (iblk m c 1 t)) (blk3 (iblk m c 1 t))) (blk3 (iblk m c 1 t))) (blk3 (iblk m c 1 t))))
    exact pieceB_8 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9
  · show (stB m c t h0 h1 p).s9 = addf p.s9 (rowSum (mulf (mulf (mulf (mulf (blk3 (iblk m c 1 t)) (blk3 (iblk m c 1 t))) (blk3 (iblk m c 1 t))) (blk3 (iblk m c 1 t))) (blk3 (iblk m c 1 t))))
    exact pieceB_9 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) (fun h => h1 ((isLast_iff t).mp h)) (iblk m c 0 t) (iblk m c 1 t) p.s0 p.s1 p.s2 p.s3 p.s4 p.s5 p.s6 p.s7 p.s8 p.s9

set_option maxHeartbeats 8000000 in
/-- So does a tile's last point. -/
theorem stC_acc (c : Dev nD) (t : Fin cfg0.N) (h0 : ¬t.val % 16 = 0) (h1 : t.val % 16 = 15) (p : St F) (k : Fin 10) :
    (stC m c t h0 h1 p).acc k = addf (p.acc k) (termOf (iblk m c 0 t) (iblk m c 1 t) k) := by
  fin_cases k
  · show (stC m c t h0 h1 p).s0 = addf p.s0 (rowSum (blk3 (iblk m c 0 t)))
    exact pieceC_0 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9
  · show (stC m c t h0 h1 p).s1 = addf p.s1 (rowSum (mulf (blk3 (iblk m c 0 t)) (blk3 (iblk m c 0 t))))
    exact pieceC_1 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9
  · show (stC m c t h0 h1 p).s2 = addf p.s2 (rowSum (mulf (mulf (blk3 (iblk m c 0 t)) (blk3 (iblk m c 0 t))) (blk3 (iblk m c 0 t))))
    exact pieceC_2 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9
  · show (stC m c t h0 h1 p).s3 = addf p.s3 (rowSum (mulf (mulf (mulf (blk3 (iblk m c 0 t)) (blk3 (iblk m c 0 t))) (blk3 (iblk m c 0 t))) (blk3 (iblk m c 0 t))))
    exact pieceC_3 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9
  · show (stC m c t h0 h1 p).s4 = addf p.s4 (rowSum (mulf (mulf (mulf (mulf (blk3 (iblk m c 0 t)) (blk3 (iblk m c 0 t))) (blk3 (iblk m c 0 t))) (blk3 (iblk m c 0 t))) (blk3 (iblk m c 0 t))))
    exact pieceC_4 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9
  · show (stC m c t h0 h1 p).s5 = addf p.s5 (rowSum (blk3 (iblk m c 1 t)))
    exact pieceC_5 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9
  · show (stC m c t h0 h1 p).s6 = addf p.s6 (rowSum (mulf (blk3 (iblk m c 1 t)) (blk3 (iblk m c 1 t))))
    exact pieceC_6 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9
  · show (stC m c t h0 h1 p).s7 = addf p.s7 (rowSum (mulf (mulf (blk3 (iblk m c 1 t)) (blk3 (iblk m c 1 t))) (blk3 (iblk m c 1 t))))
    exact pieceC_7 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9
  · show (stC m c t h0 h1 p).s8 = addf p.s8 (rowSum (mulf (mulf (mulf (blk3 (iblk m c 1 t)) (blk3 (iblk m c 1 t))) (blk3 (iblk m c 1 t))) (blk3 (iblk m c 1 t))))
    exact pieceC_8 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9
  · show (stC m c t h0 h1 p).s9 = addf p.s9 (rowSum (mulf (mulf (mulf (mulf (blk3 (iblk m c 1 t)) (blk3 (iblk m c 1 t))) (blk3 (iblk m c 1 t))) (blk3 (iblk m c 1 t))) (blk3 (iblk m c 1 t))))
    exact pieceC_9 (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9

/-- The running sums: restarted from the cleared accumulator at each tile's first point. -/
def running (c : Dev nD) (k : Fin 10) : (n : ℕ) → n < cfg0.N → FVec F S128x128 .f32
  | 0, hn => addf zero128 (termOf (iblk m c 0 ⟨0, hn⟩) (iblk m c 1 ⟨0, hn⟩) k)
  | n + 1, hn =>
    if (n + 1) % 16 = 0 then addf zero128 (termOf (iblk m c 0 ⟨n + 1, hn⟩) (iblk m c 1 ⟨n + 1, hn⟩) k)
    else addf (running c k n (Nat.lt_of_succ_lt hn)) (termOf (iblk m c 0 ⟨n + 1, hn⟩) (iblk m c 1 ⟨n + 1, hn⟩) k)

/-- What the accumulators hold after each point is the running sum. -/
theorem outsAt_acc (c : Dev nD) (k : Fin 10) : ∀ (n : ℕ) (hn : n < cfg0.N), (outsAt m c n hn).acc k = running m c k n hn
  | 0, hn => by
    rw [outsAt_A m c ⟨0, hn⟩ (Nat.zero_mod _) (fun h => absurd (show (0 : ℕ) % 16 = 15 from h) (by decide))]
    exact stA_acc m c ⟨0, hn⟩ _ _ k
  | n + 1, hn => by
    have hN : n + 1 < 32 := lt_of_lt_of_eq hn (show cfg0.N = 32 from N_0)
    by_cases h0 : (n + 1) % 16 = 0
    · have h1 : ¬(n + 1) % 16 = 15 := by omega
      rw [outsAt_A m c ⟨n + 1, hn⟩ h0 h1, stA_acc]
      show _ = if (n + 1) % 16 = 0 then _ else _
      rw [if_pos h0]
    · by_cases h1 : (n + 1) % 16 = 15
      · rw [outsAt_C m c ⟨n + 1, hn⟩ h0 h1, stC_acc]
        show _ = if (n + 1) % 16 = 0 then _ else _
        rw [if_neg h0]
        show addf ((outsAt m c n _).acc k) _ = _
        rw [outsAt_acc c k n]
      · rw [outsAt_B m c ⟨n + 1, hn⟩ h0 h1, stB_acc]
        show _ = if (n + 1) % 16 = 0 then _ else _
        rw [if_neg h0]
        show addf ((outsAt m c n _).acc k) _ = _
        rw [outsAt_acc c k n]

set_option maxHeartbeats 8000000 in
/-- After a tile's last point the output block's row r is the lane sum of accumulator r. -/
theorem stC_o (c : Dev nD) (t : Fin cfg0.N) (h0 : ¬t.val % 16 = 0) (h1 : t.val % 16 = 15) (p : St F) :
    (stC m c t h0 h1 p).o = rowsOf fun k => laneSum ((stC m c t h0 h1 p).acc k) := by
  have h : (stC m c t h0 h1 p).o = rowsOf ![laneSum (addf p.s0 (termOf (iblk m c 0 t) (iblk m c 1 t) 0)), laneSum (addf p.s1 (termOf (iblk m c 0 t) (iblk m c 1 t) 1)), laneSum (addf p.s2 (termOf (iblk m c 0 t) (iblk m c 1 t) 2)), laneSum (addf p.s3 (termOf (iblk m c 0 t) (iblk m c 1 t) 3)), laneSum (addf p.s4 (termOf (iblk m c 0 t) (iblk m c 1 t) 4)), laneSum (addf p.s5 (termOf (iblk m c 0 t) (iblk m c 1 t) 5)), laneSum (addf p.s6 (termOf (iblk m c 0 t) (iblk m c 1 t) 6)), laneSum (addf p.s7 (termOf (iblk m c 0 t) (iblk m c 1 t) 7)), laneSum (addf p.s8 (termOf (iblk m c 0 t) (iblk m c 1 t) 8)), laneSum (addf p.s9 (termOf (iblk m c 0 t) (iblk m c 1 t) 9))] :=
    pieceC_o (F := F) c (grid0.coords t) (ms0 t) (hs0 t) (ms1 t) (hs1 t) (ms2 t) (hs2 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) sc8 (Memref.isWhole_whole _) sc9 (Memref.isWhole_whole _) (fun h => h0 ((isFirst_iff t).mp h)) ((isLast_iff t).mpr h1) (iblk m c 0 t) (iblk m c 1 t) p.s0 p.s1 p.s2 p.s3 p.s4 p.s5 p.s6 p.s7 p.s8 p.s9
  rw [h]
  congr 1
  funext k
  rw [stC_acc]
  fin_cases k <;> rfl

end Cert.KernelIdeal.Fr

end
-- ==== Proof.KiTable.lean ====
/-
  The table of raw power sums the region leaves.

  The output window's block at a point of channel tile ci is columns 128·ci … 128·ci+127 of the 10 x 256 table,
  written back after the tile's last point only. So entry (r, 128·ci + q) of the table is the lane sum, at row q,
  of accumulator r as the tile's last point leaves it: the running sum over the tile's sixteen points.
-/
import proofs.«148899_j15599321219646_2_alg».proof.Proof.KiFrame
import proofs.«148899_j15599321219646_2_alg».proof.Proof.KiAcc

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The running sum at a position given as a natural number (the cleared accumulator past the grid). -/
def runningN (c : Dev nD) (k : Fin 10) (n : ℕ) : FVec F S128x128 .f32 :=
  if h : n < cfg0.N then running m c k n h else zero128

theorem runningN_eq (c : Dev nD) (k : Fin 10) (n : ℕ) (hn : n < cfg0.N) : runningN m c k n = running m c k n hn := by
  unfold runningN; rw [dif_pos hn]

/-- The table: entry (r, col) is the lane sum, at row col mod 128, of accumulator r after the last point of
    channel tile col / 128. -/
def table (c : Dev nD) : FVec F S10x256 .f32 := fun y =>
  laneSum (runningN m c (⟨(y 0).val, (y 0).isLt⟩ : Fin 10) (16 * ((y 1).val / 128) + 15)) (ix1 (⟨(y 1).val % 128, Nat.mod_lt _ (by decide)⟩ : Fin 128))

/-- The output window's block index at each point: row block 0, column block = the channel tile. -/
theorem idx_facts2 : ∀ t : Fin cfg0.N, win0_2.index t (0 : Fin 2) = 0 ∧ win0_2.index t (1 : Fin 2) = t.val / 16 :=
  (by decide +kernel : ∀ t : Fin grid0.N, win0_2.index t (0 : Fin 2) = 0 ∧ win0_2.index t (1 : Fin 2) = t.val / 16)

/-- After a tile's last point, entry (r, q) of the output block is entry (r, 128·tile + q) of the table. -/
theorem out_entry (c : Dev nD) (t : Fin cfg0.N) (h15 : t.val % 16 = 15) (r : Fin 10) (q : Fin 128) (y : S10x256.Idx)
    (hy0 : (y 0).val = r.val) (hy1 : (y 1).val = t.val / 16 * 128 + q.val) :
    (outsAt m c t.val t.isLt).o (ix2 r q) = table m c y := by
  have h0 : ¬t.val % 16 = 0 := by omega
  have ho : (outsAt m c t.val t.isLt).o = rowsOf fun k => laneSum ((outsAt m c t.val t.isLt).acc k) := by
    rw [outsAt_C m c t h0 h15]; exact stC_o m c t h0 h15 _
  rw [ho]
  show laneSum ((outsAt m c t.val t.isLt).acc r) (ix1 q) = _
  rw [outsAt_acc m c r t.val t.isLt]
  unfold table
  have hq := q.isLt
  have hn : 16 * ((y 1).val / 128) + 15 = t.val := by rw [hy1]; omega
  have hq' : (y 1).val % 128 = q.val := by rw [hy1]; omega
  have hk : (⟨(y 0).val, (y 0).isLt⟩ : Fin 10) = r := Fin.ext hy0
  rw [hn, hk, runningN_eq m c r t.val t.isLt]
  exact congrArg _ (congrArg ix1 (Fin.ext hq'.symm))

/-- What a tile's last point writes back is its block of the table. -/
theorem flushed_eq (c : Dev nD) (t : Fin cfg0.N) (hf : (cfg0.win 2).flush t = true) :
    (dats m 0 c).flushed 2 t = ((cfg0.win 2).blk t).view.read (Elt F) (table m c) := by
  have h15 : t.val % 16 = 15 := (flush0_2 t).mp hf
  show (cfg0.win 2).cut (grid0.coords t) ((dats m 0 c).after 2 t) = _
  rw [after2]
  obtain ⟨e0, e1⟩ := idx_facts2 t
  funext j
  obtain ⟨r, q, rfl⟩ : ∃ (r : Fin 10) (q : Fin 128), j = ix2 r q := ⟨j 0, j 1, eq_ix2 j⟩
  show (outsAt m c t.val t.isLt).o (ix2 r q) = table m c (((cfg0.win 2).blk t).view.emb (ix2 r q))
  refine out_entry m c t h15 r q _ ?_ ?_
  · show win0_2.index t (0 : Fin 2) * 10 + 1 * r.val = r.val; omega
  · show win0_2.index t (1 : Fin 2) * 128 + 1 * q.val = _; omega

/-- An index of the table is in a point's block iff each coordinate is in the block's range. -/
theorem mem_blk2 (t : Fin cfg0.N) (i : S10x256.Idx) :
    i ∈ ((cfg0.win 2).blk t).view.set ↔ ∀ a : Fin 2, win0_2.index t a * S10x128.size a ≤ (i a).val ∧ (i a).val < win0_2.index t a * S10x128.size a + S10x128.size a := by
  show i ∈ ((View.whole main_call0_v0).slice (win0_2.rect t)).set ↔ _
  rw [View.set_slice_whole, Rect.mem_set_unit]
  exact Iff.rfl

/-- The table after the run. -/
theorem final2 (c : Dev nD) : (dats m 0 c).arrAt 2 cfg0.N = table m c :=
  (dats m 0 c).arrAt_eq_of_cover 2 (table m c) (fun t hf => flushed_eq m c t hf) fun i => by
    have hi0 : (i 0).val < 10 := (i 0).isLt
    have hi1 : (i 1).val < 256 := (i 1).isLt
    have hN : cfg0.N = 32 := N_0
    refine ⟨⟨16 * ((i 1).val / 128) + 15, by omega⟩, (flush0_2 _).mpr (by show (16 * ((i 1).val / 128) + 15) % 16 = 15; omega), ?_⟩
    rw [mem_blk2]
    obtain ⟨e0, e1⟩ := idx_facts2 ⟨16 * ((i 1).val / 128) + 15, by omega⟩
    intro a
    match a with
    | ⟨0, _⟩ =>
      show win0_2.index _ (0 : Fin 2) * 10 ≤ (i 0).val ∧ (i 0).val < win0_2.index _ (0 : Fin 2) * 10 + 10
      rw [e0]; omega
    | ⟨1, _⟩ =>
      show win0_2.index _ (1 : Fin 2) * 128 ≤ (i 1).val ∧ (i 1).val < win0_2.index _ (1 : Fin 2) * 128 + 128
      rw [e1]; show (16 * ((i 1).val / 128) + 15) / 16 * 128 ≤ (i 1).val ∧ (i 1).val < (16 * ((i 1).val / 128) + 15) / 16 * 128 + 128
      omega

end Cert.KernelIdeal.Fr

end
-- ==== Proof.KiTail.lean ====
/-
  The host lines after the region, as one function of the 10 x 256 table of raw power sums.

  Row j of the table (j = 0 … 4) holds, per channel, the sum of x^(j+1); row 5 + j the same for the target.
  From a channel's sums S_1 … S_k, its mean m = S_1 / n and n = 131072, the lines form the centered moment of
  order k as (Σ_j C(k, j) (-m)^(k-j) S_j) / n with S_0 = n — the terms added left to right from a zero vector,
  each term "binomial constant times power of -m, times the sum", the integer powers of -m as the products
  p·p, (p·p)·p, (p·p)·(p·p), p·((p·p)·(p·p)) — and the loss as the sum over the orders 1 … 5 of
  1 · sqrt(Σ_channels (moment of x − moment of the target)^2).
-/
import proofs.«148899_j15599321219646_2_alg».proof.Proof.Gen.KernelIdeal.Launch
import Idealize.ShloMosaic.Lib.StableHlo.Run

set_option maxRecDepth 200000

noncomputable section

namespace Cert.KernelIdeal.Tail

open Idealize.ShloMosaic Idealize.ShloMosaic.TcCoe Idealize.SL.Sem Idealize.ShloMosaic.StableHlo
open Cert.KernelIdeal Cert.KernelIdeal.Gen

variable {F : FTy → Type} [FloatOps F]

/-- A scalar word spread over the 256 channels. -/
def bc (w : BitVec 32) : FVec F S256 .f32 := broadcastInDim S256 ![] bcast_S_S256 (constant S_ .f32 w)

/-- Row 0 of the table. -/
def r0 (raw : FVec F S10x256 .f32) : FVec F S256 .f32 :=
  shapeCast S256 (extractStridedSlice S1x256 ![0, 0] raw slices_S10x256_S1x256_0_0) shapeCasts_S1x256_S256
/-- Row 1 of the table. -/
def r1 (raw : FVec F S10x256 .f32) : FVec F S256 .f32 :=
  shapeCast S256 (extractStridedSlice S1x256 ![1, 0] raw slices_S10x256_S1x256_1_0) shapeCasts_S1x256_S256
/-- Row 2 of the table. -/
def r2 (raw : FVec F S10x256 .f32) : FVec F S256 .f32 :=
  shapeCast S256 (extractStridedSlice S1x256 ![2, 0] raw slices_S10x256_S1x256_2_0) shapeCasts_S1x256_S256
/-- Row 3 of the table. -/
def r3 (raw : FVec F S10x256 .f32) : FVec F S256 .f32 :=
  shapeCast S256 (extractStridedSlice S1x256 ![3, 0] raw slices_S10x256_S1x256_3_0) shapeCasts_S1x256_S256
/-- Row 4 of the table. -/
def r4 (raw : FVec F S10x256 .f32) : FVec F S256 .f32 :=
  shapeCast S256 (extractStridedSlice S1x256 ![4, 0] raw slices_S10x256_S1x256_4_0) shapeCasts_S1x256_S256
/-- Row 5 of the table. -/
def r5 (raw : FVec F S10x256 .f32) : FVec F S256 .f32 :=
  shapeCast S256 (extractStridedSlice S1x256 ![5, 0] raw slices_S10x256_S1x256_5_0) shapeCasts_S1x256_S256
/-- Row 6 of the table. -/
def r6 (raw : FVec F S10x256 .f32) : FVec F S256 .f32 :=
  shapeCast S256 (extractStridedSlice S1x256 ![6, 0] raw slices_S10x256_S1x256_6_0) shapeCasts_S1x256_S256
/-- Row 7 of the table. -/
def r7 (raw : FVec F S10x256 .f32) : FVec F S256 .f32 :=
  shapeCast S256 (extractStridedSlice S1x256 ![7, 0] raw slices_S10x256_S1x256_7_0) shapeCasts_S1x256_S256
/-- Row 8 of the table. -/
def r8 (raw : FVec F S10x256 .f32) : FVec F S256 .f32 :=
  shapeCast S256 (extractStridedSlice S1x256 ![8, 0] raw slices_S10x256_S1x256_8_0) shapeCasts_S1x256_S256
/-- Row 9 of the table. -/
def r9 (raw : FVec F S10x256 .f32) : FVec F S256 .f32 :=
  shapeCast S256 (extractStridedSlice S1x256 ![9, 0] raw slices_S10x256_S1x256_9_0) shapeCasts_S1x256_S256

/-- The mean: the first power sum over n. -/
def mean (s1 : FVec F S256 .f32) : FVec F S256 .f32 := Host.divf s1 (bc 0x48000000#32)

/-- 1 · sqrt(Σ (a − b)²). -/
def rmse (a b : FVec F S256 .f32) : FVec F S_ .f32 :=
  mulf (constant S_ .f32 0x3F800000#32) (Host.sqrt (Host.reduceAdd (mulf (subf a b) (subf a b)) (constant S_ .f32 0x00000000#32) reducesTo_S256_S_d0 h_S_))

/-- The integer powers of p = −m as the lines form them. -/
def p2 (p : FVec F S256 .f32) : FVec F S256 .f32 := mulf p p
def p3 (p : FVec F S256 .f32) : FVec F S256 .f32 := mulf (mulf p p) p
def p4 (p : FVec F S256 .f32) : FVec F S256 .f32 := mulf (mulf p p) (mulf p p)
def p5 (p : FVec F S256 .f32) : FVec F S256 .f32 := mulf p (mulf (mulf p p) (mulf p p))

/-- One term: (binomial constant · power) · sum. -/
def tm (w : BitVec 32) (pw s : FVec F S256 .f32) : FVec F S256 .f32 := mulf (mulf (bc w) pw) s

/-- The centered moment of order 2 from the mean and the sums. -/
def cm2 (m s1 s2 : FVec F S256 .f32) : FVec F S256 .f32 :=
  Host.divf (addf (addf (addf (bc 0x00000000#32) (tm 0x3F800000#32 (p2 (Host.negf m)) (bc 0x48000000#32))) (tm 0x40000000#32 (Host.negf m) s1)) (tm 0x3F800000#32 (bc 0x3F800000#32) s2)) (bc 0x48000000#32)
/-- Order 3. -/
def cm3 (m s1 s2 s3 : FVec F S256 .f32) : FVec F S256 .f32 :=
  Host.divf (addf (addf (addf (addf (bc 0x00000000#32) (tm 0x3F800000#32 (p3 (Host.negf m)) (bc 0x48000000#32))) (tm 0x40400000#32 (p2 (Host.negf m)) s1)) (tm 0x40400000#32 (Host.negf m) s2)) (tm 0x3F800000#32 (bc 0x3F800000#32) s3)) (bc 0x48000000#32)
/-- Order 4. -/
def cm4 (m s1 s2 s3 s4 : FVec F S256 .f32) : FVec F S256 .f32 :=
  Host.divf (addf (addf (addf (addf (addf (bc 0x00000000#32) (tm 0x3F800000#32 (p4 (Host.negf m)) (bc 0x48000000#32))) (tm 0x40800000#32 (p3 (Host.negf m)) s1)) (tm 0x40C00000#32 (p2 (Host.negf m)) s2)) (tm 0x40800000#32 (Host.negf m) s3)) (tm 0x3F800000#32 (bc 0x3F800000#32) s4)) (bc 0x48000000#32)
/-- Order 5. -/
def cm5 (m s1 s2 s3 s4 s5 : FVec F S256 .f32) : FVec F S256 .f32 :=
  Host.divf (addf (addf (addf (addf (addf (addf (bc 0x00000000#32) (tm 0x3F800000#32 (p5 (Host.negf m)) (bc 0x48000000#32))) (tm 0x40A00000#32 (p4 (Host.negf m)) s1)) (tm 0x41200000#32 (p3 (Host.negf m)) s2)) (tm 0x41200000#32 (p2 (Host.negf m)) s3)) (tm 0x40A00000#32 (Host.negf m) s4)) (tm 0x3F800000#32 (bc 0x3F800000#32) s5)) (bc 0x48000000#32)

/-- The loss from the table. -/
def lossOf (raw : FVec F S10x256 .f32) : FVec F S_ .f32 :=
  addf (addf (addf (addf
    (rmse (mean (r0 raw)) (mean (r5 raw)))
    (rmse (cm2 (mean (r0 raw)) (r0 raw) (r1 raw)) (cm2 (mean (r5 raw)) (r5 raw) (r6 raw))))
    (rmse (cm3 (mean (r0 raw)) (r0 raw) (r1 raw) (r2 raw)) (cm3 (mean (r5 raw)) (r5 raw) (r6 raw) (r7 raw))))
    (rmse (cm4 (mean (r0 raw)) (r0 raw) (r1 raw) (r2 raw) (r3 raw)) (cm4 (mean (r5 raw)) (r5 raw) (r6 raw) (r7 raw) (r8 raw))))
    (rmse (cm5 (mean (r0 raw)) (r0 raw) (r1 raw) (r2 raw) (r3 raw) (r4 raw)) (cm5 (mean (r5 raw)) (r5 raw) (r6 raw) (r7 raw) (r8 raw) (r9 raw)))

set_option maxHeartbeats 40000000 in
/-- The 387 lines, run from any contents, leave the loss of the table they find. -/
theorem tail_eq (W : Valuation τ sig (Elt F)) :
    StableHlo.after (hostOps1 (F := F)) W (Proc.devRef .tc main_v0) = lossOf (W (Proc.devRef .tc main_call0_v0)) := by
  after_results_simp <;> rfl

end Cert.KernelIdeal.Tail

end
-- ==== Proof.KiOut.lean ====
/-
  The kernel's run with its result named: the 387 host lines compute the loss from the table the region leaves.
-/
import proofs.«148899_j15599321219646_2_alg».proof.Proof.KiTable
import proofs.«148899_j15599321219646_2_alg».proof.Proof.KiTail

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxRecDepth 200000 in
set_option maxHeartbeats 40000000 in
/-- The run of the kernel program, read: the result is the loss of the table; the arguments end unchanged. -/
theorem kernel_run : θ_run defs (onTc (τ := τ) (main (F := F))) ⟨m, fun _ => 0, ρ⟩ fun r => ∀ c : Dev nD,
      r.2.mem ((c.tc : Thread nD τ).loc main_v0) = Cert.KernelIdeal.Tail.lossOf (table m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (by decide)).trans (by
        unfold Pipeline.afterTail₀
        show StableHlo.after hostOps1 _ (Proc.devRef .tc main_v0) = _
        rw [Cert.KernelIdeal.Tail.tail_eq]
        exact congrArg _ ((Pipeline.withArrays_arr spec0 launch0.win.arr_inj c _ _ 2).trans (final2 m c))),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.Fr

end
-- ==== Proof.LibBlockSum.lean ====
/-
  A sum over a long one-axis index set, cut into equal blocks.

  An array of `N = a * b` entries laid out in `a` consecutive blocks of `b` entries has entry `i * b + j` at offset `j` of
  block `i`; so a sum over all `N` entries is the sum over the blocks of the sum over the offsets. Cutting twice
  (`N = a * b * c`: blocks of rows of lanes) gives a triple sum with entry `(t * b + r) * c + l` at lane `l` of row `r` of
  block `t`. The sums are in any commutative monoid: only the order and grouping of the terms change.
-/
import Mathlib.Algebra.BigOperators.Fin
import Mathlib.Logic.Equiv.Fin.Basic
import Idealize.ShloMosaic.Lib.ValueIdx

noncomputable section

open scoped BigOperators

namespace Cert.Lib.BlockSum

open Idealize.ShloMosaic Idealize.ShloMosaic.ValueIdx

/-- Offset `j` of block `i`, of `a` blocks of length `b`, is a position below `a * b`. -/
theorem blockPos_lt {a b N : ℕ} (hN : a * b = N) (i : Fin a) (j : Fin b) : i.val * b + j.val < N := by
  subst hN
  calc i.val * b + j.val < i.val * b + b := by have := j.isLt; omega
    _ = (i.val + 1) * b := by ring
    _ ≤ a * b := Nat.mul_le_mul_right b i.isLt

/-- A sum over `a * b` positions is the sum over the `a` blocks of the sum over the `b` offsets. -/
theorem sum_fin_blocks {A : Type*} [AddCommMonoid A] {a b N : ℕ} (hN : a * b = N) (f : Fin N → A) :
    ∑ k, f k = ∑ i : Fin a, ∑ j : Fin b, f ⟨i.val * b + j.val, blockPos_lt hN i j⟩ := by
  subst hN
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.mul_comm]; omega

/-- A rank-1 index set is its coordinate's range, so a sum over it is the sum over the coordinate. -/
theorem sum_idx1 {A : Type*} [AddCommMonoid A] {n : ℕ} (f : (⟨1, ![n]⟩ : Shape).Idx → A) :
    ∑ i, f i = ∑ k : Fin n, f (ix1 k) := by
  let e : (⟨1, ![n]⟩ : Shape).Idx ≃ Fin n :=
    { toFun := fun i => i 0, invFun := fun k => ix1 k, left_inv := fun i => (eq_ix1 i).symm, right_inv := fun _ => rfl }
  rw [← Equiv.sum_comp e.symm f]
  rfl

/-- Lane `l` of row `r` of block `t`, of `a` blocks of `b` rows of `c` lanes, is a position below `a * b * c`. -/
theorem lanePos_lt {a b c N : ℕ} (hN : a * b * c = N) (t : Fin a) (r : Fin b) (l : Fin c) :
    (t.val * b + r.val) * c + l.val < N :=
  blockPos_lt (a := a * b) hN ⟨t.val * b + r.val, blockPos_lt rfl t r⟩ l

/-- A sum over a one-axis index set of `a * b * c` entries is the triple sum over blocks, rows and lanes. -/
theorem sum_idx1_blocks {A : Type*} [AddCommMonoid A] {a b c N : ℕ} (hN : a * b * c = N)
    (f : (⟨1, ![N]⟩ : Shape).Idx → A) :
    ∑ i, f i = ∑ t : Fin a, ∑ r : Fin b, ∑ l : Fin c, f (ix1 ⟨(t.val * b + r.val) * c + l.val, lanePos_lt hN t r l⟩) := by
  rw [sum_idx1, sum_fin_blocks (a := a * b) (b := c) hN, sum_fin_blocks (a := a) (b := b) (N := a * b) rfl]

end Cert.Lib.BlockSum

end
-- ==== Proof.FiberSum.lean ====
/-
  The entries of one channel, summed in two orders.

  The indices (b, ch, r, w) of an 8 x 256 x 128 x 128 array with a given channel ch are the 8 · 128 · 128 triples
  (b, r, w). The reference sums over them as one set; the kernel sums over the lanes w, then the sixteen grid
  points u of the channel's tile (batch entry u / 2, row tile u mod 2), then the 64 rows h of a block — the same
  entries, since (u, h) ↦ (u / 2, (u mod 2) · 64 + h) runs over all (b, r) once. In any commutative monoid.
-/
import proofs.«148899_j15599321219646_2_alg».proof.Proof.LibBlockSum
import Idealize.ShloMosaic.Lib.ValueIdx
import Mathlib.Data.EReal.Basic
import Mathlib.Tactic.NormNum

noncomputable section

namespace Cert.FiberSum

open Idealize.ShloMosaic Idealize.ShloMosaic.ValueIdx Finset Cert.Lib.BlockSum

abbrev S4 : Shape := ⟨4, ![8, 256, 128, 128]⟩

variable {M : Type*} [AddCommMonoid M]

/-- An index of the array is its four coordinates. -/
def idxEquiv4 : S4.Idx ≃ Fin 8 × Fin 256 × Fin 128 × Fin 128 where
  toFun i := (i 0, i 1, i 2, i 3)
  invFun p := ix4 p.1 p.2.1 p.2.2.1 p.2.2.2
  left_inv i := (eq_ix4 i).symm
  right_inv _ := rfl

theorem sum_idx4 (f : S4.Idx → M) : ∑ i, f i = ∑ a : Fin 8, ∑ b : Fin 256, ∑ c : Fin 128, ∑ d : Fin 128, f (ix4 a b c d) := by
  rw [← Equiv.sum_comp idxEquiv4.symm f]
  simp only [Fintype.sum_prod_type]
  rfl

open Classical in
/-- The indices with channel `col`. -/
def fiber (col : Fin 256) : Finset S4.Idx := univ.filter (fun i : S4.Idx => i 1 = col)

open Classical in
theorem mem_fiber {col : Fin 256} {i : S4.Idx} : i ∈ fiber col ↔ i 1 = col := by
  unfold fiber; rw [Finset.mem_filter]; exact ⟨fun h => h.2, fun h => ⟨Finset.mem_univ _, h⟩⟩

open Classical in
/-- The sum over the indices with channel `col`, as the triple sum over batch entry, row and lane. -/
theorem fiber_sum (f : S4.Idx → M) (col : Fin 256) :
    ∑ i ∈ fiber col, f i
      = ∑ b : Fin 8, ∑ r : Fin 128, ∑ w : Fin 128, f (ix4 b col r w) := by
  unfold fiber
  rw [Finset.sum_filter, sum_idx4]
  refine Finset.sum_congr rfl fun a _ => ?_
  rw [Finset.sum_eq_single col]
  · exact Finset.sum_congr rfl fun c _ => Finset.sum_congr rfl fun d _ => if_pos rfl
  · intro b _ hb
    exact Finset.sum_eq_zero fun c _ => Finset.sum_eq_zero fun d _ => if_neg (fun h => hb h)
  · intro h; exact absurd (Finset.mem_univ col) h

/-- An entry named by natural numbers in range (zero out of range). -/
def at4 (Z : S4.Idx → EReal) (b ch r w : ℕ) : EReal :=
  if h : b < 8 ∧ ch < 256 ∧ r < 128 ∧ w < 128 then Z (ix4 ⟨b, h.1⟩ ⟨ch, h.2.1⟩ ⟨r, h.2.2.1⟩ ⟨w, h.2.2.2⟩) else 0

theorem at4_fin (Z : S4.Idx → EReal) (b : Fin 8) (ch : Fin 256) (r : Fin 128) (w : Fin 128) :
    at4 Z b.val ch.val r.val w.val = Z (ix4 b ch r w) := by
  unfold at4; rw [dif_pos ⟨b.isLt, ch.isLt, r.isLt, w.isLt⟩]

/-- The kernel's order of summation over one channel's entries is the triple sum over batch entry, row and lane. -/
theorem kernel_order (g : EReal → M) (Z : S4.Idx → EReal) (col : Fin 256) :
    ∑ w : Fin 128, ∑ u : Fin 16, ∑ h : Fin 64, g (at4 Z (u.val / 2) col.val (u.val % 2 * 64 + h.val) w.val)
      = ∑ b : Fin 8, ∑ r : Fin 128, ∑ w : Fin 128, g (Z (ix4 b col r w)) := by
  have step : ∀ w : Fin 128,
      ∑ u : Fin 16, ∑ h : Fin 64, g (at4 Z (u.val / 2) col.val (u.val % 2 * 64 + h.val) w.val)
        = ∑ b : Fin 8, ∑ r : Fin 128, g (Z (ix4 b col r w)) := by
    intro w
    rw [sum_fin_blocks (a := 8) (b := 2) (N := 16) rfl]
    refine Finset.sum_congr rfl fun b _ => ?_
    rw [sum_fin_blocks (a := 2) (b := 64) (N := 128) rfl (fun r => g (Z (ix4 b col r w)))]
    refine Finset.sum_congr rfl fun e _ => Finset.sum_congr rfl fun h _ => ?_
    have he := e.isLt; have hb := b.isLt; have hh := h.isLt
    have e1 : (b.val * 2 + e.val) / 2 = b.val := by omega
    have e2 : (b.val * 2 + e.val) % 2 = e.val := by omega
    show g (at4 Z ((b.val * 2 + e.val) / 2) col.val ((b.val * 2 + e.val) % 2 * 64 + h.val) w.val) = _
    rw [e1, e2]
    exact congrArg g (at4_fin Z b col ⟨e.val * 64 + h.val, by omega⟩ w)
  simp only [step]
  rw [Finset.sum_comm]
  refine Finset.sum_congr rfl fun b _ => ?_
  rw [Finset.sum_comm]

/-- A channel has 8 · 128 · 128 = 131072 entries. -/
theorem fiber_card (col : Fin 256) : ((fiber col).card : ℝ) = 131072 := by
  have h : (fiber col).card = 131072 := by
    rw [Finset.card_eq_sum_ones, fiber_sum (fun _ => 1) col]
    simp
  rw [h]; norm_num

end Cert.FiberSum

end
-- ==== Proof.KiIdx.lean ====
/-
  The region's table, entry by entry, over the extended reals.

  A row sum, a lane sum and a block's dropped unit axis read at an index; a window's block at a point as a slice
  of its argument array (channel tile, batch entry and row tile from the point's coordinates); and so each
  accumulator's gain at a point as a sum over the block's 64 rows of a power of an argument's entry.
-/
import proofs.«148899_j15599321219646_2_alg».proof.Proof.KiTable
import Idealize.ShloMosaic.PureOps.Ideal.Laws
import proofs.«148899_j15599321219646_2_alg».proof.Proof.FiberSum

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.FiberSum

theorem rowSum_apply (P : FVec Ideal S128x64x128 .f32) (q w : Fin 128) :
    rowSum (F := Ideal) P (ix2 q w) = ∑ h : Fin 64, P (ix3 q h w) := by
  unfold rowSum
  refine (Ideal.multiReduction_add_single P 0x00000000#32 reduces_S128x64x128_S128x128 (.inl rfl) rfl (ix2 q w)).trans ?_
  refine Finset.sum_congr rfl fun h _ => congrArg P ?_
  funext a
  match a with
  | ⟨0, _⟩ => rfl
  | ⟨1, _⟩ => rfl
  | ⟨2, _⟩ => rfl

theorem laneSum_apply (A : FVec Ideal S128x128 .f32) (q : Fin 128) :
    laneSum (F := Ideal) A (ix1 q) = ∑ w : Fin 128, A (ix2 q w) := by
  unfold laneSum
  refine (Ideal.multiReduction_add_single A 0x00000000#32 reduces_S128x128_S128 (.inl rfl) rfl (ix1 q)).trans ?_
  refine Finset.sum_congr rfl fun w _ => congrArg A ?_
  funext a
  match a with
  | ⟨0, _⟩ => rfl
  | ⟨1, _⟩ => rfl

theorem blk3_apply (z : Vec Ideal S1x128x64x128 .f32) (q : Fin 128) (h : Fin 64) (w : Fin 128) :
    blk3 (F := Ideal) z (ix3 q h w) = z (ix4 (0 : Fin 1) q h w) := by
  unfold blk3
  exact shapeCast_1abc_abc_apply z _ q h w

/-- What a point adds to each accumulator, at an entry: the sum over the block's rows of a power of the entry. -/
theorem termOf_apply_0 (x0 x1 : Vec Ideal S1x128x64x128 .f32) (q w : Fin 128) :
    termOf (F := Ideal) x0 x1 0 (ix2 q w) = ∑ h : Fin 64, x0 (ix4 (0 : Fin 1) q h w) := by
  show rowSum (F := Ideal) (blk3 x0) (ix2 q w) = _
  refine (rowSum_apply _ q w).trans (Finset.sum_congr rfl fun h _ => ?_)
  simp only [mulf_apply, blk3_apply]
theorem termOf_apply_1 (x0 x1 : Vec Ideal S1x128x64x128 .f32) (q w : Fin 128) :
    termOf (F := Ideal) x0 x1 1 (ix2 q w) = ∑ h : Fin 64, x0 (ix4 (0 : Fin 1) q h w) * x0 (ix4 (0 : Fin 1) q h w) := by
  show rowSum (F := Ideal) (mulf (blk3 x0) (blk3 x0)) (ix2 q w) = _
  refine (rowSum_apply _ q w).trans (Finset.sum_congr rfl fun h _ => ?_)
  simp only [mulf_apply, blk3_apply]
theorem termOf_apply_2 (x0 x1 : Vec Ideal S1x128x64x128 .f32) (q w : Fin 128) :
    termOf (F := Ideal) x0 x1 2 (ix2 q w) = ∑ h : Fin 64, x0 (ix4 (0 : Fin 1) q h w) * x0 (ix4 (0 : Fin 1) q h w) * x0 (ix4 (0 : Fin 1) q h w) := by
  show rowSum (F := Ideal) (mulf (mulf (blk3 x0) (blk3 x0)) (blk3 x0)) (ix2 q w) = _
  refine (rowSum_apply _ q w).trans (Finset.sum_congr rfl fun h _ => ?_)
  simp only [mulf_apply, blk3_apply]
theorem termOf_apply_3 (x0 x1 : Vec Ideal S1x128x64x128 .f32) (q w : Fin 128) :
    termOf (F := Ideal) x0 x1 3 (ix2 q w) = ∑ h : Fin 64, x0 (ix4 (0 : Fin 1) q h w) * x0 (ix4 (0 : Fin 1) q h w) * x0 (ix4 (0 : Fin 1) q h w) * x0 (ix4 (0 : Fin 1) q h w) := by
  show rowSum (F := Ideal) (mulf (mulf (mulf (blk3 x0) (blk3 x0)) (blk3 x0)) (blk3 x0)) (ix2 q w) = _
  refine (rowSum_apply _ q w).trans (Finset.sum_congr rfl fun h _ => ?_)
  simp only [mulf_apply, blk3_apply]
theorem termOf_apply_4 (x0 x1 : Vec Ideal S1x128x64x128 .f32) (q w : Fin 128) :
    termOf (F := Ideal) x0 x1 4 (ix2 q w) = ∑ h : Fin 64, x0 (ix4 (0 : Fin 1) q h w) * x0 (ix4 (0 : Fin 1) q h w) * x0 (ix4 (0 : Fin 1) q h w) * x0 (ix4 (0 : Fin 1) q h w) * x0 (ix4 (0 : Fin 1) q h w) := by
  show rowSum (F := Ideal) (mulf (mulf (mulf (mulf (blk3 x0) (blk3 x0)) (blk3 x0)) (blk3 x0)) (blk3 x0)) (ix2 q w) = _
  refine (rowSum_apply _ q w).trans (Finset.sum_congr rfl fun h _ => ?_)
  simp only [mulf_apply, blk3_apply]
theorem termOf_apply_5 (x0 x1 : Vec Ideal S1x128x64x128 .f32) (q w : Fin 128) :
    termOf (F := Ideal) x0 x1 5 (ix2 q w) = ∑ h : Fin 64, x1 (ix4 (0 : Fin 1) q h w) := by
  show rowSum (F := Ideal) (blk3 x1) (ix2 q w) = _
  refine (rowSum_apply _ q w).trans (Finset.sum_congr rfl fun h _ => ?_)
  simp only [mulf_apply, blk3_apply]
theorem termOf_apply_6 (x0 x1 : Vec Ideal S1x128x64x128 .f32) (q w : Fin 128) :
    termOf (F := Ideal) x0 x1 6 (ix2 q w) = ∑ h : Fin 64, x1 (ix4 (0 : Fin 1) q h w) * x1 (ix4 (0 : Fin 1) q h w) := by
  show rowSum (F := Ideal) (mulf (blk3 x1) (blk3 x1)) (ix2 q w) = _
  refine (rowSum_apply _ q w).trans (Finset.sum_congr rfl fun h _ => ?_)
  simp only [mulf_apply, blk3_apply]
theorem termOf_apply_7 (x0 x1 : Vec Ideal S1x128x64x128 .f32) (q w : Fin 128) :
    termOf (F := Ideal) x0 x1 7 (ix2 q w) = ∑ h : Fin 64, x1 (ix4 (0 : Fin 1) q h w) * x1 (ix4 (0 : Fin 1) q h w) * x1 (ix4 (0 : Fin 1) q h w) := by
  show rowSum (F := Ideal) (mulf (mulf (blk3 x1) (blk3 x1)) (blk3 x1)) (ix2 q w) = _
  refine (rowSum_apply _ q w).trans (Finset.sum_congr rfl fun h _ => ?_)
  simp only [mulf_apply, blk3_apply]
theorem termOf_apply_8 (x0 x1 : Vec Ideal S1x128x64x128 .f32) (q w : Fin 128) :
    termOf (F := Ideal) x0 x1 8 (ix2 q w) = ∑ h : Fin 64, x1 (ix4 (0 : Fin 1) q h w) * x1 (ix4 (0 : Fin 1) q h w) * x1 (ix4 (0 : Fin 1) q h w) * x1 (ix4 (0 : Fin 1) q h w) := by
  show rowSum (F := Ideal) (mulf (mulf (mulf (blk3 x1) (blk3 x1)) (blk3 x1)) (blk3 x1)) (ix2 q w) = _
  refine (rowSum_apply _ q w).trans (Finset.sum_congr rfl fun h _ => ?_)
  simp only [mulf_apply, blk3_apply]
theorem termOf_apply_9 (x0 x1 : Vec Ideal S1x128x64x128 .f32) (q w : Fin 128) :
    termOf (F := Ideal) x0 x1 9 (ix2 q w) = ∑ h : Fin 64, x1 (ix4 (0 : Fin 1) q h w) * x1 (ix4 (0 : Fin 1) q h w) * x1 (ix4 (0 : Fin 1) q h w) * x1 (ix4 (0 : Fin 1) q h w) * x1 (ix4 (0 : Fin 1) q h w) := by
  show rowSum (F := Ideal) (mulf (mulf (mulf (mulf (blk3 x1) (blk3 x1)) (blk3 x1)) (blk3 x1)) (blk3 x1)) (ix2 q w) = _
  refine (rowSum_apply _ q w).trans (Finset.sum_congr rfl fun h _ => ?_)
  simp only [mulf_apply, blk3_apply]

/-- The index maps of the two input windows over the grid: batch entry, channel tile, row tile. -/
theorem idx_facts01 : ∀ t : Fin cfg0.N,
    win0_0.index t (0 : Fin 4) = t.val % 16 / 2 ∧ win0_0.index t (1 : Fin 4) = t.val / 16 ∧ win0_0.index t (2 : Fin 4) = t.val % 2 ∧ win0_0.index t (3 : Fin 4) = 0
    ∧ win0_1.index t (0 : Fin 4) = t.val % 16 / 2 ∧ win0_1.index t (1 : Fin 4) = t.val / 16 ∧ win0_1.index t (2 : Fin 4) = t.val % 2 ∧ win0_1.index t (3 : Fin 4) = 0 :=
  (by decide +kernel : ∀ t : Fin grid0.N, _)

/-- Window 0's block at a point, at an entry: x at (batch entry, 128·tile + q, 64·row tile + h, w). -/
theorem iblk0_apply (m : (ℓ : Loc nD τ sig) → Buf (Elt Ideal) ℓ) (c : Dev nD) (t : Fin cfg0.N) (q : Fin 128) (h : Fin 64) (w : Fin 128) :
    iblk m c 0 t (ix4 (0 : Fin 1) q h w) = at4 (V m c main_arg0) (t.val % 16 / 2) (t.val / 16 * 128 + q.val) (t.val % 2 * 64 + h.val) w.val := by
  obtain ⟨e0, e1, e2, e3, -, -, -, -⟩ := idx_facts01 t
  have hN : t.val < 32 := lt_of_lt_of_eq t.isLt (show cfg0.N = 32 from N_0)
  have hq := q.isLt; have hh := h.isLt; have hw := w.isLt
  unfold at4
  rw [dif_pos ⟨by omega, by omega, by omega, by omega⟩]
  unfold iblk
  rw [View.read_apply]
  show V m c main_arg0 _ = V m c main_arg0 _
  congr 1
  funext a
  apply Fin.ext
  match a with
  | ⟨0, _⟩ => show win0_0.index t (0 : Fin 4) * 1 + 1 * 0 = t.val % 16 / 2; omega
  | ⟨1, _⟩ => show win0_0.index t (1 : Fin 4) * 128 + 1 * q.val = t.val / 16 * 128 + q.val; omega
  | ⟨2, _⟩ => show win0_0.index t (2 : Fin 4) * 64 + 1 * h.val = t.val % 2 * 64 + h.val; omega
  | ⟨3, _⟩ => show win0_0.index t (3 : Fin 4) * 128 + 1 * w.val = w.val; omega

/-- Window 1's block likewise, of the target. -/
theorem iblk1_apply (m : (ℓ : Loc nD τ sig) → Buf (Elt Ideal) ℓ) (c : Dev nD) (t : Fin cfg0.N) (q : Fin 128) (h : Fin 64) (w : Fin 128) :
    iblk m c 1 t (ix4 (0 : Fin 1) q h w) = at4 (V m c main_arg1) (t.val % 16 / 2) (t.val / 16 * 128 + q.val) (t.val % 2 * 64 + h.val) w.val := by
  obtain ⟨-, -, -, -, e0, e1, e2, e3⟩ := idx_facts01 t
  have hN : t.val < 32 := lt_of_lt_of_eq t.isLt (show cfg0.N = 32 from N_0)
  have hq := q.isLt; have hh := h.isLt; have hw := w.isLt
  unfold at4
  rw [dif_pos ⟨by omega, by omega, by omega, by omega⟩]
  unfold iblk
  rw [View.read_apply]
  show V m c main_arg1 _ = V m c main_arg1 _
  congr 1
  funext a
  apply Fin.ext
  match a with
  | ⟨0, _⟩ => show win0_1.index t (0 : Fin 4) * 1 + 1 * 0 = t.val % 16 / 2; omega
  | ⟨1, _⟩ => show win0_1.index t (1 : Fin 4) * 128 + 1 * q.val = t.val / 16 * 128 + q.val; omega
  | ⟨2, _⟩ => show win0_1.index t (2 : Fin 4) * 64 + 1 * h.val = t.val % 2 * 64 + h.val; omega
  | ⟨3, _⟩ => show win0_1.index t (3 : Fin 4) * 128 + 1 * w.val = w.val; omega

/-! ## The running sums and the table, at an entry -/

variable (m : (ℓ : Loc nD τ sig) → Buf (Elt Ideal) ℓ)

/-- What the point at position n adds to accumulator k (nothing past the grid). -/
def tAt (c : Dev nD) (k : Fin 10) (n : ℕ) : FVec Ideal S128x128 .f32 :=
  if h : n < cfg0.N then termOf (iblk m c 0 ⟨n, h⟩) (iblk m c 1 ⟨n, h⟩) k else zero128

theorem tAt_eq (c : Dev nD) (k : Fin 10) (n : ℕ) (hn : n < cfg0.N) :
    tAt m c k n = termOf (iblk m c 0 ⟨n, hn⟩) (iblk m c 1 ⟨n, hn⟩) k := by
  unfold tAt; rw [dif_pos hn]

theorem zero128_apply (i : S128x128.Idx) : zero128 (F := Ideal) i = 0 := by
  unfold zero128
  exact Ideal.ofBits_zero_f32

/-- The running sum at an entry: the sum of the tile's points so far. -/
theorem running_apply (c : Dev nD) (k : Fin 10) : ∀ (n : ℕ) (hn : n < cfg0.N) (q w : Fin 128),
    running m c k n hn (ix2 q w) = ∑ u ∈ Finset.range (n % 16 + 1), tAt m c k (16 * (n / 16) + u) (ix2 q w)
  | 0, hn, q, w => by
    show (addf zero128 (termOf (iblk m c 0 ⟨0, hn⟩) (iblk m c 1 ⟨0, hn⟩) k)) (ix2 q w) = _
    rw [addf_apply, zero128_apply, zero_add]
    show _ = ∑ u ∈ Finset.range 1, tAt m c k (16 * 0 + u) (ix2 q w)
    rw [Finset.sum_range_one, tAt_eq m c k _ hn]
  | n + 1, hn, q, w => by
    have hN : n + 1 < 32 := lt_of_lt_of_eq hn (show cfg0.N = 32 from N_0)
    have e : running m c k (n + 1) hn = if (n + 1) % 16 = 0 then addf zero128 (termOf (iblk m c 0 ⟨n + 1, hn⟩) (iblk m c 1 ⟨n + 1, hn⟩) k)
        else addf (running m c k n (Nat.lt_of_succ_lt hn)) (termOf (iblk m c 0 ⟨n + 1, hn⟩) (iblk m c 1 ⟨n + 1, hn⟩) k) := rfl
    rw [e]
    by_cases h0 : (n + 1) % 16 = 0
    · rw [if_pos h0, addf_apply, zero128_apply, zero_add, h0]
      show _ = ∑ u ∈ Finset.range 1, _
      rw [Finset.sum_range_one, show 16 * ((n + 1) / 16) + 0 = n + 1 from by omega, tAt_eq m c k _ hn]
    · rw [if_neg h0, addf_apply, running_apply c k n _ q w]
      have e1 : (n + 1) % 16 = n % 16 + 1 := by omega
      have e2 : (n + 1) / 16 = n / 16 := by omega
      rw [e1, e2, Finset.sum_range_succ _ (n % 16 + 1)]
      congr 1
      rw [show 16 * (n / 16) + (n % 16 + 1) = n + 1 from by omega, tAt_eq m c k _ hn]

/-- A table entry: over the lanes, over the sixteen points of the channel's tile. -/
theorem table_apply (c : Dev nD) (r : Fin 10) (col : Fin 256) :
    table (F := Ideal) m c (ix2 r col)
      = ∑ w : Fin 128, ∑ u : Fin 16, tAt m c r (16 * (col.val / 128) + u.val) (ix2 (⟨col.val % 128, Nat.mod_lt _ (by decide)⟩ : Fin 128) w) := by
  have hcol := col.isLt
  have hn : 16 * (col.val / 128) + 15 < cfg0.N := by rw [show cfg0.N = 32 from N_0]; omega
  show laneSum (runningN m c r (16 * (col.val / 128) + 15)) (ix1 (⟨col.val % 128, _⟩ : Fin 128)) = _
  rw [runningN_eq m c r _ hn, laneSum_apply]
  refine Finset.sum_congr rfl fun w _ => ?_
  rw [running_apply m c r _ hn]
  rw [show (16 * (col.val / 128) + 15) % 16 + 1 = 16 from by omega, show 16 * ((16 * (col.val / 128) + 15) / 16) = 16 * (col.val / 128) from by omega]
  exact Finset.sum_range fun u => tAt m c r (16 * (col.val / 128) + u) (ix2 _ w)

/-- Row 0 of the table at channel `col`: the kernel-order sum of the entries of the first argument. -/
theorem table_entry_0 (m : (ℓ : Loc nD τ sig) → Buf (Elt Ideal) ℓ) (c : Dev nD) (col : Fin 256) :
    table (F := Ideal) m c (ix2 (0 : Fin 10) col)
      = ∑ w : Fin 128, ∑ u : Fin 16, ∑ h : Fin 64, (at4 (V m c main_arg0) (u.val / 2) col.val (u.val % 2 * 64 + h.val) w.val) := by
  rw [table_apply]
  refine Finset.sum_congr rfl fun w _ => Finset.sum_congr rfl fun u _ => ?_
  have hcol := col.isLt; have hu := u.isLt
  have hn : 16 * (col.val / 128) + u.val < cfg0.N := by rw [show cfg0.N = 32 from N_0]; omega
  rw [tAt_eq m c _ _ hn, termOf_apply_0]
  refine Finset.sum_congr rfl fun h _ => ?_
  rw [iblk0_apply]
  have e1 : (16 * (col.val / 128) + u.val) % 16 / 2 = u.val / 2 := by omega
  have e2 : (16 * (col.val / 128) + u.val) / 16 * 128 + col.val % 128 = col.val := by omega
  have e3 : (16 * (col.val / 128) + u.val) % 2 = u.val % 2 := by omega
  show (at4 (V m c main_arg0) ((16 * (col.val / 128) + u.val) % 16 / 2) ((16 * (col.val / 128) + u.val) / 16 * 128 + col.val % 128) ((16 * (col.val / 128) + u.val) % 2 * 64 + h.val) w.val) = _
  rw [e1, e2, e3]

/-- Row 1 of the table at channel `col`: the kernel-order sum of the entries' powers of order 2 of the first argument. -/
theorem table_entry_1 (m : (ℓ : Loc nD τ sig) → Buf (Elt Ideal) ℓ) (c : Dev nD) (col : Fin 256) :
    table (F := Ideal) m c (ix2 (1 : Fin 10) col)
      = ∑ w : Fin 128, ∑ u : Fin 16, ∑ h : Fin 64, (at4 (V m c main_arg0) (u.val / 2) col.val (u.val % 2 * 64 + h.val) w.val) * (at4 (V m c main_arg0) (u.val / 2) col.val (u.val % 2 * 64 + h.val) w.val) := by
  rw [table_apply]
  refine Finset.sum_congr rfl fun w _ => Finset.sum_congr rfl fun u _ => ?_
  have hcol := col.isLt; have hu := u.isLt
  have hn : 16 * (col.val / 128) + u.val < cfg0.N := by rw [show cfg0.N = 32 from N_0]; omega
  rw [tAt_eq m c _ _ hn, termOf_apply_1]
  refine Finset.sum_congr rfl fun h _ => ?_
  rw [iblk0_apply]
  have e1 : (16 * (col.val / 128) + u.val) % 16 / 2 = u.val / 2 := by omega
  have e2 : (16 * (col.val / 128) + u.val) / 16 * 128 + col.val % 128 = col.val := by omega
  have e3 : (16 * (col.val / 128) + u.val) % 2 = u.val % 2 := by omega
  show (at4 (V m c main_arg0) ((16 * (col.val / 128) + u.val) % 16 / 2) ((16 * (col.val / 128) + u.val) / 16 * 128 + col.val % 128) ((16 * (col.val / 128) + u.val) % 2 * 64 + h.val) w.val) * (at4 (V m c main_arg0) ((16 * (col.val / 128) + u.val) % 16 / 2) ((16 * (col.val / 128) + u.val) / 16 * 128 + col.val % 128) ((16 * (col.val / 128) + u.val) % 2 * 64 + h.val) w.val) = _
  rw [e1, e2, e3]

/-- Row 2 of the table at channel `col`: the kernel-order sum of the entries' powers of order 3 of the first argument. -/
theorem table_entry_2 (m : (ℓ : Loc nD τ sig) → Buf (Elt Ideal) ℓ) (c : Dev nD) (col : Fin 256) :
    table (F := Ideal) m c (ix2 (2 : Fin 10) col)
      = ∑ w : Fin 128, ∑ u : Fin 16, ∑ h : Fin 64, (at4 (V m c main_arg0) (u.val / 2) col.val (u.val % 2 * 64 + h.val) w.val) * (at4 (V m c main_arg0) (u.val / 2) col.val (u.val % 2 * 64 + h.val) w.val) * (at4 (V m c main_arg0) (u.val / 2) col.val (u.val % 2 * 64 + h.val) w.val) := by
  rw [table_apply]
  refine Finset.sum_congr rfl fun w _ => Finset.sum_congr rfl fun u _ => ?_
  have hcol := col.isLt; have hu := u.isLt
  have hn : 16 * (col.val / 128) + u.val < cfg0.N := by rw [show cfg0.N = 32 from N_0]; omega
  rw [tAt_eq m c _ _ hn, termOf_apply_2]
  refine Finset.sum_congr rfl fun h _ => ?_
  rw [iblk0_apply]
  have e1 : (16 * (col.val / 128) + u.val) % 16 / 2 = u.val / 2 := by omega
  have e2 : (16 * (col.val / 128) + u.val) / 16 * 128 + col.val % 128 = col.val := by omega
  have e3 : (16 * (col.val / 128) + u.val) % 2 = u.val % 2 := by omega
  show (at4 (V m c main_arg0) ((16 * (col.val / 128) + u.val) % 16 / 2) ((16 * (col.val / 128) + u.val) / 16 * 128 + col.val % 128) ((16 * (col.val / 128) + u.val) % 2 * 64 + h.val) w.val) * (at4 (V m c main_arg0) ((16 * (col.val / 128) + u.val) % 16 / 2) ((16 * (col.val / 128) + u.val) / 16 * 128 + col.val % 128) ((16 * (col.val / 128) + u.val) % 2 * 64 + h.val) w.val) * (at4 (V m c main_arg0) ((16 * (col.val / 128) + u.val) % 16 / 2) ((16 * (col.val / 128) + u.val) / 16 * 128 + col.val % 128) ((16 * (col.val / 128) + u.val) % 2 * 64 + h.val) w.val) = _
  rw [e1, e2, e3]

/-- Row 3 of the table at channel `col`: the kernel-order sum of the entries' powers of order 4 of the first argument. -/
theorem table_entry_3 (m : (ℓ : Loc nD τ sig) → Buf (Elt Ideal) ℓ) (c : Dev nD) (col : Fin 256) :
    table (F := Ideal) m c (ix2 (3 : Fin 10) col)
      = ∑ w : Fin 128, ∑ u : Fin 16, ∑ h : Fin 64, (at4 (V m c main_arg0) (u.val / 2) col.val (u.val % 2 * 64 + h.val) w.val) * (at4 (V m c main_arg0) (u.val / 2) col.val (u.val % 2 * 64 + h.val) w.val) * (at4 (V m c main_arg0) (u.val / 2) col.val (u.val % 2 * 64 + h.val) w.val) * (at4 (V m c main_arg0) (u.val / 2) col.val (u.val % 2 * 64 + h.val) w.val) := by
  rw [table_apply]
  refine Finset.sum_congr rfl fun w _ => Finset.sum_congr rfl fun u _ => ?_
  have hcol := col.isLt; have hu := u.isLt
  have hn : 16 * (col.val / 128) + u.val < cfg0.N := by rw [show cfg0.N = 32 from N_0]; omega
  rw [tAt_eq m c _ _ hn, termOf_apply_3]
  refine Finset.sum_congr rfl fun h _ => ?_
  rw [iblk0_apply]
  have e1 : (16 * (col.val / 128) + u.val) % 16 / 2 = u.val / 2 := by omega
  have e2 : (16 * (col.val / 128) + u.val) / 16 * 128 + col.val % 128 = col.val := by omega
  have e3 : (16 * (col.val / 128) + u.val) % 2 = u.val % 2 := by omega
  show (at4 (V m c main_arg0) ((16 * (col.val / 128) + u.val) % 16 / 2) ((16 * (col.val / 128) + u.val) / 16 * 128 + col.val % 128) ((16 * (col.val / 128) + u.val) % 2 * 64 + h.val) w.val) * (at4 (V m c main_arg0) ((16 * (col.val / 128) + u.val) % 16 / 2) ((16 * (col.val / 128) + u.val) / 16 * 128 + col.val % 128) ((16 * (col.val / 128) + u.val) % 2 * 64 + h.val) w.val) * (at4 (V m c main_arg0) ((16 * (col.val / 128) + u.val) % 16 / 2) ((16 * (col.val / 128) + u.val) / 16 * 128 + col.val % 128) ((16 * (col.val / 128) + u.val) % 2 * 64 + h.val) w.val) * (at4 (V m c main_arg0) ((16 * (col.val / 128) + u.val) % 16 / 2) ((16 * (col.val / 128) + u.val) / 16 * 128 + col.val % 128) ((16 * (col.val / 128) + u.val) % 2 * 64 + h.val) w.val) = _
  rw [e1, e2, e3]

/-- Row 4 of the table at channel `col`: the kernel-order sum of the entries' powers of order 5 of the first argument. -/
theorem table_entry_4 (m : (ℓ : Loc nD τ sig) → Buf (Elt Ideal) ℓ) (c : Dev nD) (col : Fin 256) :
    table (F := Ideal) m c (ix2 (4 : Fin 10) col)
      = ∑ w : Fin 128, ∑ u : Fin 16, ∑ h : Fin 64, (at4 (V m c main_arg0) (u.val / 2) col.val (u.val % 2 * 64 + h.val) w.val) * (at4 (V m c main_arg0) (u.val / 2) col.val (u.val % 2 * 64 + h.val) w.val) * (at4 (V m c main_arg0) (u.val / 2) col.val (u.val % 2 * 64 + h.val) w.val) * (at4 (V m c main_arg0) (u.val / 2) col.val (u.val % 2 * 64 + h.val) w.val) * (at4 (V m c main_arg0) (u.val / 2) col.val (u.val % 2 * 64 + h.val) w.val) := by
  rw [table_apply]
  refine Finset.sum_congr rfl fun w _ => Finset.sum_congr rfl fun u _ => ?_
  have hcol := col.isLt; have hu := u.isLt
  have hn : 16 * (col.val / 128) + u.val < cfg0.N := by rw [show cfg0.N = 32 from N_0]; omega
  rw [tAt_eq m c _ _ hn, termOf_apply_4]
  refine Finset.sum_congr rfl fun h _ => ?_
  rw [iblk0_apply]
  have e1 : (16 * (col.val / 128) + u.val) % 16 / 2 = u.val / 2 := by omega
  have e2 : (16 * (col.val / 128) + u.val) / 16 * 128 + col.val % 128 = col.val := by omega
  have e3 : (16 * (col.val / 128) + u.val) % 2 = u.val % 2 := by omega
  show (at4 (V m c main_arg0) ((16 * (col.val / 128) + u.val) % 16 / 2) ((16 * (col.val / 128) + u.val) / 16 * 128 + col.val % 128) ((16 * (col.val / 128) + u.val) % 2 * 64 + h.val) w.val) * (at4 (V m c main_arg0) ((16 * (col.val / 128) + u.val) % 16 / 2) ((16 * (col.val / 128) + u.val) / 16 * 128 + col.val % 128) ((16 * (col.val / 128) + u.val) % 2 * 64 + h.val) w.val) * (at4 (V m c main_arg0) ((16 * (col.val / 128) + u.val) % 16 / 2) ((16 * (col.val / 128) + u.val) / 16 * 128 + col.val % 128) ((16 * (col.val / 128) + u.val) % 2 * 64 + h.val) w.val) * (at4 (V m c main_arg0) ((16 * (col.val / 128) + u.val) % 16 / 2) ((16 * (col.val / 128) + u.val) / 16 * 128 + col.val % 128) ((16 * (col.val / 128) + u.val) % 2 * 64 + h.val) w.val) * (at4 (V m c main_arg0) ((16 * (col.val / 128) + u.val) % 16 / 2) ((16 * (col.val / 128) + u.val) / 16 * 128 + col.val % 128) ((16 * (col.val / 128) + u.val) % 2 * 64 + h.val) w.val) = _
  rw [e1, e2, e3]

/-- Row 5 of the table at channel `col`: the kernel-order sum of the entries of the second argument. -/
theorem table_entry_5 (m : (ℓ : Loc nD τ sig) → Buf (Elt Ideal) ℓ) (c : Dev nD) (col : Fin 256) :
    table (F := Ideal) m c (ix2 (5 : Fin 10) col)
      = ∑ w : Fin 128, ∑ u : Fin 16, ∑ h : Fin 64, (at4 (V m c main_arg1) (u.val / 2) col.val (u.val % 2 * 64 + h.val) w.val) := by
  rw [table_apply]
  refine Finset.sum_congr rfl fun w _ => Finset.sum_congr rfl fun u _ => ?_
  have hcol := col.isLt; have hu := u.isLt
  have hn : 16 * (col.val / 128) + u.val < cfg0.N := by rw [show cfg0.N = 32 from N_0]; omega
  rw [tAt_eq m c _ _ hn, termOf_apply_5]
  refine Finset.sum_congr rfl fun h _ => ?_
  rw [iblk1_apply]
  have e1 : (16 * (col.val / 128) + u.val) % 16 / 2 = u.val / 2 := by omega
  have e2 : (16 * (col.val / 128) + u.val) / 16 * 128 + col.val % 128 = col.val := by omega
  have e3 : (16 * (col.val / 128) + u.val) % 2 = u.val % 2 := by omega
  show (at4 (V m c main_arg1) ((16 * (col.val / 128) + u.val) % 16 / 2) ((16 * (col.val / 128) + u.val) / 16 * 128 + col.val % 128) ((16 * (col.val / 128) + u.val) % 2 * 64 + h.val) w.val) = _
  rw [e1, e2, e3]

/-- Row 6 of the table at channel `col`: the kernel-order sum of the entries' powers of order 2 of the second argument. -/
theorem table_entry_6 (m : (ℓ : Loc nD τ sig) → Buf (Elt Ideal) ℓ) (c : Dev nD) (col : Fin 256) :
    table (F := Ideal) m c (ix2 (6 : Fin 10) col)
      = ∑ w : Fin 128, ∑ u : Fin 16, ∑ h : Fin 64, (at4 (V m c main_arg1) (u.val / 2) col.val (u.val % 2 * 64 + h.val) w.val) * (at4 (V m c main_arg1) (u.val / 2) col.val (u.val % 2 * 64 + h.val) w.val) := by
  rw [table_apply]
  refine Finset.sum_congr rfl fun w _ => Finset.sum_congr rfl fun u _ => ?_
  have hcol := col.isLt; have hu := u.isLt
  have hn : 16 * (col.val / 128) + u.val < cfg0.N := by rw [show cfg0.N = 32 from N_0]; omega
  rw [tAt_eq m c _ _ hn, termOf_apply_6]
  refine Finset.sum_congr rfl fun h _ => ?_
  rw [iblk1_apply]
  have e1 : (16 * (col.val / 128) + u.val) % 16 / 2 = u.val / 2 := by omega
  have e2 : (16 * (col.val / 128) + u.val) / 16 * 128 + col.val % 128 = col.val := by omega
  have e3 : (16 * (col.val / 128) + u.val) % 2 = u.val % 2 := by omega
  show (at4 (V m c main_arg1) ((16 * (col.val / 128) + u.val) % 16 / 2) ((16 * (col.val / 128) + u.val) / 16 * 128 + col.val % 128) ((16 * (col.val / 128) + u.val) % 2 * 64 + h.val) w.val) * (at4 (V m c main_arg1) ((16 * (col.val / 128) + u.val) % 16 / 2) ((16 * (col.val / 128) + u.val) / 16 * 128 + col.val % 128) ((16 * (col.val / 128) + u.val) % 2 * 64 + h.val) w.val) = _
  rw [e1, e2, e3]

/-- Row 7 of the table at channel `col`: the kernel-order sum of the entries' powers of order 3 of the second argument. -/
theorem table_entry_7 (m : (ℓ : Loc nD τ sig) → Buf (Elt Ideal) ℓ) (c : Dev nD) (col : Fin 256) :
    table (F := Ideal) m c (ix2 (7 : Fin 10) col)
      = ∑ w : Fin 128, ∑ u : Fin 16, ∑ h : Fin 64, (at4 (V m c main_arg1) (u.val / 2) col.val (u.val % 2 * 64 + h.val) w.val) * (at4 (V m c main_arg1) (u.val / 2) col.val (u.val % 2 * 64 + h.val) w.val) * (at4 (V m c main_arg1) (u.val / 2) col.val (u.val % 2 * 64 + h.val) w.val) := by
  rw [table_apply]
  refine Finset.sum_congr rfl fun w _ => Finset.sum_congr rfl fun u _ => ?_
  have hcol := col.isLt; have hu := u.isLt
  have hn : 16 * (col.val / 128) + u.val < cfg0.N := by rw [show cfg0.N = 32 from N_0]; omega
  rw [tAt_eq m c _ _ hn, termOf_apply_7]
  refine Finset.sum_congr rfl fun h _ => ?_
  rw [iblk1_apply]
  have e1 : (16 * (col.val / 128) + u.val) % 16 / 2 = u.val / 2 := by omega
  have e2 : (16 * (col.val / 128) + u.val) / 16 * 128 + col.val % 128 = col.val := by omega
  have e3 : (16 * (col.val / 128) + u.val) % 2 = u.val % 2 := by omega
  show (at4 (V m c main_arg1) ((16 * (col.val / 128) + u.val) % 16 / 2) ((16 * (col.val / 128) + u.val) / 16 * 128 + col.val % 128) ((16 * (col.val / 128) + u.val) % 2 * 64 + h.val) w.val) * (at4 (V m c main_arg1) ((16 * (col.val / 128) + u.val) % 16 / 2) ((16 * (col.val / 128) + u.val) / 16 * 128 + col.val % 128) ((16 * (col.val / 128) + u.val) % 2 * 64 + h.val) w.val) * (at4 (V m c main_arg1) ((16 * (col.val / 128) + u.val) % 16 / 2) ((16 * (col.val / 128) + u.val) / 16 * 128 + col.val % 128) ((16 * (col.val / 128) + u.val) % 2 * 64 + h.val) w.val) = _
  rw [e1, e2, e3]

/-- Row 8 of the table at channel `col`: the kernel-order sum of the entries' powers of order 4 of the second argument. -/
theorem table_entry_8 (m : (ℓ : Loc nD τ sig) → Buf (Elt Ideal) ℓ) (c : Dev nD) (col : Fin 256) :
    table (F := Ideal) m c (ix2 (8 : Fin 10) col)
      = ∑ w : Fin 128, ∑ u : Fin 16, ∑ h : Fin 64, (at4 (V m c main_arg1) (u.val / 2) col.val (u.val % 2 * 64 + h.val) w.val) * (at4 (V m c main_arg1) (u.val / 2) col.val (u.val % 2 * 64 + h.val) w.val) * (at4 (V m c main_arg1) (u.val / 2) col.val (u.val % 2 * 64 + h.val) w.val) * (at4 (V m c main_arg1) (u.val / 2) col.val (u.val % 2 * 64 + h.val) w.val) := by
  rw [table_apply]
  refine Finset.sum_congr rfl fun w _ => Finset.sum_congr rfl fun u _ => ?_
  have hcol := col.isLt; have hu := u.isLt
  have hn : 16 * (col.val / 128) + u.val < cfg0.N := by rw [show cfg0.N = 32 from N_0]; omega
  rw [tAt_eq m c _ _ hn, termOf_apply_8]
  refine Finset.sum_congr rfl fun h _ => ?_
  rw [iblk1_apply]
  have e1 : (16 * (col.val / 128) + u.val) % 16 / 2 = u.val / 2 := by omega
  have e2 : (16 * (col.val / 128) + u.val) / 16 * 128 + col.val % 128 = col.val := by omega
  have e3 : (16 * (col.val / 128) + u.val) % 2 = u.val % 2 := by omega
  show (at4 (V m c main_arg1) ((16 * (col.val / 128) + u.val) % 16 / 2) ((16 * (col.val / 128) + u.val) / 16 * 128 + col.val % 128) ((16 * (col.val / 128) + u.val) % 2 * 64 + h.val) w.val) * (at4 (V m c main_arg1) ((16 * (col.val / 128) + u.val) % 16 / 2) ((16 * (col.val / 128) + u.val) / 16 * 128 + col.val % 128) ((16 * (col.val / 128) + u.val) % 2 * 64 + h.val) w.val) * (at4 (V m c main_arg1) ((16 * (col.val / 128) + u.val) % 16 / 2) ((16 * (col.val / 128) + u.val) / 16 * 128 + col.val % 128) ((16 * (col.val / 128) + u.val) % 2 * 64 + h.val) w.val) * (at4 (V m c main_arg1) ((16 * (col.val / 128) + u.val) % 16 / 2) ((16 * (col.val / 128) + u.val) / 16 * 128 + col.val % 128) ((16 * (col.val / 128) + u.val) % 2 * 64 + h.val) w.val) = _
  rw [e1, e2, e3]

/-- Row 9 of the table at channel `col`: the kernel-order sum of the entries' powers of order 5 of the second argument. -/
theorem table_entry_9 (m : (ℓ : Loc nD τ sig) → Buf (Elt Ideal) ℓ) (c : Dev nD) (col : Fin 256) :
    table (F := Ideal) m c (ix2 (9 : Fin 10) col)
      = ∑ w : Fin 128, ∑ u : Fin 16, ∑ h : Fin 64, (at4 (V m c main_arg1) (u.val / 2) col.val (u.val % 2 * 64 + h.val) w.val) * (at4 (V m c main_arg1) (u.val / 2) col.val (u.val % 2 * 64 + h.val) w.val) * (at4 (V m c main_arg1) (u.val / 2) col.val (u.val % 2 * 64 + h.val) w.val) * (at4 (V m c main_arg1) (u.val / 2) col.val (u.val % 2 * 64 + h.val) w.val) * (at4 (V m c main_arg1) (u.val / 2) col.val (u.val % 2 * 64 + h.val) w.val) := by
  rw [table_apply]
  refine Finset.sum_congr rfl fun w _ => Finset.sum_congr rfl fun u _ => ?_
  have hcol := col.isLt; have hu := u.isLt
  have hn : 16 * (col.val / 128) + u.val < cfg0.N := by rw [show cfg0.N = 32 from N_0]; omega
  rw [tAt_eq m c _ _ hn, termOf_apply_9]
  refine Finset.sum_congr rfl fun h _ => ?_
  rw [iblk1_apply]
  have e1 : (16 * (col.val / 128) + u.val) % 16 / 2 = u.val / 2 := by omega
  have e2 : (16 * (col.val / 128) + u.val) / 16 * 128 + col.val % 128 = col.val := by omega
  have e3 : (16 * (col.val / 128) + u.val) % 2 = u.val % 2 := by omega
  show (at4 (V m c main_arg1) ((16 * (col.val / 128) + u.val) % 16 / 2) ((16 * (col.val / 128) + u.val) / 16 * 128 + col.val % 128) ((16 * (col.val / 128) + u.val) % 2 * 64 + h.val) w.val) * (at4 (V m c main_arg1) ((16 * (col.val / 128) + u.val) % 16 / 2) ((16 * (col.val / 128) + u.val) / 16 * 128 + col.val % 128) ((16 * (col.val / 128) + u.val) % 2 * 64 + h.val) w.val) * (at4 (V m c main_arg1) ((16 * (col.val / 128) + u.val) % 16 / 2) ((16 * (col.val / 128) + u.val) / 16 * 128 + col.val % 128) ((16 * (col.val / 128) + u.val) % 2 * 64 + h.val) w.val) * (at4 (V m c main_arg1) ((16 * (col.val / 128) + u.val) % 16 / 2) ((16 * (col.val / 128) + u.val) / 16 * 128 + col.val % 128) ((16 * (col.val / 128) + u.val) % 2 * 64 + h.val) w.val) * (at4 (V m c main_arg1) ((16 * (col.val / 128) + u.val) % 16 / 2) ((16 * (col.val / 128) + u.val) / 16 * 128 + col.val % 128) ((16 * (col.val / 128) + u.val) % 2 * 64 + h.val) w.val) = _
  rw [e1, e2, e3]

end Cert.KernelIdeal.Fr

end
-- ==== Proof.AlgRows.lean ====
/-
  The host lines' formulas read at a channel, and each row of the table, at a channel, as the sum over the
  channel's entries of a power of the entry (the kernel's order of summation re-indexed).
-/
import proofs.«148899_j15599321219646_2_alg».proof.Proof.KiIdx
import proofs.«148899_j15599321219646_2_alg».proof.Proof.KiTail
import proofs.«148899_j15599321219646_2_alg».proof.Proof.FiberSum
import Idealize.ShloMosaic.Lib.ValueLayout

set_option maxRecDepth 16384

noncomputable section

namespace Cert.Proof.Algebraic

open Idealize.ShloMosaic Idealize.ShloMosaic.ValueIdx Idealize.ShloMosaic.TcCoe Idealize.SL.Sem Finset
open Cert.FiberSum
open Cert.KernelIdeal Cert.KernelIdeal.Gen Cert.KernelIdeal.Fr Cert.KernelIdeal.Tail

/-! ## The host lines' formulas at a channel -/

theorem bc_apply (w : BitVec 32) (i : S256.Idx) : bc (F := Ideal) w i = Ideal.ofBits .f32 w :=
  broadcastInDim_apply _ _ _ i (fun a => a.elim0) (fun a => a.elim0)

theorem row_apply_0 (raw : FVec Ideal S10x256 .f32) (q : Fin 256) : r0 (F := Ideal) raw (ix1 q) = raw (ix2 (0 : Fin 10) q) := by
  unfold r0
  rw [shapeCast_1a_a_apply]
  show raw _ = raw _
  congr 1
  funext a
  apply Fin.ext
  match a with
  | ⟨0, _⟩ => rfl
  | ⟨1, _⟩ => show 0 + q.val = q.val; omega
theorem row_apply_1 (raw : FVec Ideal S10x256 .f32) (q : Fin 256) : r1 (F := Ideal) raw (ix1 q) = raw (ix2 (1 : Fin 10) q) := by
  unfold r1
  rw [shapeCast_1a_a_apply]
  show raw _ = raw _
  congr 1
  funext a
  apply Fin.ext
  match a with
  | ⟨0, _⟩ => rfl
  | ⟨1, _⟩ => show 0 + q.val = q.val; omega
theorem row_apply_2 (raw : FVec Ideal S10x256 .f32) (q : Fin 256) : r2 (F := Ideal) raw (ix1 q) = raw (ix2 (2 : Fin 10) q) := by
  unfold r2
  rw [shapeCast_1a_a_apply]
  show raw _ = raw _
  congr 1
  funext a
  apply Fin.ext
  match a with
  | ⟨0, _⟩ => rfl
  | ⟨1, _⟩ => show 0 + q.val = q.val; omega
theorem row_apply_3 (raw : FVec Ideal S10x256 .f32) (q : Fin 256) : r3 (F := Ideal) raw (ix1 q) = raw (ix2 (3 : Fin 10) q) := by
  unfold r3
  rw [shapeCast_1a_a_apply]
  show raw _ = raw _
  congr 1
  funext a
  apply Fin.ext
  match a with
  | ⟨0, _⟩ => rfl
  | ⟨1, _⟩ => show 0 + q.val = q.val; omega
theorem row_apply_4 (raw : FVec Ideal S10x256 .f32) (q : Fin 256) : r4 (F := Ideal) raw (ix1 q) = raw (ix2 (4 : Fin 10) q) := by
  unfold r4
  rw [shapeCast_1a_a_apply]
  show raw _ = raw _
  congr 1
  funext a
  apply Fin.ext
  match a with
  | ⟨0, _⟩ => rfl
  | ⟨1, _⟩ => show 0 + q.val = q.val; omega
theorem row_apply_5 (raw : FVec Ideal S10x256 .f32) (q : Fin 256) : r5 (F := Ideal) raw (ix1 q) = raw (ix2 (5 : Fin 10) q) := by
  unfold r5
  rw [shapeCast_1a_a_apply]
  show raw _ = raw _
  congr 1
  funext a
  apply Fin.ext
  match a with
  | ⟨0, _⟩ => rfl
  | ⟨1, _⟩ => show 0 + q.val = q.val; omega
theorem row_apply_6 (raw : FVec Ideal S10x256 .f32) (q : Fin 256) : r6 (F := Ideal) raw (ix1 q) = raw (ix2 (6 : Fin 10) q) := by
  unfold r6
  rw [shapeCast_1a_a_apply]
  show raw _ = raw _
  congr 1
  funext a
  apply Fin.ext
  match a with
  | ⟨0, _⟩ => rfl
  | ⟨1, _⟩ => show 0 + q.val = q.val; omega
theorem row_apply_7 (raw : FVec Ideal S10x256 .f32) (q : Fin 256) : r7 (F := Ideal) raw (ix1 q) = raw (ix2 (7 : Fin 10) q) := by
  unfold r7
  rw [shapeCast_1a_a_apply]
  show raw _ = raw _
  congr 1
  funext a
  apply Fin.ext
  match a with
  | ⟨0, _⟩ => rfl
  | ⟨1, _⟩ => show 0 + q.val = q.val; omega
theorem row_apply_8 (raw : FVec Ideal S10x256 .f32) (q : Fin 256) : r8 (F := Ideal) raw (ix1 q) = raw (ix2 (8 : Fin 10) q) := by
  unfold r8
  rw [shapeCast_1a_a_apply]
  show raw _ = raw _
  congr 1
  funext a
  apply Fin.ext
  match a with
  | ⟨0, _⟩ => rfl
  | ⟨1, _⟩ => show 0 + q.val = q.val; omega
theorem row_apply_9 (raw : FVec Ideal S10x256 .f32) (q : Fin 256) : r9 (F := Ideal) raw (ix1 q) = raw (ix2 (9 : Fin 10) q) := by
  unfold r9
  rw [shapeCast_1a_a_apply]
  show raw _ = raw _
  congr 1
  funext a
  apply Fin.ext
  match a with
  | ⟨0, _⟩ => rfl
  | ⟨1, _⟩ => show 0 + q.val = q.val; omega

theorem mean_apply (s : FVec Ideal S256 .f32) (i : S256.Idx) :
    mean (F := Ideal) s i = Ideal.div (s i) (Ideal.ofBits .f32 0x48000000#32) := by
  unfold mean
  show FloatOps.hostDivf (s i) (bc (F := Ideal) 0x48000000#32 i) = _
  rw [bc_apply]; rfl

theorem cm2_apply (mm s1 s2 : FVec Ideal S256 .f32) (i : S256.Idx) :
    cm2 (F := Ideal) mm s1 s2 i
      = Ideal.div ((((Ideal.ofBits .f32 0x00000000#32) + (((Ideal.ofBits .f32 0x3F800000#32) * ((-(mm i)) * (-(mm i)))) * (Ideal.ofBits .f32 0x48000000#32))) + (((Ideal.ofBits .f32 0x40000000#32) * (-(mm i))) * (s1 i))) + (((Ideal.ofBits .f32 0x3F800000#32) * (Ideal.ofBits .f32 0x3F800000#32)) * (s2 i))) (Ideal.ofBits .f32 0x48000000#32) := by
  unfold cm2 tm p2
  show FloatOps.hostDivf _ (bc (F := Ideal) 0x48000000#32 i) = _
  simp only [mulf_apply, addf_apply, bc_apply]
  rfl

theorem cm3_apply (mm s1 s2 s3 : FVec Ideal S256 .f32) (i : S256.Idx) :
    cm3 (F := Ideal) mm s1 s2 s3 i
      = Ideal.div (((((Ideal.ofBits .f32 0x00000000#32) + (((Ideal.ofBits .f32 0x3F800000#32) * (((-(mm i)) * (-(mm i))) * (-(mm i)))) * (Ideal.ofBits .f32 0x48000000#32))) + (((Ideal.ofBits .f32 0x40400000#32) * ((-(mm i)) * (-(mm i)))) * (s1 i))) + (((Ideal.ofBits .f32 0x40400000#32) * (-(mm i))) * (s2 i))) + (((Ideal.ofBits .f32 0x3F800000#32) * (Ideal.ofBits .f32 0x3F800000#32)) * (s3 i))) (Ideal.ofBits .f32 0x48000000#32) := by
  unfold cm3 tm p2 p3
  show FloatOps.hostDivf _ (bc (F := Ideal) 0x48000000#32 i) = _
  simp only [mulf_apply, addf_apply, bc_apply]
  rfl

theorem cm4_apply (mm s1 s2 s3 s4 : FVec Ideal S256 .f32) (i : S256.Idx) :
    cm4 (F := Ideal) mm s1 s2 s3 s4 i
      = Ideal.div ((((((Ideal.ofBits .f32 0x00000000#32) + (((Ideal.ofBits .f32 0x3F800000#32) * (((-(mm i)) * (-(mm i))) * ((-(mm i)) * (-(mm i))))) * (Ideal.ofBits .f32 0x48000000#32))) + (((Ideal.ofBits .f32 0x40800000#32) * (((-(mm i)) * (-(mm i))) * (-(mm i)))) * (s1 i))) + (((Ideal.ofBits .f32 0x40C00000#32) * ((-(mm i)) * (-(mm i)))) * (s2 i))) + (((Ideal.ofBits .f32 0x40800000#32) * (-(mm i))) * (s3 i))) + (((Ideal.ofBits .f32 0x3F800000#32) * (Ideal.ofBits .f32 0x3F800000#32)) * (s4 i))) (Ideal.ofBits .f32 0x48000000#32) := by
  unfold cm4 tm p2 p3 p4
  show FloatOps.hostDivf _ (bc (F := Ideal) 0x48000000#32 i) = _
  simp only [mulf_apply, addf_apply, bc_apply]
  rfl

theorem cm5_apply (mm s1 s2 s3 s4 s5 : FVec Ideal S256 .f32) (i : S256.Idx) :
    cm5 (F := Ideal) mm s1 s2 s3 s4 s5 i
      = Ideal.div (((((((Ideal.ofBits .f32 0x00000000#32) + (((Ideal.ofBits .f32 0x3F800000#32) * ((-(mm i)) * (((-(mm i)) * (-(mm i))) * ((-(mm i)) * (-(mm i)))))) * (Ideal.ofBits .f32 0x48000000#32))) + (((Ideal.ofBits .f32 0x40A00000#32) * (((-(mm i)) * (-(mm i))) * ((-(mm i)) * (-(mm i))))) * (s1 i))) + (((Ideal.ofBits .f32 0x41200000#32) * (((-(mm i)) * (-(mm i))) * (-(mm i)))) * (s2 i))) + (((Ideal.ofBits .f32 0x41200000#32) * ((-(mm i)) * (-(mm i)))) * (s3 i))) + (((Ideal.ofBits .f32 0x40A00000#32) * (-(mm i))) * (s4 i))) + (((Ideal.ofBits .f32 0x3F800000#32) * (Ideal.ofBits .f32 0x3F800000#32)) * (s5 i))) (Ideal.ofBits .f32 0x48000000#32) := by
  unfold cm5 tm p2 p3 p4 p5
  show FloatOps.hostDivf _ (bc (F := Ideal) 0x48000000#32 i) = _
  simp only [mulf_apply, addf_apply, bc_apply]
  rfl

/-! ## The table's rows -/

variable (m : (ℓ : Loc Cert.KernelIdeal.nD Cert.KernelIdeal.τ Cert.KernelIdeal.sig) → Buf (Elt Ideal) ℓ) (c : Dev Cert.KernelIdeal.nD)

/-- The two arguments as the region finds them, as tables of extended reals. -/
abbrev argX : S4.Idx → EReal := V m c main_arg0
abbrev argT : S4.Idx → EReal := V m c main_arg1

theorem table_row_0 (q : Fin 256) :
    table (F := Ideal) m c (ix2 (0 : Fin 10) q) = ∑ i ∈ fiber q, ((argX m c) i) := by
  have h1 := kernel_order (fun e : EReal => e) (argX m c) q
  have h2 := fiber_sum (fun i => ((argX m c) i)) q
  beta_reduce at h1 h2
  rw [table_entry_0 m c q]
  exact h1.trans h2.symm
theorem table_row_1 (q : Fin 256) :
    table (F := Ideal) m c (ix2 (1 : Fin 10) q) = ∑ i ∈ fiber q, ((argX m c) i) * ((argX m c) i) := by
  have h1 := kernel_order (fun e : EReal => e * e) (argX m c) q
  have h2 := fiber_sum (fun i => ((argX m c) i) * ((argX m c) i)) q
  beta_reduce at h1 h2
  rw [table_entry_1 m c q]
  exact h1.trans h2.symm
theorem table_row_2 (q : Fin 256) :
    table (F := Ideal) m c (ix2 (2 : Fin 10) q) = ∑ i ∈ fiber q, ((argX m c) i) * ((argX m c) i) * ((argX m c) i) := by
  have h1 := kernel_order (fun e : EReal => e * e * e) (argX m c) q
  have h2 := fiber_sum (fun i => ((argX m c) i) * ((argX m c) i) * ((argX m c) i)) q
  beta_reduce at h1 h2
  rw [table_entry_2 m c q]
  exact h1.trans h2.symm
theorem table_row_3 (q : Fin 256) :
    table (F := Ideal) m c (ix2 (3 : Fin 10) q) = ∑ i ∈ fiber q, ((argX m c) i) * ((argX m c) i) * ((argX m c) i) * ((argX m c) i) := by
  have h1 := kernel_order (fun e : EReal => e * e * e * e) (argX m c) q
  have h2 := fiber_sum (fun i => ((argX m c) i) * ((argX m c) i) * ((argX m c) i) * ((argX m c) i)) q
  beta_reduce at h1 h2
  rw [table_entry_3 m c q]
  exact h1.trans h2.symm
theorem table_row_4 (q : Fin 256) :
    table (F := Ideal) m c (ix2 (4 : Fin 10) q) = ∑ i ∈ fiber q, ((argX m c) i) * ((argX m c) i) * ((argX m c) i) * ((argX m c) i) * ((argX m c) i) := by
  have h1 := kernel_order (fun e : EReal => e * e * e * e * e) (argX m c) q
  have h2 := fiber_sum (fun i => ((argX m c) i) * ((argX m c) i) * ((argX m c) i) * ((argX m c) i) * ((argX m c) i)) q
  beta_reduce at h1 h2
  rw [table_entry_4 m c q]
  exact h1.trans h2.symm
theorem table_row_5 (q : Fin 256) :
    table (F := Ideal) m c (ix2 (5 : Fin 10) q) = ∑ i ∈ fiber q, ((argT m c) i) := by
  have h1 := kernel_order (fun e : EReal => e) (argT m c) q
  have h2 := fiber_sum (fun i => ((argT m c) i)) q
  beta_reduce at h1 h2
  rw [table_entry_5 m c q]
  exact h1.trans h2.symm
theorem table_row_6 (q : Fin 256) :
    table (F := Ideal) m c (ix2 (6 : Fin 10) q) = ∑ i ∈ fiber q, ((argT m c) i) * ((argT m c) i) := by
  have h1 := kernel_order (fun e : EReal => e * e) (argT m c) q
  have h2 := fiber_sum (fun i => ((argT m c) i) * ((argT m c) i)) q
  beta_reduce at h1 h2
  rw [table_entry_6 m c q]
  exact h1.trans h2.symm
theorem table_row_7 (q : Fin 256) :
    table (F := Ideal) m c (ix2 (7 : Fin 10) q) = ∑ i ∈ fiber q, ((argT m c) i) * ((argT m c) i) * ((argT m c) i) := by
  have h1 := kernel_order (fun e : EReal => e * e * e) (argT m c) q
  have h2 := fiber_sum (fun i => ((argT m c) i) * ((argT m c) i) * ((argT m c) i)) q
  beta_reduce at h1 h2
  rw [table_entry_7 m c q]
  exact h1.trans h2.symm
theorem table_row_8 (q : Fin 256) :
    table (F := Ideal) m c (ix2 (8 : Fin 10) q) = ∑ i ∈ fiber q, ((argT m c) i) * ((argT m c) i) * ((argT m c) i) * ((argT m c) i) := by
  have h1 := kernel_order (fun e : EReal => e * e * e * e) (argT m c) q
  have h2 := fiber_sum (fun i => ((argT m c) i) * ((argT m c) i) * ((argT m c) i) * ((argT m c) i)) q
  beta_reduce at h1 h2
  rw [table_entry_8 m c q]
  exact h1.trans h2.symm
theorem table_row_9 (q : Fin 256) :
    table (F := Ideal) m c (ix2 (9 : Fin 10) q) = ∑ i ∈ fiber q, ((argT m c) i) * ((argT m c) i) * ((argT m c) i) * ((argT m c) i) * ((argT m c) i) := by
  have h1 := kernel_order (fun e : EReal => e * e * e * e * e) (argT m c) q
  have h2 := fiber_sum (fun i => ((argT m c) i) * ((argT m c) i) * ((argT m c) i) * ((argT m c) i) * ((argT m c) i)) q
  beta_reduce at h1 h2
  rw [table_entry_9 m c q]
  exact h1.trans h2.symm

end Cert.Proof.Algebraic

end
-- ==== Proof.RefSide.lean ====
/-
  The reference program's moments, channel by channel.

  The reference takes a table's mean per channel — (0 + the sum over the channel's 8 · 128 · 128 entries) / n —,
  subtracts it from every entry of the channel, and takes the same kind of quotient of the powers of those
  deviations. Read at a channel q, each such quotient is (0 + Σ over the entries with channel q) / n, and on
  those entries the subtracted mean is the channel's own.
-/
import proofs.«148899_j15599321219646_2_alg».proof.Proof.Gen.ReferenceIdeal.Read
import proofs.«148899_j15599321219646_2_alg».proof.Proof.FiberSum
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe Finset

variable {F : FTy → Type} [FloatOps F]

/-- The per-channel quotient: the sum over batch, rows and lanes, from zero, over n. -/
def chanMean (p : FVec F S8x256x128x128 .f32) : FVec F S256 .f32 :=
  Host.divf (Host.reduceAdd p (constant S_ .f32 0x00000000#32) reducesTo_S8x256x128x128_S256_d0_2_3 h_S_)
    (broadcastInDim S256 ![] bcast_S_S256 (constant S_ .f32 0x48000000#32))

/-- A table less its per-channel mean, the mean spread back over batch, rows and lanes. -/
def dev (x : FVec F S8x256x128x128 .f32) : FVec F S8x256x128x128 .f32 :=
  subf x (broadcastInDim S8x256x128x128 ![0, 1, 2, 3] bcast_S1x256x1x1_S8x256x128x128_0_1_2_3
    (shapeCast _ (chanMean x) shapeCasts_S256_S1x256x1x1))

/-- 1 · sqrt(Σ over the channels of (a − b)²). -/
def rmse (a b : FVec F S256 .f32) : FVec F S_ .f32 :=
  mulf (constant S_ .f32 0x3F800000#32) (Host.sqrt (Host.reduceAdd (mulf (subf a b) (subf a b)) (constant S_ .f32 0x00000000#32) reducesTo_S256_S_d0 h_S_))

/-- The result: the five orders' terms, added left to right; orders 2 … 5 through the moments of the deviations. -/
theorem result_shape (x0 x1 : FVec F S8x256x128x128 .f32) :
    val_main_v72 (F := F) x0 x1
      = addf (addf (addf (addf (val_main_v12 (F := F) x0 x1)
          (rmse (chanMean (mulf (dev x0) (dev x0))) (chanMean (mulf (dev x1) (dev x1)))))
          (rmse (chanMean (mulf (mulf (dev x0) (dev x0)) (dev x0))) (chanMean (mulf (mulf (dev x1) (dev x1)) (dev x1)))))
          (rmse (chanMean (mulf (mulf (mulf (dev x0) (dev x0)) (dev x0)) (dev x0))) (chanMean (mulf (mulf (mulf (dev x1) (dev x1)) (dev x1)) (dev x1)))))
          (rmse (chanMean (mulf (mulf (mulf (mulf (dev x0) (dev x0)) (dev x0)) (dev x0)) (dev x0))) (chanMean (mulf (mulf (mulf (mulf (dev x1) (dev x1)) (dev x1)) (dev x1)) (dev x1)))) := rfl

/-- The sum over batch, rows and lanes at channel q: the initial scalar plus the sum over the entries with channel q. -/
theorem reduce023_apply (p : FVec Ideal S8x256x128x128 .f32) (init : FVec Ideal S_ .f32) (q : Fin 256) :
    Host.reduceAdd (F := Ideal) p init reducesTo_S8x256x128x128_S256_d0_2_3 h_S_ (ix1 q)
      = init (Shape.Idx.first h_S_) + ∑ i ∈ Cert.FiberSum.fiber q, p i := by
  simp only [Host.reduceAdd, Ideal.hostReduceAdd_def]
  unfold Ideal.hostReduceAdd
  congr 1
  refine Finset.sum_congr (Finset.ext fun i => ?_) fun _ _ => rfl
  rw [Finset.mem_filter, Cert.FiberSum.mem_fiber]
  simp only [Finset.mem_univ, true_and]
  constructor
  · intro h
    have h0 := congrArg (fun j : S256.Idx => (j 0).val) h
    exact Fin.ext h0
  · intro h
    funext b
    match b with
    | ⟨0, _⟩ => exact Fin.ext (congrArg Fin.val h)

/-- The per-channel quotient at channel q. -/
theorem chanMean_apply (p : FVec Ideal S8x256x128x128 .f32) (q : Fin 256) :
    chanMean (F := Ideal) p (ix1 q)
      = Ideal.div (Ideal.ofBits .f32 0x00000000#32 + ∑ i ∈ Cert.FiberSum.fiber q, p i)
          (Ideal.ofBits .f32 0x48000000#32) := by
  unfold chanMean
  show FloatOps.hostDivf (Host.reduceAdd (F := Ideal) p _ _ _ (ix1 q)) (broadcastInDim S256 ![] bcast_S_S256 (constant (F := Ideal) S_ .f32 0x48000000#32) (ix1 q)) = _
  rw [reduce023_apply, broadcastInDim_apply _ bcast_S_S256 _ (ix1 q) (fun a => a.elim0) (fun a => a.elim0)]
  rfl

/-- The deviation at an entry: the entry less its channel's mean. -/
theorem dev_apply (x : FVec Ideal S8x256x128x128 .f32) (i : S8x256x128x128.Idx) :
    dev (F := Ideal) x i = x i - chanMean (F := Ideal) x (ix1 (i 1)) := by
  unfold dev
  show x i - broadcastInDim S8x256x128x128 ![0, 1, 2, 3] bcast_S1x256x1x1_S8x256x128x128_0_1_2_3 (shapeCast _ (chanMean (F := Ideal) x) shapeCasts_S256_S1x256x1x1) i = _
  rw [broadcastInDim_apply _ bcast_S1x256x1x1_S8x256x128x128_0_1_2_3 _ i (idx_main_v13 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)]
    | ⟨2, _⟩ => by show 0 = if (1 : Nat) = 1 then 0 else (i 2).val; rw [if_pos rfl]
    | ⟨3, _⟩ => by show 0 = if (1 : Nat) = 1 then 0 else (i 3).val; rw [if_pos rfl])]
  congr 1
  refine shapeCast_apply _ shapeCasts_S256_S1x256x1x1 _ (ix1 (i 1)) ?_
  rw [Shape.rowMajor_val_one, Shape.rowMajor_val_four]
  show (i 1).val = ((0 * 256 + (i 1).val) * 1 + 0) * 1 + 0
  omega

/-! ## The order-1 term: the means compared on a reshaped table -/

/-- An index of the 1 x 256 x 1 x 1 table is its channel. -/
def chanEquiv : S1x256x1x1.Idx ≃ S256.Idx where
  toFun i := ix1 (i 1)
  invFun j := ix4 (0 : Fin 1) (j 0) (0 : Fin 1) (0 : Fin 1)
  left_inv i := by
    funext a
    apply Fin.ext
    match a with
    | ⟨0, _⟩ => show 0 = (i 0).val; have h : (i 0).val < 1 := (i 0).isLt; omega
    | ⟨1, _⟩ => rfl
    | ⟨2, _⟩ => show 0 = (i 2).val; have h : (i 2).val < 1 := (i 2).isLt; omega
    | ⟨3, _⟩ => show 0 = (i 3).val; have h : (i 3).val < 1 := (i 3).isLt; omega
  right_inv j := (eq_ix1 j).symm

/-- A per-channel vector re-laid as 1 x 256 x 1 x 1, at an index: the vector at the index's channel. -/
theorem relaid_apply (v : FVec Ideal S256 .f32) (i : S1x256x1x1.Idx) :
    shapeCast S1x256x1x1 v shapeCasts_S256_S1x256x1x1 i = v (chanEquiv i) := by
  refine shapeCast_apply _ shapeCasts_S256_S1x256x1x1 _ (ix1 (i 1)) ?_
  rw [Shape.rowMajor_val_one, Shape.rowMajor_val_four]
  have h0 : (i 0).val < 1 := (i 0).isLt
  have h2 : (i 2).val < 1 := (i 2).isLt
  have h3 : (i 3).val < 1 := (i 3).isLt
  show (i 1).val = (((i 0).val * 256 + (i 1).val) * 1 + (i 2).val) * 1 + (i 3).val
  have e0 : (i 0).val = 0 := by omega
  have e2 : (i 2).val = 0 := by omega
  have e3 : (i 3).val = 0 := by omega
  rw [e0, e2, e3]; omega

/-- The reference's order-1 term is 1 · sqrt(Σ over the channels of (mean of x − mean of the target)²). -/
theorem v12_eq (x0 x1 : FVec Ideal S8x256x128x128 .f32) :
    val_main_v12 (F := Ideal) x0 x1 = rmse (chanMean x0) (chanMean x1) := by
  have hsum : Host.reduceAdd (F := Ideal) (mulf (subf (shapeCast S1x256x1x1 (chanMean x0) shapeCasts_S256_S1x256x1x1) (shapeCast S1x256x1x1 (chanMean x1) shapeCasts_S256_S1x256x1x1))
        (subf (shapeCast S1x256x1x1 (chanMean x0) shapeCasts_S256_S1x256x1x1) (shapeCast S1x256x1x1 (chanMean x1) shapeCasts_S256_S1x256x1x1)))
        (constant S_ .f32 0x00000000#32) reducesTo_S1x256x1x1_S_d0_1_2_3 h_S_
      = Host.reduceAdd (F := Ideal) (mulf (subf (chanMean x0) (chanMean x1)) (subf (chanMean x0) (chanMean x1)))
        (constant S_ .f32 0x00000000#32) reducesTo_S256_S_d0 h_S_ := by
    funext i
    simp only [Host.reduceAdd, Ideal.hostReduceAdd_def]
    rw [Ideal.hostReduceAdd_total reducesTo_S1x256x1x1_S_d0_1_2_3 (fun b => b.elim0),
      Ideal.hostReduceAdd_total reducesTo_S256_S_d0 (fun b => b.elim0)]
    congr 1
  show mulf (constant S_ .f32 0x3F800000#32) (Host.sqrt (Host.reduceAdd (F := Ideal) _ (constant S_ .f32 0x00000000#32) reducesTo_S1x256x1x1_S_d0_1_2_3 h_S_)) = _
  unfold rmse
  exact congrArg (fun v => mulf (constant S_ .f32 0x3F800000#32) (Host.sqrt v)) hsum

end Cert.ReferenceIdeal.RefValue

end
-- ==== Proof.LibCenteredMoments.lean ====
/-
  Centered moments from raw power sums.

  For real numbers x_i over a finite set s of indices and ANY real m, the sum over s of (x_i - m)^k is the
  binomial combination of the raw power sums S_j = Σ x_i^j (with S_0 = the number of indices):
      Σ (x_i - m)^k = Σ_j C(k, j) (-m)^(k-j) S_j,
  written out for k = 2, 3, 4, 5 with the powers as the left-nested products a program forms
  (p ← p * x). Nothing is assumed of m: it need not be the mean.

  Also: the coercion of a finite real sum into the extended reals is the sum of the coercions.
-/
import Mathlib.Data.EReal.Inv
import Mathlib.Algebra.BigOperators.Group.Finset.Basic
import Mathlib.Algebra.BigOperators.Ring.Finset
import Mathlib.Tactic.Ring

namespace Cert.Lib.CenteredMoments

open Finset

variable {ι : Type*}

/-- Order 2. -/
theorem centered2 (s : Finset ι) (x : ι → ℝ) (m : ℝ) :
    ∑ i ∈ s, (x i - m) * (x i - m)
      = (s.card : ℝ) * (m * m) + (-(2 * m)) * ∑ i ∈ s, x i + ∑ i ∈ s, x i * x i := by
  have h : ∀ i, (x i - m) * (x i - m) = m * m + (-(2 * m)) * x i + x i * x i := fun i => by ring
  simp only [h, sum_add_distrib, ← mul_sum, sum_const, nsmul_eq_mul] <;> ring

/-- Order 3. -/
theorem centered3 (s : Finset ι) (x : ι → ℝ) (m : ℝ) :
    ∑ i ∈ s, (x i - m) * (x i - m) * (x i - m)
      = (s.card : ℝ) * (-(m * m * m)) + (3 * (m * m)) * ∑ i ∈ s, x i + (-(3 * m)) * ∑ i ∈ s, x i * x i
        + ∑ i ∈ s, x i * x i * x i := by
  have h : ∀ i, (x i - m) * (x i - m) * (x i - m)
      = -(m * m * m) + (3 * (m * m)) * x i + (-(3 * m)) * (x i * x i) + x i * x i * x i := fun i => by ring
  simp only [h, sum_add_distrib, ← mul_sum, sum_const, nsmul_eq_mul] <;> ring

/-- Order 4. -/
theorem centered4 (s : Finset ι) (x : ι → ℝ) (m : ℝ) :
    ∑ i ∈ s, (x i - m) * (x i - m) * (x i - m) * (x i - m)
      = (s.card : ℝ) * (m * m * m * m) + (-(4 * (m * m * m))) * ∑ i ∈ s, x i + (6 * (m * m)) * ∑ i ∈ s, x i * x i
        + (-(4 * m)) * ∑ i ∈ s, x i * x i * x i + ∑ i ∈ s, x i * x i * x i * x i := by
  have h : ∀ i, (x i - m) * (x i - m) * (x i - m) * (x i - m)
      = m * m * m * m + (-(4 * (m * m * m))) * x i + (6 * (m * m)) * (x i * x i) + (-(4 * m)) * (x i * x i * x i)
        + x i * x i * x i * x i := fun i => by ring
  simp only [h, sum_add_distrib, ← mul_sum, sum_const, nsmul_eq_mul] <;> ring

/-- Order 5. -/
theorem centered5 (s : Finset ι) (x : ι → ℝ) (m : ℝ) :
    ∑ i ∈ s, (x i - m) * (x i - m) * (x i - m) * (x i - m) * (x i - m)
      = (s.card : ℝ) * (-(m * m * m * m * m)) + (5 * (m * m * m * m)) * ∑ i ∈ s, x i
        + (-(10 * (m * m * m))) * ∑ i ∈ s, x i * x i + (10 * (m * m)) * ∑ i ∈ s, x i * x i * x i
        + (-(5 * m)) * ∑ i ∈ s, x i * x i * x i * x i + ∑ i ∈ s, x i * x i * x i * x i * x i := by
  have h : ∀ i, (x i - m) * (x i - m) * (x i - m) * (x i - m) * (x i - m)
      = -(m * m * m * m * m) + (5 * (m * m * m * m)) * x i + (-(10 * (m * m * m))) * (x i * x i)
        + (10 * (m * m)) * (x i * x i * x i) + (-(5 * m)) * (x i * x i * x i * x i)
        + x i * x i * x i * x i * x i := fun i => by ring
  simp only [h, sum_add_distrib, ← mul_sum, sum_const, nsmul_eq_mul] <;> ring

/-- A finite sum of reals, coerced, is the sum of the coerced terms. -/
theorem coe_sum (s : Finset ι) (f : ι → ℝ) :
    ((∑ i ∈ s, f i : ℝ) : EReal) = ∑ i ∈ s, (f i : EReal) := by
  classical
  induction s using Finset.induction_on with
  | empty => simp
  | insert a s ha ih => rw [sum_insert ha, sum_insert ha, EReal.coe_add, ih]

end Cert.Lib.CenteredMoments
-- ==== Proof.Consts.lean ====
/-
  The float literals of the two programs, as the extended reals their patterns denote.
-/
import Idealize.ShloMosaic.PureOps.Ideal

noncomputable section

namespace Cert.Consts

open Idealize.ShloMosaic

theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_five : Ideal.ofBits .f32 0x40A00000#32 = ((5 : ℝ) : EReal) := by
  simp [Ideal.ofBits, Ideal.ieee, -EReal.coe_mul]; norm_num
theorem ofBits_six : Ideal.ofBits .f32 0x40C00000#32 = ((6 : ℝ) : EReal) := by
  simp [Ideal.ofBits, Ideal.ieee, -EReal.coe_mul]; norm_num
theorem ofBits_ten : Ideal.ofBits .f32 0x41200000#32 = ((10 : ℝ) : EReal) := by
  simp [Ideal.ofBits, Ideal.ieee, -EReal.coe_mul]; norm_num
/-- The element count 8 · 128 · 128 = 131072 = 2^17. -/
theorem ofBits_n : Ideal.ofBits .f32 0x48000000#32 = ((131072 : ℝ) : EReal) := by
  simp [Ideal.ofBits, Ideal.ieee, -EReal.coe_mul]; norm_num

end Cert.Consts

end
-- ==== Proof.MomentBridge.lean ====
/-
  One channel, one argument: the kernel's centered moment equals the reference's.

  For real entries z_i over a set s of 131072 indices, write S_j = Σ z_i^j (extended-real sums of coerced reals,
  the powers left-nested) and n = 131072. The kernel forms m = S_1 / n and
      ( C(k,0)·(-m)^k·n + C(k,1)·(-m)^(k-1)·S_1 + … + C(k,k)·(-m)^0·S_k ) / n
  in the arrangement its host lines spell; the reference forms its own mean (0 + Σ z_i) / n and
      ( 0 + Σ (z_i - mean)^k ) / n .
  Every quantity is a real number, so the extended-real expressions are coercions of real ones, and the real
  ones agree by the binomial expansion of (z_i - m)^k summed over s.
-/
import proofs.«148899_j15599321219646_2_alg».proof.Proof.LibCenteredMoments
import proofs.«148899_j15599321219646_2_alg».proof.Proof.Consts
import Idealize.ShloMosaic.PureOps.Ideal
import Idealize.ShloMosaic.PureOps.Ideal.Laws

noncomputable section

namespace Cert.MomentBridge

open Idealize.ShloMosaic Finset Cert.Lib.CenteredMoments Cert.Consts

variable {ι : Type*}

theorem n_ne : (131072 : ℝ) ≠ 0 := by norm_num

/-- The mean: the kernel's S_1 / n is the reference's (0 + Σ z_i) / n. -/
theorem bridge1 (s : Finset ι) (z : ι → ℝ) :
    Ideal.div (∑ i ∈ s, ((z i : ℝ) : EReal)) (Ideal.ofBits .f32 0x48000000#32) = (Ideal.div ((Ideal.ofBits .f32 0x00000000#32) + ∑ i ∈ s, ((z i : ℝ) : EReal)) (Ideal.ofBits .f32 0x48000000#32)) := by
  rw [Ideal.ofBits_zero_f32, zero_add]

set_option maxHeartbeats 4000000 in
/-- Order 2. -/
theorem bridge2 (s : Finset ι) (z : ι → ℝ) (hcard : (s.card : ℝ) = 131072) :
    Ideal.div ((((Ideal.ofBits .f32 0x00000000#32) + (((Ideal.ofBits .f32 0x3F800000#32) * ((-(Ideal.div (∑ i ∈ s, ((z i : ℝ) : EReal)) (Ideal.ofBits .f32 0x48000000#32))) * (-(Ideal.div (∑ i ∈ s, ((z i : ℝ) : EReal)) (Ideal.ofBits .f32 0x48000000#32))))) * (Ideal.ofBits .f32 0x48000000#32))) + (((Ideal.ofBits .f32 0x40000000#32) * (-(Ideal.div (∑ i ∈ s, ((z i : ℝ) : EReal)) (Ideal.ofBits .f32 0x48000000#32)))) * (∑ i ∈ s, ((z i : ℝ) : EReal)))) + (((Ideal.ofBits .f32 0x3F800000#32) * (Ideal.ofBits .f32 0x3F800000#32)) * (∑ i ∈ s, ((z i : ℝ) : EReal) * ((z i : ℝ) : EReal)))) (Ideal.ofBits .f32 0x48000000#32)
      = Ideal.div ((Ideal.ofBits .f32 0x00000000#32) + ∑ i ∈ s, (((z i : ℝ) : EReal) - (Ideal.div ((Ideal.ofBits .f32 0x00000000#32) + ∑ i ∈ s, ((z i : ℝ) : EReal)) (Ideal.ofBits .f32 0x48000000#32))) * (((z i : ℝ) : EReal) - (Ideal.div ((Ideal.ofBits .f32 0x00000000#32) + ∑ i ∈ s, ((z i : ℝ) : EReal)) (Ideal.ofBits .f32 0x48000000#32)))) (Ideal.ofBits .f32 0x48000000#32) := by
  simp only [ofBits_one, ofBits_two, ofBits_three, ofBits_four, ofBits_five, ofBits_six, ofBits_ten, ofBits_n, Ideal.ofBits_zero_f32,
    zero_add, Ideal.div_coe n_ne, ← EReal.coe_mul, ← coe_sum, ← EReal.coe_neg, ← EReal.coe_add, ← EReal.coe_sub]
  congr 1
  rw [centered2, hcard]
  ring

set_option maxHeartbeats 4000000 in
/-- Order 3. -/
theorem bridge3 (s : Finset ι) (z : ι → ℝ) (hcard : (s.card : ℝ) = 131072) :
    Ideal.div (((((Ideal.ofBits .f32 0x00000000#32) + (((Ideal.ofBits .f32 0x3F800000#32) * (((-(Ideal.div (∑ i ∈ s, ((z i : ℝ) : EReal)) (Ideal.ofBits .f32 0x48000000#32))) * (-(Ideal.div (∑ i ∈ s, ((z i : ℝ) : EReal)) (Ideal.ofBits .f32 0x48000000#32)))) * (-(Ideal.div (∑ i ∈ s, ((z i : ℝ) : EReal)) (Ideal.ofBits .f32 0x48000000#32))))) * (Ideal.ofBits .f32 0x48000000#32))) + (((Ideal.ofBits .f32 0x40400000#32) * ((-(Ideal.div (∑ i ∈ s, ((z i : ℝ) : EReal)) (Ideal.ofBits .f32 0x48000000#32))) * (-(Ideal.div (∑ i ∈ s, ((z i : ℝ) : EReal)) (Ideal.ofBits .f32 0x48000000#32))))) * (∑ i ∈ s, ((z i : ℝ) : EReal)))) + (((Ideal.ofBits .f32 0x40400000#32) * (-(Ideal.div (∑ i ∈ s, ((z i : ℝ) : EReal)) (Ideal.ofBits .f32 0x48000000#32)))) * (∑ i ∈ s, ((z i : ℝ) : EReal) * ((z i : ℝ) : EReal)))) + (((Ideal.ofBits .f32 0x3F800000#32) * (Ideal.ofBits .f32 0x3F800000#32)) * (∑ i ∈ s, ((z i : ℝ) : EReal) * ((z i : ℝ) : EReal) * ((z i : ℝ) : EReal)))) (Ideal.ofBits .f32 0x48000000#32)
      = Ideal.div ((Ideal.ofBits .f32 0x00000000#32) + ∑ i ∈ s, (((z i : ℝ) : EReal) - (Ideal.div ((Ideal.ofBits .f32 0x00000000#32) + ∑ i ∈ s, ((z i : ℝ) : EReal)) (Ideal.ofBits .f32 0x48000000#32))) * (((z i : ℝ) : EReal) - (Ideal.div ((Ideal.ofBits .f32 0x00000000#32) + ∑ i ∈ s, ((z i : ℝ) : EReal)) (Ideal.ofBits .f32 0x48000000#32))) * (((z i : ℝ) : EReal) - (Ideal.div ((Ideal.ofBits .f32 0x00000000#32) + ∑ i ∈ s, ((z i : ℝ) : EReal)) (Ideal.ofBits .f32 0x48000000#32)))) (Ideal.ofBits .f32 0x48000000#32) := by
  simp only [ofBits_one, ofBits_two, ofBits_three, ofBits_four, ofBits_five, ofBits_six, ofBits_ten, ofBits_n, Ideal.ofBits_zero_f32,
    zero_add, Ideal.div_coe n_ne, ← EReal.coe_mul, ← coe_sum, ← EReal.coe_neg, ← EReal.coe_add, ← EReal.coe_sub]
  congr 1
  rw [centered3, hcard]
  ring

set_option maxHeartbeats 4000000 in
/-- Order 4. -/
theorem bridge4 (s : Finset ι) (z : ι → ℝ) (hcard : (s.card : ℝ) = 131072) :
    Ideal.div ((((((Ideal.ofBits .f32 0x00000000#32) + (((Ideal.ofBits .f32 0x3F800000#32) * (((-(Ideal.div (∑ i ∈ s, ((z i : ℝ) : EReal)) (Ideal.ofBits .f32 0x48000000#32))) * (-(Ideal.div (∑ i ∈ s, ((z i : ℝ) : EReal)) (Ideal.ofBits .f32 0x48000000#32)))) * ((-(Ideal.div (∑ i ∈ s, ((z i : ℝ) : EReal)) (Ideal.ofBits .f32 0x48000000#32))) * (-(Ideal.div (∑ i ∈ s, ((z i : ℝ) : EReal)) (Ideal.ofBits .f32 0x48000000#32)))))) * (Ideal.ofBits .f32 0x48000000#32))) + (((Ideal.ofBits .f32 0x40800000#32) * (((-(Ideal.div (∑ i ∈ s, ((z i : ℝ) : EReal)) (Ideal.ofBits .f32 0x48000000#32))) * (-(Ideal.div (∑ i ∈ s, ((z i : ℝ) : EReal)) (Ideal.ofBits .f32 0x48000000#32)))) * (-(Ideal.div (∑ i ∈ s, ((z i : ℝ) : EReal)) (Ideal.ofBits .f32 0x48000000#32))))) * (∑ i ∈ s, ((z i : ℝ) : EReal)))) + (((Ideal.ofBits .f32 0x40C00000#32) * ((-(Ideal.div (∑ i ∈ s, ((z i : ℝ) : EReal)) (Ideal.ofBits .f32 0x48000000#32))) * (-(Ideal.div (∑ i ∈ s, ((z i : ℝ) : EReal)) (Ideal.ofBits .f32 0x48000000#32))))) * (∑ i ∈ s, ((z i : ℝ) : EReal) * ((z i : ℝ) : EReal)))) + (((Ideal.ofBits .f32 0x40800000#32) * (-(Ideal.div (∑ i ∈ s, ((z i : ℝ) : EReal)) (Ideal.ofBits .f32 0x48000000#32)))) * (∑ i ∈ s, ((z i : ℝ) : EReal) * ((z i : ℝ) : EReal) * ((z i : ℝ) : EReal)))) + (((Ideal.ofBits .f32 0x3F800000#32) * (Ideal.ofBits .f32 0x3F800000#32)) * (∑ i ∈ s, ((z i : ℝ) : EReal) * ((z i : ℝ) : EReal) * ((z i : ℝ) : EReal) * ((z i : ℝ) : EReal)))) (Ideal.ofBits .f32 0x48000000#32)
      = Ideal.div ((Ideal.ofBits .f32 0x00000000#32) + ∑ i ∈ s, (((z i : ℝ) : EReal) - (Ideal.div ((Ideal.ofBits .f32 0x00000000#32) + ∑ i ∈ s, ((z i : ℝ) : EReal)) (Ideal.ofBits .f32 0x48000000#32))) * (((z i : ℝ) : EReal) - (Ideal.div ((Ideal.ofBits .f32 0x00000000#32) + ∑ i ∈ s, ((z i : ℝ) : EReal)) (Ideal.ofBits .f32 0x48000000#32))) * (((z i : ℝ) : EReal) - (Ideal.div ((Ideal.ofBits .f32 0x00000000#32) + ∑ i ∈ s, ((z i : ℝ) : EReal)) (Ideal.ofBits .f32 0x48000000#32))) * (((z i : ℝ) : EReal) - (Ideal.div ((Ideal.ofBits .f32 0x00000000#32) + ∑ i ∈ s, ((z i : ℝ) : EReal)) (Ideal.ofBits .f32 0x48000000#32)))) (Ideal.ofBits .f32 0x48000000#32) := by
  simp only [ofBits_one, ofBits_two, ofBits_three, ofBits_four, ofBits_five, ofBits_six, ofBits_ten, ofBits_n, Ideal.ofBits_zero_f32,
    zero_add, Ideal.div_coe n_ne, ← EReal.coe_mul, ← coe_sum, ← EReal.coe_neg, ← EReal.coe_add, ← EReal.coe_sub]
  congr 1
  rw [centered4, hcard]
  ring

set_option maxHeartbeats 4000000 in
/-- Order 5. -/
theorem bridge5 (s : Finset ι) (z : ι → ℝ) (hcard : (s.card : ℝ) = 131072) :
    Ideal.div (((((((Ideal.ofBits .f32 0x00000000#32) + (((Ideal.ofBits .f32 0x3F800000#32) * ((-(Ideal.div (∑ i ∈ s, ((z i : ℝ) : EReal)) (Ideal.ofBits .f32 0x48000000#32))) * (((-(Ideal.div (∑ i ∈ s, ((z i : ℝ) : EReal)) (Ideal.ofBits .f32 0x48000000#32))) * (-(Ideal.div (∑ i ∈ s, ((z i : ℝ) : EReal)) (Ideal.ofBits .f32 0x48000000#32)))) * ((-(Ideal.div (∑ i ∈ s, ((z i : ℝ) : EReal)) (Ideal.ofBits .f32 0x48000000#32))) * (-(Ideal.div (∑ i ∈ s, ((z i : ℝ) : EReal)) (Ideal.ofBits .f32 0x48000000#32))))))) * (Ideal.ofBits .f32 0x48000000#32))) + (((Ideal.ofBits .f32 0x40A00000#32) * (((-(Ideal.div (∑ i ∈ s, ((z i : ℝ) : EReal)) (Ideal.ofBits .f32 0x48000000#32))) * (-(Ideal.div (∑ i ∈ s, ((z i : ℝ) : EReal)) (Ideal.ofBits .f32 0x48000000#32)))) * ((-(Ideal.div (∑ i ∈ s, ((z i : ℝ) : EReal)) (Ideal.ofBits .f32 0x48000000#32))) * (-(Ideal.div (∑ i ∈ s, ((z i : ℝ) : EReal)) (Ideal.ofBits .f32 0x48000000#32)))))) * (∑ i ∈ s, ((z i : ℝ) : EReal)))) + (((Ideal.ofBits .f32 0x41200000#32) * (((-(Ideal.div (∑ i ∈ s, ((z i : ℝ) : EReal)) (Ideal.ofBits .f32 0x48000000#32))) * (-(Ideal.div (∑ i ∈ s, ((z i : ℝ) : EReal)) (Ideal.ofBits .f32 0x48000000#32)))) * (-(Ideal.div (∑ i ∈ s, ((z i : ℝ) : EReal)) (Ideal.ofBits .f32 0x48000000#32))))) * (∑ i ∈ s, ((z i : ℝ) : EReal) * ((z i : ℝ) : EReal)))) + (((Ideal.ofBits .f32 0x41200000#32) * ((-(Ideal.div (∑ i ∈ s, ((z i : ℝ) : EReal)) (Ideal.ofBits .f32 0x48000000#32))) * (-(Ideal.div (∑ i ∈ s, ((z i : ℝ) : EReal)) (Ideal.ofBits .f32 0x48000000#32))))) * (∑ i ∈ s, ((z i : ℝ) : EReal) * ((z i : ℝ) : EReal) * ((z i : ℝ) : EReal)))) + (((Ideal.ofBits .f32 0x40A00000#32) * (-(Ideal.div (∑ i ∈ s, ((z i : ℝ) : EReal)) (Ideal.ofBits .f32 0x48000000#32)))) * (∑ i ∈ s, ((z i : ℝ) : EReal) * ((z i : ℝ) : EReal) * ((z i : ℝ) : EReal) * ((z i : ℝ) : EReal)))) + (((Ideal.ofBits .f32 0x3F800000#32) * (Ideal.ofBits .f32 0x3F800000#32)) * (∑ i ∈ s, ((z i : ℝ) : EReal) * ((z i : ℝ) : EReal) * ((z i : ℝ) : EReal) * ((z i : ℝ) : EReal) * ((z i : ℝ) : EReal)))) (Ideal.ofBits .f32 0x48000000#32)
      = Ideal.div ((Ideal.ofBits .f32 0x00000000#32) + ∑ i ∈ s, (((z i : ℝ) : EReal) - (Ideal.div ((Ideal.ofBits .f32 0x00000000#32) + ∑ i ∈ s, ((z i : ℝ) : EReal)) (Ideal.ofBits .f32 0x48000000#32))) * (((z i : ℝ) : EReal) - (Ideal.div ((Ideal.ofBits .f32 0x00000000#32) + ∑ i ∈ s, ((z i : ℝ) : EReal)) (Ideal.ofBits .f32 0x48000000#32))) * (((z i : ℝ) : EReal) - (Ideal.div ((Ideal.ofBits .f32 0x00000000#32) + ∑ i ∈ s, ((z i : ℝ) : EReal)) (Ideal.ofBits .f32 0x48000000#32))) * (((z i : ℝ) : EReal) - (Ideal.div ((Ideal.ofBits .f32 0x00000000#32) + ∑ i ∈ s, ((z i : ℝ) : EReal)) (Ideal.ofBits .f32 0x48000000#32))) * (((z i : ℝ) : EReal) - (Ideal.div ((Ideal.ofBits .f32 0x00000000#32) + ∑ i ∈ s, ((z i : ℝ) : EReal)) (Ideal.ofBits .f32 0x48000000#32)))) (Ideal.ofBits .f32 0x48000000#32) := by
  simp only [ofBits_one, ofBits_two, ofBits_three, ofBits_four, ofBits_five, ofBits_six, ofBits_ten, ofBits_n, Ideal.ofBits_zero_f32,
    zero_add, Ideal.div_coe n_ne, ← EReal.coe_mul, ← coe_sum, ← EReal.coe_neg, ← EReal.coe_add, ← EReal.coe_sub]
  congr 1
  rw [centered5, hcard]
  ring

end Cert.MomentBridge

end
-- ==== Proof.AlgChanX.lean ====
/-
  The first argument, channel by channel: the kernel's mean and centered moments of orders 2 … 5 are the
  reference's, when every entry of the argument is a real number.
-/
import proofs.«148899_j15599321219646_2_alg».proof.Proof.AlgRows
import proofs.«148899_j15599321219646_2_alg».proof.Proof.RefSide
import proofs.«148899_j15599321219646_2_alg».proof.Proof.MomentBridge

set_option maxRecDepth 16384

noncomputable section

namespace Cert.Proof.Algebraic

open Idealize.ShloMosaic Idealize.ShloMosaic.ValueIdx Idealize.ShloMosaic.TcCoe Idealize.SL.Sem Finset
open Cert.FiberSum
open Cert.KernelIdeal Cert.KernelIdeal.Gen Cert.KernelIdeal.Fr Cert.KernelIdeal.Tail

variable (m : (ℓ : Loc Cert.KernelIdeal.nD Cert.KernelIdeal.τ Cert.KernelIdeal.sig) → Buf (Elt Ideal) ℓ) (c : Dev Cert.KernelIdeal.nD)

/-- The mean. -/
theorem chan1_x : mean (F := Ideal) (r0 (table m c)) = Cert.ReferenceIdeal.RefValue.chanMean (F := Ideal) (argX m c) := by
  funext j
  obtain ⟨q, rfl⟩ : ∃ q : Fin 256, j = ix1 q := ⟨j 0, eq_ix1 j⟩
  rw [mean_apply, row_apply_0, table_row_0 m c q, Cert.ReferenceIdeal.RefValue.chanMean_apply, Ideal.ofBits_zero_f32, zero_add]

set_option maxHeartbeats 4000000 in
/-- Order 2: the kernel's centered moment is the reference's, at every channel. -/
theorem chan2_x (hZ : ∀ i, ∃ r : ℝ, (argX m c) i = (r : EReal)) :
    cm2 (F := Ideal) (mean (r0 (table m c))) (r0 (table m c)) (r1 (table m c)) = Cert.ReferenceIdeal.RefValue.chanMean (F := Ideal) (mulf (Cert.ReferenceIdeal.RefValue.dev (F := Ideal) (argX m c)) (Cert.ReferenceIdeal.RefValue.dev (F := Ideal) (argX m c))) := by
  funext j
  obtain ⟨q, rfl⟩ : ∃ q : Fin 256, j = ix1 q := ⟨j 0, eq_ix1 j⟩
  choose z hz using hZ
  have hdev : ∀ i ∈ fiber q, (mulf (Cert.ReferenceIdeal.RefValue.dev (F := Ideal) (argX m c)) (Cert.ReferenceIdeal.RefValue.dev (F := Ideal) (argX m c))) i = ((argX m c) i - (Ideal.div ((Ideal.ofBits .f32 0x00000000#32) + ∑ i ∈ fiber q, (argX m c) i) (Ideal.ofBits .f32 0x48000000#32))) * ((argX m c) i - (Ideal.div ((Ideal.ofBits .f32 0x00000000#32) + ∑ i ∈ fiber q, (argX m c) i) (Ideal.ofBits .f32 0x48000000#32))) := fun i hi => by
    show (Cert.ReferenceIdeal.RefValue.dev (F := Ideal) (argX m c) i) * (Cert.ReferenceIdeal.RefValue.dev (F := Ideal) (argX m c) i) = _
    rw [Cert.ReferenceIdeal.RefValue.dev_apply, mem_fiber.mp hi, Cert.ReferenceIdeal.RefValue.chanMean_apply]
  rw [cm2_apply, mean_apply, row_apply_0, table_row_0 m c q, row_apply_1, table_row_1 m c q]
  rw [Cert.ReferenceIdeal.RefValue.chanMean_apply, Finset.sum_congr rfl hdev]
  simp only [hz]
  exact Cert.MomentBridge.bridge2 (fiber q) z (fiber_card q)

set_option maxHeartbeats 4000000 in
/-- Order 3: the kernel's centered moment is the reference's, at every channel. -/
theorem chan3_x (hZ : ∀ i, ∃ r : ℝ, (argX m c) i = (r : EReal)) :
    cm3 (F := Ideal) (mean (r0 (table m c))) (r0 (table m c)) (r1 (table m c)) (r2 (table m c)) = Cert.ReferenceIdeal.RefValue.chanMean (F := Ideal) (mulf (mulf (Cert.ReferenceIdeal.RefValue.dev (F := Ideal) (argX m c)) (Cert.ReferenceIdeal.RefValue.dev (F := Ideal) (argX m c))) (Cert.ReferenceIdeal.RefValue.dev (F := Ideal) (argX m c))) := by
  funext j
  obtain ⟨q, rfl⟩ : ∃ q : Fin 256, j = ix1 q := ⟨j 0, eq_ix1 j⟩
  choose z hz using hZ
  have hdev : ∀ i ∈ fiber q, (mulf (mulf (Cert.ReferenceIdeal.RefValue.dev (F := Ideal) (argX m c)) (Cert.ReferenceIdeal.RefValue.dev (F := Ideal) (argX m c))) (Cert.ReferenceIdeal.RefValue.dev (F := Ideal) (argX m c))) i = ((argX m c) i - (Ideal.div ((Ideal.ofBits .f32 0x00000000#32) + ∑ i ∈ fiber q, (argX m c) i) (Ideal.ofBits .f32 0x48000000#32))) * ((argX m c) i - (Ideal.div ((Ideal.ofBits .f32 0x00000000#32) + ∑ i ∈ fiber q, (argX m c) i) (Ideal.ofBits .f32 0x48000000#32))) * ((argX m c) i - (Ideal.div ((Ideal.ofBits .f32 0x00000000#32) + ∑ i ∈ fiber q, (argX m c) i) (Ideal.ofBits .f32 0x48000000#32))) := fun i hi => by
    show (Cert.ReferenceIdeal.RefValue.dev (F := Ideal) (argX m c) i) * (Cert.ReferenceIdeal.RefValue.dev (F := Ideal) (argX m c) i) * (Cert.ReferenceIdeal.RefValue.dev (F := Ideal) (argX m c) i) = _
    rw [Cert.ReferenceIdeal.RefValue.dev_apply, mem_fiber.mp hi, Cert.ReferenceIdeal.RefValue.chanMean_apply]
  rw [cm3_apply, mean_apply, row_apply_0, table_row_0 m c q, row_apply_1, table_row_1 m c q, row_apply_2, table_row_2 m c q]
  rw [Cert.ReferenceIdeal.RefValue.chanMean_apply, Finset.sum_congr rfl hdev]
  simp only [hz]
  exact Cert.MomentBridge.bridge3 (fiber q) z (fiber_card q)

set_option maxHeartbeats 4000000 in
/-- Order 4: the kernel's centered moment is the reference's, at every channel. -/
theorem chan4_x (hZ : ∀ i, ∃ r : ℝ, (argX m c) i = (r : EReal)) :
    cm4 (F := Ideal) (mean (r0 (table m c))) (r0 (table m c)) (r1 (table m c)) (r2 (table m c)) (r3 (table m c)) = Cert.ReferenceIdeal.RefValue.chanMean (F := Ideal) (mulf (mulf (mulf (Cert.ReferenceIdeal.RefValue.dev (F := Ideal) (argX m c)) (Cert.ReferenceIdeal.RefValue.dev (F := Ideal) (argX m c))) (Cert.ReferenceIdeal.RefValue.dev (F := Ideal) (argX m c))) (Cert.ReferenceIdeal.RefValue.dev (F := Ideal) (argX m c))) := by
  funext j
  obtain ⟨q, rfl⟩ : ∃ q : Fin 256, j = ix1 q := ⟨j 0, eq_ix1 j⟩
  choose z hz using hZ
  have hdev : ∀ i ∈ fiber q, (mulf (mulf (mulf (Cert.ReferenceIdeal.RefValue.dev (F := Ideal) (argX m c)) (Cert.ReferenceIdeal.RefValue.dev (F := Ideal) (argX m c))) (Cert.ReferenceIdeal.RefValue.dev (F := Ideal) (argX m c))) (Cert.ReferenceIdeal.RefValue.dev (F := Ideal) (argX m c))) i = ((argX m c) i - (Ideal.div ((Ideal.ofBits .f32 0x00000000#32) + ∑ i ∈ fiber q, (argX m c) i) (Ideal.ofBits .f32 0x48000000#32))) * ((argX m c) i - (Ideal.div ((Ideal.ofBits .f32 0x00000000#32) + ∑ i ∈ fiber q, (argX m c) i) (Ideal.ofBits .f32 0x48000000#32))) * ((argX m c) i - (Ideal.div ((Ideal.ofBits .f32 0x00000000#32) + ∑ i ∈ fiber q, (argX m c) i) (Ideal.ofBits .f32 0x48000000#32))) * ((argX m c) i - (Ideal.div ((Ideal.ofBits .f32 0x00000000#32) + ∑ i ∈ fiber q, (argX m c) i) (Ideal.ofBits .f32 0x48000000#32))) := fun i hi => by
    show (Cert.ReferenceIdeal.RefValue.dev (F := Ideal) (argX m c) i) * (Cert.ReferenceIdeal.RefValue.dev (F := Ideal) (argX m c) i) * (Cert.ReferenceIdeal.RefValue.dev (F := Ideal) (argX m c) i) * (Cert.ReferenceIdeal.RefValue.dev (F := Ideal) (argX m c) i) = _
    rw [Cert.ReferenceIdeal.RefValue.dev_apply, mem_fiber.mp hi, Cert.ReferenceIdeal.RefValue.chanMean_apply]
  rw [cm4_apply, mean_apply, row_apply_0, table_row_0 m c q, row_apply_1, table_row_1 m c q, row_apply_2, table_row_2 m c q, row_apply_3, table_row_3 m c q]
  rw [Cert.ReferenceIdeal.RefValue.chanMean_apply, Finset.sum_congr rfl hdev]
  simp only [hz]
  exact Cert.MomentBridge.bridge4 (fiber q) z (fiber_card q)

set_option maxHeartbeats 4000000 in
/-- Order 5: the kernel's centered moment is the reference's, at every channel. -/
theorem chan5_x (hZ : ∀ i, ∃ r : ℝ, (argX m c) i = (r : EReal)) :
    cm5 (F := Ideal) (mean (r0 (table m c))) (r0 (table m c)) (r1 (table m c)) (r2 (table m c)) (r3 (table m c)) (r4 (table m c)) = Cert.ReferenceIdeal.RefValue.chanMean (F := Ideal) (mulf (mulf (mulf (mulf (Cert.ReferenceIdeal.RefValue.dev (F := Ideal) (argX m c)) (Cert.ReferenceIdeal.RefValue.dev (F := Ideal) (argX m c))) (Cert.ReferenceIdeal.RefValue.dev (F := Ideal) (argX m c))) (Cert.ReferenceIdeal.RefValue.dev (F := Ideal) (argX m c))) (Cert.ReferenceIdeal.RefValue.dev (F := Ideal) (argX m c))) := by
  funext j
  obtain ⟨q, rfl⟩ : ∃ q : Fin 256, j = ix1 q := ⟨j 0, eq_ix1 j⟩
  choose z hz using hZ
  have hdev : ∀ i ∈ fiber q, (mulf (mulf (mulf (mulf (Cert.ReferenceIdeal.RefValue.dev (F := Ideal) (argX m c)) (Cert.ReferenceIdeal.RefValue.dev (F := Ideal) (argX m c))) (Cert.ReferenceIdeal.RefValue.dev (F := Ideal) (argX m c))) (Cert.ReferenceIdeal.RefValue.dev (F := Ideal) (argX m c))) (Cert.ReferenceIdeal.RefValue.dev (F := Ideal) (argX m c))) i = ((argX m c) i - (Ideal.div ((Ideal.ofBits .f32 0x00000000#32) + ∑ i ∈ fiber q, (argX m c) i) (Ideal.ofBits .f32 0x48000000#32))) * ((argX m c) i - (Ideal.div ((Ideal.ofBits .f32 0x00000000#32) + ∑ i ∈ fiber q, (argX m c) i) (Ideal.ofBits .f32 0x48000000#32))) * ((argX m c) i - (Ideal.div ((Ideal.ofBits .f32 0x00000000#32) + ∑ i ∈ fiber q, (argX m c) i) (Ideal.ofBits .f32 0x48000000#32))) * ((argX m c) i - (Ideal.div ((Ideal.ofBits .f32 0x00000000#32) + ∑ i ∈ fiber q, (argX m c) i) (Ideal.ofBits .f32 0x48000000#32))) * ((argX m c) i - (Ideal.div ((Ideal.ofBits .f32 0x00000000#32) + ∑ i ∈ fiber q, (argX m c) i) (Ideal.ofBits .f32 0x48000000#32))) := fun i hi => by
    show (Cert.ReferenceIdeal.RefValue.dev (F := Ideal) (argX m c) i) * (Cert.ReferenceIdeal.RefValue.dev (F := Ideal) (argX m c) i) * (Cert.ReferenceIdeal.RefValue.dev (F := Ideal) (argX m c) i) * (Cert.ReferenceIdeal.RefValue.dev (F := Ideal) (argX m c) i) * (Cert.ReferenceIdeal.RefValue.dev (F := Ideal) (argX m c) i) = _
    rw [Cert.ReferenceIdeal.RefValue.dev_apply, mem_fiber.mp hi, Cert.ReferenceIdeal.RefValue.chanMean_apply]
  rw [cm5_apply, mean_apply, row_apply_0, table_row_0 m c q, row_apply_1, table_row_1 m c q, row_apply_2, table_row_2 m c q, row_apply_3, table_row_3 m c q, row_apply_4, table_row_4 m c q]
  rw [Cert.ReferenceIdeal.RefValue.chanMean_apply, Finset.sum_congr rfl hdev]
  simp only [hz]
  exact Cert.MomentBridge.bridge5 (fiber q) z (fiber_card q)

end Cert.Proof.Algebraic

end
-- ==== Proof.AlgChanT.lean ====
/-
  The second argument, channel by channel: the kernel's mean and centered moments of orders 2 … 5 are the
  reference's, when every entry of the argument is a real number.
-/
import proofs.«148899_j15599321219646_2_alg».proof.Proof.AlgRows
import proofs.«148899_j15599321219646_2_alg».proof.Proof.RefSide
import proofs.«148899_j15599321219646_2_alg».proof.Proof.MomentBridge

set_option maxRecDepth 16384

noncomputable section

namespace Cert.Proof.Algebraic

open Idealize.ShloMosaic Idealize.ShloMosaic.ValueIdx Idealize.ShloMosaic.TcCoe Idealize.SL.Sem Finset
open Cert.FiberSum
open Cert.KernelIdeal Cert.KernelIdeal.Gen Cert.KernelIdeal.Fr Cert.KernelIdeal.Tail

variable (m : (ℓ : Loc Cert.KernelIdeal.nD Cert.KernelIdeal.τ Cert.KernelIdeal.sig) → Buf (Elt Ideal) ℓ) (c : Dev Cert.KernelIdeal.nD)

/-- The mean. -/
theorem chan1_t : mean (F := Ideal) (r5 (table m c)) = Cert.ReferenceIdeal.RefValue.chanMean (F := Ideal) (argT m c) := by
  funext j
  obtain ⟨q, rfl⟩ : ∃ q : Fin 256, j = ix1 q := ⟨j 0, eq_ix1 j⟩
  rw [mean_apply, row_apply_5, table_row_5 m c q, Cert.ReferenceIdeal.RefValue.chanMean_apply, Ideal.ofBits_zero_f32, zero_add]

set_option maxHeartbeats 4000000 in
/-- Order 2: the kernel's centered moment is the reference's, at every channel. -/
theorem chan2_t (hZ : ∀ i, ∃ r : ℝ, (argT m c) i = (r : EReal)) :
    cm2 (F := Ideal) (mean (r5 (table m c))) (r5 (table m c)) (r6 (table m c)) = Cert.ReferenceIdeal.RefValue.chanMean (F := Ideal) (mulf (Cert.ReferenceIdeal.RefValue.dev (F := Ideal) (argT m c)) (Cert.ReferenceIdeal.RefValue.dev (F := Ideal) (argT m c))) := by
  funext j
  obtain ⟨q, rfl⟩ : ∃ q : Fin 256, j = ix1 q := ⟨j 0, eq_ix1 j⟩
  choose z hz using hZ
  have hdev : ∀ i ∈ fiber q, (mulf (Cert.ReferenceIdeal.RefValue.dev (F := Ideal) (argT m c)) (Cert.ReferenceIdeal.RefValue.dev (F := Ideal) (argT m c))) i = ((argT m c) i - (Ideal.div ((Ideal.ofBits .f32 0x00000000#32) + ∑ i ∈ fiber q, (argT m c) i) (Ideal.ofBits .f32 0x48000000#32))) * ((argT m c) i - (Ideal.div ((Ideal.ofBits .f32 0x00000000#32) + ∑ i ∈ fiber q, (argT m c) i) (Ideal.ofBits .f32 0x48000000#32))) := fun i hi => by
    show (Cert.ReferenceIdeal.RefValue.dev (F := Ideal) (argT m c) i) * (Cert.ReferenceIdeal.RefValue.dev (F := Ideal) (argT m c) i) = _
    rw [Cert.ReferenceIdeal.RefValue.dev_apply, mem_fiber.mp hi, Cert.ReferenceIdeal.RefValue.chanMean_apply]
  rw [cm2_apply, mean_apply, row_apply_5, table_row_5 m c q, row_apply_6, table_row_6 m c q]
  rw [Cert.ReferenceIdeal.RefValue.chanMean_apply, Finset.sum_congr rfl hdev]
  simp only [hz]
  exact Cert.MomentBridge.bridge2 (fiber q) z (fiber_card q)

set_option maxHeartbeats 4000000 in
/-- Order 3: the kernel's centered moment is the reference's, at every channel. -/
theorem chan3_t (hZ : ∀ i, ∃ r : ℝ, (argT m c) i = (r : EReal)) :
    cm3 (F := Ideal) (mean (r5 (table m c))) (r5 (table m c)) (r6 (table m c)) (r7 (table m c)) = Cert.ReferenceIdeal.RefValue.chanMean (F := Ideal) (mulf (mulf (Cert.ReferenceIdeal.RefValue.dev (F := Ideal) (argT m c)) (Cert.ReferenceIdeal.RefValue.dev (F := Ideal) (argT m c))) (Cert.ReferenceIdeal.RefValue.dev (F := Ideal) (argT m c))) := by
  funext j
  obtain ⟨q, rfl⟩ : ∃ q : Fin 256, j = ix1 q := ⟨j 0, eq_ix1 j⟩
  choose z hz using hZ
  have hdev : ∀ i ∈ fiber q, (mulf (mulf (Cert.ReferenceIdeal.RefValue.dev (F := Ideal) (argT m c)) (Cert.ReferenceIdeal.RefValue.dev (F := Ideal) (argT m c))) (Cert.ReferenceIdeal.RefValue.dev (F := Ideal) (argT m c))) i = ((argT m c) i - (Ideal.div ((Ideal.ofBits .f32 0x00000000#32) + ∑ i ∈ fiber q, (argT m c) i) (Ideal.ofBits .f32 0x48000000#32))) * ((argT m c) i - (Ideal.div ((Ideal.ofBits .f32 0x00000000#32) + ∑ i ∈ fiber q, (argT m c) i) (Ideal.ofBits .f32 0x48000000#32))) * ((argT m c) i - (Ideal.div ((Ideal.ofBits .f32 0x00000000#32) + ∑ i ∈ fiber q, (argT m c) i) (Ideal.ofBits .f32 0x48000000#32))) := fun i hi => by
    show (Cert.ReferenceIdeal.RefValue.dev (F := Ideal) (argT m c) i) * (Cert.ReferenceIdeal.RefValue.dev (F := Ideal) (argT m c) i) * (Cert.ReferenceIdeal.RefValue.dev (F := Ideal) (argT m c) i) = _
    rw [Cert.ReferenceIdeal.RefValue.dev_apply, mem_fiber.mp hi, Cert.ReferenceIdeal.RefValue.chanMean_apply]
  rw [cm3_apply, mean_apply, row_apply_5, table_row_5 m c q, row_apply_6, table_row_6 m c q, row_apply_7, table_row_7 m c q]
  rw [Cert.ReferenceIdeal.RefValue.chanMean_apply, Finset.sum_congr rfl hdev]
  simp only [hz]
  exact Cert.MomentBridge.bridge3 (fiber q) z (fiber_card q)

set_option maxHeartbeats 4000000 in
/-- Order 4: the kernel's centered moment is the reference's, at every channel. -/
theorem chan4_t (hZ : ∀ i, ∃ r : ℝ, (argT m c) i = (r : EReal)) :
    cm4 (F := Ideal) (mean (r5 (table m c))) (r5 (table m c)) (r6 (table m c)) (r7 (table m c)) (r8 (table m c)) = Cert.ReferenceIdeal.RefValue.chanMean (F := Ideal) (mulf (mulf (mulf (Cert.ReferenceIdeal.RefValue.dev (F := Ideal) (argT m c)) (Cert.ReferenceIdeal.RefValue.dev (F := Ideal) (argT m c))) (Cert.ReferenceIdeal.RefValue.dev (F := Ideal) (argT m c))) (Cert.ReferenceIdeal.RefValue.dev (F := Ideal) (argT m c))) := by
  funext j
  obtain ⟨q, rfl⟩ : ∃ q : Fin 256, j = ix1 q := ⟨j 0, eq_ix1 j⟩
  choose z hz using hZ
  have hdev : ∀ i ∈ fiber q, (mulf (mulf (mulf (Cert.ReferenceIdeal.RefValue.dev (F := Ideal) (argT m c)) (Cert.ReferenceIdeal.RefValue.dev (F := Ideal) (argT m c))) (Cert.ReferenceIdeal.RefValue.dev (F := Ideal) (argT m c))) (Cert.ReferenceIdeal.RefValue.dev (F := Ideal) (argT m c))) i = ((argT m c) i - (Ideal.div ((Ideal.ofBits .f32 0x00000000#32) + ∑ i ∈ fiber q, (argT m c) i) (Ideal.ofBits .f32 0x48000000#32))) * ((argT m c) i - (Ideal.div ((Ideal.ofBits .f32 0x00000000#32) + ∑ i ∈ fiber q, (argT m c) i) (Ideal.ofBits .f32 0x48000000#32))) * ((argT m c) i - (Ideal.div ((Ideal.ofBits .f32 0x00000000#32) + ∑ i ∈ fiber q, (argT m c) i) (Ideal.ofBits .f32 0x48000000#32))) * ((argT m c) i - (Ideal.div ((Ideal.ofBits .f32 0x00000000#32) + ∑ i ∈ fiber q, (argT m c) i) (Ideal.ofBits .f32 0x48000000#32))) := fun i hi => by
    show (Cert.ReferenceIdeal.RefValue.dev (F := Ideal) (argT m c) i) * (Cert.ReferenceIdeal.RefValue.dev (F := Ideal) (argT m c) i) * (Cert.ReferenceIdeal.RefValue.dev (F := Ideal) (argT m c) i) * (Cert.ReferenceIdeal.RefValue.dev (F := Ideal) (argT m c) i) = _
    rw [Cert.ReferenceIdeal.RefValue.dev_apply, mem_fiber.mp hi, Cert.ReferenceIdeal.RefValue.chanMean_apply]
  rw [cm4_apply, mean_apply, row_apply_5, table_row_5 m c q, row_apply_6, table_row_6 m c q, row_apply_7, table_row_7 m c q, row_apply_8, table_row_8 m c q]
  rw [Cert.ReferenceIdeal.RefValue.chanMean_apply, Finset.sum_congr rfl hdev]
  simp only [hz]
  exact Cert.MomentBridge.bridge4 (fiber q) z (fiber_card q)

set_option maxHeartbeats 4000000 in
/-- Order 5: the kernel's centered moment is the reference's, at every channel. -/
theorem chan5_t (hZ : ∀ i, ∃ r : ℝ, (argT m c) i = (r : EReal)) :
    cm5 (F := Ideal) (mean (r5 (table m c))) (r5 (table m c)) (r6 (table m c)) (r7 (table m c)) (r8 (table m c)) (r9 (table m c)) = Cert.ReferenceIdeal.RefValue.chanMean (F := Ideal) (mulf (mulf (mulf (mulf (Cert.ReferenceIdeal.RefValue.dev (F := Ideal) (argT m c)) (Cert.ReferenceIdeal.RefValue.dev (F := Ideal) (argT m c))) (Cert.ReferenceIdeal.RefValue.dev (F := Ideal) (argT m c))) (Cert.ReferenceIdeal.RefValue.dev (F := Ideal) (argT m c))) (Cert.ReferenceIdeal.RefValue.dev (F := Ideal) (argT m c))) := by
  funext j
  obtain ⟨q, rfl⟩ : ∃ q : Fin 256, j = ix1 q := ⟨j 0, eq_ix1 j⟩
  choose z hz using hZ
  have hdev : ∀ i ∈ fiber q, (mulf (mulf (mulf (mulf (Cert.ReferenceIdeal.RefValue.dev (F := Ideal) (argT m c)) (Cert.ReferenceIdeal.RefValue.dev (F := Ideal) (argT m c))) (Cert.ReferenceIdeal.RefValue.dev (F := Ideal) (argT m c))) (Cert.ReferenceIdeal.RefValue.dev (F := Ideal) (argT m c))) (Cert.ReferenceIdeal.RefValue.dev (F := Ideal) (argT m c))) i = ((argT m c) i - (Ideal.div ((Ideal.ofBits .f32 0x00000000#32) + ∑ i ∈ fiber q, (argT m c) i) (Ideal.ofBits .f32 0x48000000#32))) * ((argT m c) i - (Ideal.div ((Ideal.ofBits .f32 0x00000000#32) + ∑ i ∈ fiber q, (argT m c) i) (Ideal.ofBits .f32 0x48000000#32))) * ((argT m c) i - (Ideal.div ((Ideal.ofBits .f32 0x00000000#32) + ∑ i ∈ fiber q, (argT m c) i) (Ideal.ofBits .f32 0x48000000#32))) * ((argT m c) i - (Ideal.div ((Ideal.ofBits .f32 0x00000000#32) + ∑ i ∈ fiber q, (argT m c) i) (Ideal.ofBits .f32 0x48000000#32))) * ((argT m c) i - (Ideal.div ((Ideal.ofBits .f32 0x00000000#32) + ∑ i ∈ fiber q, (argT m c) i) (Ideal.ofBits .f32 0x48000000#32))) := fun i hi => by
    show (Cert.ReferenceIdeal.RefValue.dev (F := Ideal) (argT m c) i) * (Cert.ReferenceIdeal.RefValue.dev (F := Ideal) (argT m c) i) * (Cert.ReferenceIdeal.RefValue.dev (F := Ideal) (argT m c) i) * (Cert.ReferenceIdeal.RefValue.dev (F := Ideal) (argT m c) i) * (Cert.ReferenceIdeal.RefValue.dev (F := Ideal) (argT m c) i) = _
    rw [Cert.ReferenceIdeal.RefValue.dev_apply, mem_fiber.mp hi, Cert.ReferenceIdeal.RefValue.chanMean_apply]
  rw [cm5_apply, mean_apply, row_apply_5, table_row_5 m c q, row_apply_6, table_row_6 m c q, row_apply_7, table_row_7 m c q, row_apply_8, table_row_8 m c q, row_apply_9, table_row_9 m c q]
  rw [Cert.ReferenceIdeal.RefValue.chanMean_apply, Finset.sum_congr rfl hdev]
  simp only [hz]
  exact Cert.MomentBridge.bridge5 (fiber q) z (fiber_card q)

end Cert.Proof.Algebraic

end
-- ==== Proof.Finite.lean ====
/-
  The precondition, read back: every entry of both arguments is a real number.

  The predicate says, of each argument, that |entry| < +inf at every index (an "and" over all indices that came
  out 1). Over the extended reals |x| = max x (-x) is +inf exactly at the two infinities, so an entry passing
  the test is the coercion of a real.
-/
import proofs.«148899_j15599321219646_2_alg».proof.Defs
import proofs.«148899_j15599321219646_2_alg».proof.Proof.Gen.Pre_finite_inputs
import Idealize.ShloMosaic.Lib.ReduceAll
import Idealize.ShloMosaic.Lib.ValueIdx
import Idealize.ShloMosaic.Lib.Pipeline.Value

noncomputable section

namespace Cert.Proof.Finite

open Idealize.ShloMosaic Idealize.ShloMosaic.ValueIdx

instance : Subsingleton Cert.Pre_finite_inputs.S_.Idx := ⟨fun a b => funext fun d => d.elim0⟩

/-- |x| < +inf: x is a real. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec
  · exact absurd h (by simp [Ideal.cmp])
  · exact ⟨_, rfl⟩
  · exact absurd h (by simp [Ideal.cmp])

/-- Both arguments have real entries. -/
theorem reals_of_pre (a0 a1 : FVec Ideal Cert.Pre_finite_inputs.S8x256x128x128 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ix0
  dsimp only [Cert.Pre_finite_inputs.fn] at h0
  obtain ⟨ha, hb⟩ := (IntOp.andi_eq_one).mp h0
  have hc : ∀ i, broadcastInDim Cert.Pre_finite_inputs.S8x256x128x128 ![] Cert.Pre_finite_inputs.Gen.facts.bcast_S_S8x256x128x128
      (constant (F := Ideal) Cert.Pre_finite_inputs.S_ .f32 0x7F800000#32) i = Ideal.ofBits .f32 0x7F800000#32 :=
    fun i => broadcastInDim_apply _ _ _ i (fun a => a.elim0) (fun a => a.elim0)
  refine ⟨fun i => real_of_abs_lt (a0 i) ?_, fun i => real_of_abs_lt (a1 i) ?_⟩
  · have e := Host.reduce_andi_all _ _ _ _ ix0 ha i
    rw [← hc i]; exact e
  · have e := Host.reduce_andi_all _ _ _ _ ix0 hb i
    rw [← hc i]; exact e

end Cert.Proof.Finite

end
-- ==== Proof.Algebraic.lean ====
/-
  The two results are one number.

  Channel by channel the kernel's table holds the raw power sums of the channel's 131072 entries, the host lines
  turn them into centered moments by the binomial expansion, and under the precondition — every entry a real
  number — these are the reference's moments of the deviations from the mean. The two losses are then the same
  combination of equal vectors.
-/
import proofs.«148899_j15599321219646_2_alg».proof.Proof.KiOut
import proofs.«148899_j15599321219646_2_alg».proof.Proof.AlgChanX
import proofs.«148899_j15599321219646_2_alg».proof.Proof.AlgChanT
import proofs.«148899_j15599321219646_2_alg».proof.Proof.Finite

set_option maxRecDepth 16384

noncomputable section

namespace Cert.Proof.Algebraic

open Idealize.ShloMosaic Idealize.ShloMosaic.ValueIdx Idealize.ShloMosaic.TcCoe Idealize.SL.Sem Finset
open Cert.FiberSum
open Cert.KernelIdeal Cert.KernelIdeal.Gen Cert.KernelIdeal.Fr Cert.KernelIdeal.Tail

variable (m : (ℓ : Loc Cert.KernelIdeal.nD Cert.KernelIdeal.τ Cert.KernelIdeal.sig) → Buf (Elt Ideal) ℓ) (c : Dev Cert.KernelIdeal.nD)

/-- The kernel's loss of its table is the reference's result, when every entry of both arguments is real. -/
theorem loss_eq (h0 : ∀ i, ∃ r : ℝ, argX m c i = (r : EReal)) (h1 : ∀ i, ∃ r : ℝ, argT m c i = (r : EReal)) :
    lossOf (F := Ideal) (table m c) = Cert.ReferenceIdeal.Read.val_main_v72 (F := Ideal) (argX m c) (argT m c) := by
  rw [Cert.ReferenceIdeal.RefValue.result_shape, Cert.ReferenceIdeal.RefValue.v12_eq]
  unfold lossOf
  rw [chan2_x m c h0, chan2_t m c h1, chan3_x m c h0, chan3_t m c h1, chan4_x m c h0, chan4_t m c h1,
    chan5_x m c h0, chan5_t m c h1, chan1_x m c, chan1_t m c]
  rfl

/-! ## The claim -/

theorem algebraic : Cert.algebraic_KernelIdeal_ReferenceIdeal := by
  intro m ρ m' ρ' hpre hagree
  refine ⟨fun c => Cert.KernelIdeal.Tail.lossOf (F := Ideal) (Cert.KernelIdeal.Fr.table m c), Cert.KernelIdeal.Fr.kernel_run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨r0, r1⟩ := Cert.Proof.Finite.reals_of_pre _ _ (hpre c)
  rw [Cert.ReferenceIdeal.Read.val_main_v72_eq, (hagree c).1, (hagree c).2]
  exact (loss_eq m c r0 r1).symm

end Cert.Proof.Algebraic

end
-- ==== Proof.lean ====
/-
  Multi-order moment loss: a one-pass kernel against the two-pass reference.

  Both programs return, for two 8 x 256 x 128 x 128 tables x and t, the sum over the orders k = 1 … 5 of
  sqrt(Σ over the 256 channels of (M_k(x) − M_k(t))²), where M_1 is a channel's mean over its n = 8·128·128
  entries and M_k (k ≥ 2) its k-th moment about that mean. The reference centres the entries and sums their
  powers. The kernel reads each table once, sums the raw powers x^1 … x^5 per channel in ten accumulators over a
  2 x 8 x 2 grid, and recovers the centred moments on the host by the binomial expansion
  Σ (x_i − m)^k = Σ_j C(k, j) (−m)^(k−j) Σ x_i^j. Under the precondition every entry is a real number, so both
  sides are the same real quantity; over the extended reals the expansion would fail at an infinity.

  The three programs run to the end without a fault and leave their arguments as they were; the idealized kernel
  is the kernel's own text (the ideal pass rewrote nothing).
-/
import proofs.«148899_j15599321219646_2_alg».proof.Defs
import proofs.«148899_j15599321219646_2_alg».proof.Proof.KbFrame
import proofs.«148899_j15599321219646_2_alg».proof.Proof.KiFrame
import proofs.«148899_j15599321219646_2_alg».proof.Proof.Gen.ReferenceIdeal.Run
import proofs.«148899_j15599321219646_2_alg».proof.Proof.Gen.Pre_finite_inputs
import proofs.«148899_j15599321219646_2_alg».proof.Proof.Algebraic
import Idealize.ShloMosaic.Adequacy
import Idealize.ShloMosaic.Init

noncomputable section

namespace Cert.Proof

open Idealize.ShloMosaic Idealize.SL.Sem

theorem frame_kernel : Cert.frame_Kernel := fun m ρ _ => Cert.Kernel.Fr.frame (F := Bits) m ρ
theorem frame_kernelIdeal : Cert.frame_KernelIdeal := fun m ρ _ => Cert.KernelIdeal.Fr.frame (F := Ideal) m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, Cert.Proof.Algebraic.algebraic⟩

end Cert.Proof

end
